-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S32x16 : Shape := ⟨2, ![32, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part5 {F : FTy → Type} [FloatOps F] (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  main_v88

def fn_part4 {F : FTy → Type} [FloatOps F] (main_arg15 : FVec F S64x64 .f32) (main_arg16 : FVec F S64 .f32) (main_arg17 : FVec F S64x4 .f32) (main_arg18 : FVec F S4 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x4 .f32 := Host.absf main_arg17
  let main_cst_30 : FVec F S_ .f32 := constant S_ .f32 0x7F800000#32
  let main_v80 : FVec F S64x4 .f32 := broadcastInDim S64x4 ![] bcast_S_S64x4 main_cst_30
  let main_v81 : IVec S64x4 1 := cmpf .olt main_v79 main_v80
  let main_c_31 : IVec S_ 1 := constantI S_ 1 1#1
  let main_v82 : IVec S_ 1 := (fun x v => Host.reduce IntOp.andi x v reducesTo_S64x4_S_d0_1 h_S_) main_v81 main_c_31
  let main_v83 : IVec S_ 1 := andi main_v78 main_v82
  let main_v84 : FVec F S4 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S16x16 .f32) (main_arg9 : FVec F S16x16 .f32) (main_arg10 : FVec F S16 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x64 .f32 := Host.absf main_arg11
  let main_cst_18 : FVec F S_ .f32 := constant S_ .f32 0x7F800000#32
  let main_v50 : FVec F S16x64 .f32 := broadcastInDim S16x64 ![] bcast_S_S16x64 main_cst_18
  fn_part3 (F := F) main_arg12 main_arg13 main_arg14 main_arg15 main_arg16 main_arg17 main_arg18 main_v48 main_v49 main_v50

def fn_part1 {F : FTy → Type} [FloatOps F] (main_arg5 : FVec F S16x16 .f32) (main_arg6 : FVec F S16x16 .f32) (main_arg7 : FVec F S16 .f32) (main_arg8 : FVec F S16x16 .f32) (main_arg9 : FVec F S16x16 .f32) (main_arg10 : FVec F S16 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x32 .f32) (main_arg1 : IVec S2x3200000 32) (main_arg2 : FVec F S32x16 .f32) (main_arg3 : FVec F S32x16 .f32) (main_arg4 : FVec F S16 .f32) (main_arg5 : FVec F S16x16 .f32) (main_arg6 : FVec F S16x16 .f32) (main_arg7 : FVec F S16 .f32) (main_arg8 : FVec F S16x16 .f32) (main_arg9 : FVec F S16x16 .f32) (main_arg10 : FVec F S16 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S64x4 .f32) (main_arg18 : FVec F S4 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x16 .f32 := Host.absf main_arg2
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S32x16 .f32 := Host.absf main_arg3
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S2x3200000 : Shape := ⟨2, ![2, 3200000]⟩
abbrev S32x16 : Shape := ⟨2, ![32, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x16 : Shape := ⟨2, ![100000, 16]⟩
abbrev S5000x32 : Shape := ⟨2, ![5000, 32]⟩
abbrev S5000x16 : Shape := ⟨2, ![5000, 16]⟩
abbrev S3200000x16 : Shape := ⟨2, ![3200000, 16]⟩
abbrev S1x16 : Shape := ⟨2, ![1, 16]⟩
abbrev S5000x1 : Shape := ⟨2, ![5000, 1]⟩
abbrev S1x64 : Shape := ⟨2, ![1, 64]⟩
abbrev S1x4 : Shape := ⟨2, ![1, 4]⟩
abbrev S100000x4 : Shape := ⟨2, ![100000, 4]⟩
abbrev S5000x4 : Shape := ⟨2, ![5000, 4]⟩
abbrev S5000x64 : Shape := ⟨2, ![5000, 64]⟩

abbrev nBuf : Space → Nat
  | .hbm => 85
  | .vmem => 45
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x16, .f32⟩
  | .hbm, ⟨3, _⟩ => ⟨S32x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16x16, .f32⟩
  | .hbm, ⟨10, _⟩ => ⟨S16, .f32⟩
  | .hbm, ⟨11, _⟩ => ⟨S16x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x4, .f32⟩
  | .hbm, ⟨18, _⟩ => ⟨S4, .f32⟩
  | .hbm, ⟨19, _⟩ => ⟨S1x3200000, .i32⟩
  | .hbm, ⟨20, _⟩ => ⟨S3200000, .i32⟩
  | .hbm, ⟨21, _⟩ => ⟨S1x3200000, .i32⟩
  | .hbm, ⟨22, _⟩ => ⟨S3200000, .i32⟩
  | .hbm, ⟨23, _⟩ => ⟨S_, .f32⟩
  | .hbm, ⟨24, _⟩ => ⟨S3200000x1, .f32⟩
  | .hbm, ⟨25, _⟩ => ⟨S_, .f32⟩
  | .hbm, ⟨26, _⟩ => ⟨S100000x1, .f32⟩
  | .hbm, ⟨27, _⟩ => ⟨S3200000x1, .i32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x16, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x16, .f32⟩
  | .hbm, ⟨45, _⟩ => ⟨S_, .f32⟩
  | .hbm, ⟨46, _⟩ => ⟨S100000x16, .f32⟩
  | .hbm, ⟨47, _⟩ => ⟨S3200000x1, .i32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x16, .f32⟩
  | .hbm, ⟨60, _⟩ => ⟨S_, .f32⟩
  | .hbm, ⟨61, _⟩ => ⟨S100000x16, .f32⟩
  | .hbm, ⟨62, _⟩ => ⟨S3200000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000x16, .f32⟩
  | .hbm, ⟨75, _⟩ => ⟨S_, .f32⟩
  | .hbm, ⟨76, _⟩ => ⟨S100000x16, .f32⟩
  | .hbm, ⟨77, _⟩ => ⟨S3200000x1, .i32⟩
  | .hbm, ⟨78, _⟩ => ⟨S100000x16, .f32⟩
  | .hbm, ⟨79, _⟩ => ⟨S1x16, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x4, .f32⟩
  | .hbm, ⟨84, _⟩ => ⟨S100000x4, .f32⟩
  | .local _ .vmem, ⟨0, _⟩ => ⟨S5000x32, .f32⟩
  | .local _ .vmem, ⟨1, _⟩ => ⟨S5000x32, .f32⟩
  | .local _ .vmem, ⟨2, _⟩ => ⟨S32x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x32, .f32⟩
  | .local _ .vmem, ⟨8, _⟩ => ⟨S5000x32, .f32⟩
  | .local _ .vmem, ⟨9, _⟩ => ⟨S32x16, .f32⟩
  | .local _ .vmem, ⟨10, _⟩ => ⟨S1x16, .f32⟩
  | .local _ .vmem, ⟨11, _⟩ => ⟨S5000x1, .f32⟩
  | .local _ .vmem, ⟨12, _⟩ => ⟨S5000x1, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S16x16, .f32⟩
  | .local _ .vmem, ⟨20, _⟩ => ⟨S16x16, .f32⟩
  | .local _ .vmem, ⟨21, _⟩ => ⟨S1x16, .f32⟩
  | .local _ .vmem, ⟨22, _⟩ => ⟨S5000x1, .f32⟩
  | .local _ .vmem, ⟨23, _⟩ => ⟨S5000x1, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S16x16, .f32⟩
  | .local _ .vmem, ⟨31, _⟩ => ⟨S16x16, .f32⟩
  | .local _ .vmem, ⟨32, _⟩ => ⟨S1x16, .f32⟩
  | .local _ .vmem, ⟨33, _⟩ => ⟨S5000x1, .f32⟩
  | .local _ .vmem, ⟨34, _⟩ => ⟨S5000x1, .f32⟩
  | .local _ .vmem, ⟨35, _⟩ => ⟨S16x64, .f32⟩
  | .local _ .vmem, ⟨36, _⟩ => ⟨S1x64, .f32⟩
  | .local _ .vmem, ⟨37, _⟩ => ⟨S64x64, .f32⟩
  | .local _ .vmem, ⟨38, _⟩ => ⟨S1x64, .f32⟩
  | .local _ .vmem, ⟨39, _⟩ => ⟨S64x64, .f32⟩
  | .local _ .vmem, ⟨40, _⟩ => ⟨S1x64, .f32⟩
  | .local _ .vmem, ⟨41, _⟩ => ⟨S64x4, .f32⟩
  | .local _ .vmem, ⟨42, _⟩ => ⟨S1x4, .f32⟩
  | .local _ .vmem, ⟨43, _⟩ => ⟨S5000x4, .f32⟩
  | .local _ .vmem, ⟨44, _⟩ => ⟨S5000x4, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg14_0 : Ref sig .tc := ⟨.vmem, 43, rfl⟩
abbrev cc3_stg14_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42
abbrev cc3_sem14_0 : DmaSem sig := 43
abbrev cc3_sem14_1 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S16x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S64x4 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x4 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S5000x4 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000x1 : S_.BroadcastsInDim S3200000x1 (![] : Fin 0 → Fin S3200000x1.rank)
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S_S3200000 : S_.BroadcastsInDim S3200000 (![] : Fin 0 → Fin S3200000.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  shapeCasts_S64_S1x64 : S64.ShapeCasts S1x64
  shapeCasts_S4_S1x4 : S4.ShapeCasts S1x4
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S100000x1_S3200000x1_S3200000x1_1_0_0_1_wf : ScatterDims.WF S100000x1 S3200000x1 S3200000x1 [1] [0] [0] 1
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x16_S5000x16_1_0_0_1_n_n_wf : DotDims.WF S5000x16 S16x16 S5000x16 [1] [0] [0] [1] [] []
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  dot_S5000x64_S64x4_S5000x4_1_0_0_1_n_n_wf : DotDims.WF S5000x64 S64x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S100000x16.size a
  hwx2_6 : ∀ i : grid2.Coords, EltTy.bits .f32 = 32 ∨ (Rect.block (s := S100000x16) S5000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16x64.size a ≤ S16x64.size a
  hwx3_6 : ∀ i : grid3.Coords, EltTy.bits .f32 = 32 ∨ (Rect.block (s := S16x64) S16x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x64.size a ≤ S64x64.size a
  hwx3_10 : ∀ i : grid3.Coords, EltTy.bits .f32 = 32 ∨ (Rect.block (s := S64x64) S64x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S64x4.size a ≤ S64x4.size a
  hwx3_12 : ∀ i : grid3.Coords, EltTy.bits .f32 = 32 ∨ (Rect.block (s := S64x4) S64x4.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x4.size a ≤ S1x4.size a
  hwx3_13 : ∀ i : grid3.Coords, EltTy.bits .f32 = 32 ∨ (Rect.block (s := S1x4) S1x4.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x4.size a ≤ S100000x4.size a
  hwx3_14 : ∀ i : grid3.Coords, EltTy.bits .f32 = 32 ∨ (Rect.block (s := S100000x4) S5000x4.size (cc3_transform_14 i) (hinb3_14 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v46) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg11) S16x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v48) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg13) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v49) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg15) S64x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v50) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg17) S64x4.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v51) S1x4.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v52) S5000x4.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S32x16 : Shape := ⟨2, ![32, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S100000x16 : Shape := ⟨2, ![100000, 16]⟩
abbrev S1x16 : Shape := ⟨2, ![1, 16]⟩
abbrev S3200000x16 : Shape := ⟨2, ![3200000, 16]⟩
abbrev S100000x64 : Shape := ⟨2, ![100000, 64]⟩
abbrev S1x64 : Shape := ⟨2, ![1, 64]⟩
abbrev S100000x4 : Shape := ⟨2, ![100000, 4]⟩
abbrev S1x4 : Shape := ⟨2, ![1, 4]⟩

abbrev nBuf : Space → Nat
  | .hbm => 219
  | .vmem => 0
  | .smem => 0
  | _ => 0

abbrev hbmTy0_0 (i : Nat) : BufTy := match i % 128 with
  | 0 => ⟨S100000x32, .f32⟩
  | 1 => ⟨S2x3200000, .i32⟩
  | 2 => ⟨S32x16, .f32⟩
  | 3 => ⟨S32x16, .f32⟩
  | 4 => ⟨S16, .f32⟩
  | 5 => ⟨S16x16, .f32⟩
  | 6 => ⟨S16x16, .f32⟩
  | 7 => ⟨S16, .f32⟩
  | 8 => ⟨S16x16, .f32⟩
  | 9 => ⟨S16x16, .f32⟩
  | 10 => ⟨S16, .f32⟩
  | 11 => ⟨S16x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x4, .f32⟩
  | 18 => ⟨S4, .f32⟩
  | 19 => ⟨S1x3200000, .i32⟩
  | 20 => ⟨S3200000, .i32⟩
  | 21 => ⟨S1x3200000, .i32⟩
  | 22 => ⟨S3200000, .i32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x32, .f32⟩
  | 32 => ⟨S_, .f32⟩
  | 33 => ⟨S100000x32, .f32⟩
  | 34 => ⟨S3200000x1, .i32⟩
  | 35 => ⟨S100000x32, .f32⟩
  | 36 => ⟨S_, .f32⟩
  | 37 => ⟨S3200000x1, .f32⟩
  | 38 => ⟨S_, .f32⟩
  | 39 => ⟨S100000x1, .f32⟩
  | 40 => ⟨S3200000x1, .i32⟩
  | 41 => ⟨S100000x1, .f32⟩
  | 42 => ⟨S_, .f32⟩
  | 43 => ⟨S100000x1, .f32⟩
  | 44 => ⟨S100000x1, .f32⟩
  | 45 => ⟨S100000x32, .f32⟩
  | 46 => ⟨S100000x32, .f32⟩
  | 47 => ⟨S100000x16, .f32⟩
  | 48 => ⟨S1x16, .f32⟩
  | 49 => ⟨S100000x16, .f32⟩
  | 50 => ⟨S100000x16, .f32⟩
  | 51 => ⟨S100000x16, .f32⟩
  | 52 => ⟨S100000x16, .f32⟩
  | 53 => ⟨S_, .f32⟩
  | 54 => ⟨S100000x16, .f32⟩
  | 55 => ⟨S100000x16, .i1⟩
  | 56 => ⟨S_, .f32⟩
  | 57 => ⟨S100000x16, .f32⟩
  | 58 => ⟨S100000x16, .i1⟩
  | 59 => ⟨S_, .f32⟩
  | 60 => ⟨S_, .f32⟩
  | 61 => ⟨S100000x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x16, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x16, .f32⟩
  | 77 => ⟨S_, .f32⟩
  | 78 => ⟨S100000x16, .f32⟩
  | 79 => ⟨S3200000x1, .i32⟩
  | 80 => ⟨S100000x16, .f32⟩
  | 81 => ⟨S_, .f32⟩
  | 82 => ⟨S3200000x1, .f32⟩
  | 83 => ⟨S_, .f32⟩
  | 84 => ⟨S100000x1, .f32⟩
  | 85 => ⟨S3200000x1, .i32⟩
  | 86 => ⟨S100000x1, .f32⟩
  | 87 => ⟨S_, .f32⟩
  | 88 => ⟨S100000x1, .f32⟩
  | 89 => ⟨S100000x1, .f32⟩
  | 90 => ⟨S100000x16, .f32⟩
  | 91 => ⟨S100000x16, .f32⟩
  | 92 => ⟨S100000x16, .f32⟩
  | 93 => ⟨S1x16, .f32⟩
  | 94 => ⟨S100000x16, .f32⟩
  | 95 => ⟨S100000x16, .f32⟩
  | 96 => ⟨S100000x16, .f32⟩
  | 97 => ⟨S100000x16, .f32⟩
  | 98 => ⟨S_, .f32⟩
  | 99 => ⟨S100000x16, .f32⟩
  | 100 => ⟨S100000x16, .i1⟩
  | 101 => ⟨S_, .f32⟩
  | 102 => ⟨S100000x16, .f32⟩
  | 103 => ⟨S100000x16, .i1⟩
  | 104 => ⟨S_, .f32⟩
  | 105 => ⟨S_, .f32⟩
  | 106 => ⟨S100000x16, .f32⟩
  | 107 => ⟨S100000x16, .f32⟩
  | 108 => ⟨S100000x16, .f32⟩
  | 109 => ⟨S_, .f32⟩
  | 110 => ⟨S100000x16, .f32⟩
  | 111 => ⟨S100000x16, .f32⟩
  | 112 => ⟨S100000x16, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x16, .f32⟩
  | 122 => ⟨S_, .f32⟩
  | 123 => ⟨S100000x16, .f32⟩
  | 124 => ⟨S3200000x1, .i32⟩
  | 125 => ⟨S100000x16, .f32⟩
  | 126 => ⟨S_, .f32⟩
  | 127 => ⟨S3200000x1, .f32⟩
  | _ => ⟨S100000x32, .f32⟩

abbrev hbmTy0_1 (i : Nat) : BufTy := match i % 128 with
  | 0 => ⟨S_, .f32⟩
  | 1 => ⟨S100000x1, .f32⟩
  | 2 => ⟨S3200000x1, .i32⟩
  | 3 => ⟨S100000x1, .f32⟩
  | 4 => ⟨S_, .f32⟩
  | 5 => ⟨S100000x1, .f32⟩
  | 6 => ⟨S100000x1, .f32⟩
  | 7 => ⟨S100000x16, .f32⟩
  | 8 => ⟨S100000x16, .f32⟩
  | 9 => ⟨S100000x16, .f32⟩
  | 10 => ⟨S1x16, .f32⟩
  | 11 => ⟨S100000x16, .f32⟩
  | 12 => ⟨S100000x16, .f32⟩
  | 13 => ⟨S100000x16, .f32⟩
  | 14 => ⟨S100000x16, .f32⟩
  | 15 => ⟨S_, .f32⟩
  | 16 => ⟨S100000x16, .f32⟩
  | 17 => ⟨S100000x16, .i1⟩
  | 18 => ⟨S_, .f32⟩
  | 19 => ⟨S100000x16, .f32⟩
  | 20 => ⟨S100000x16, .i1⟩
  | 21 => ⟨S_, .f32⟩
  | 22 => ⟨S_, .f32⟩
  | 23 => ⟨S100000x16, .f32⟩
  | 24 => ⟨S100000x16, .f32⟩
  | 25 => ⟨S100000x16, .f32⟩
  | 26 => ⟨S_, .f32⟩
  | 27 => ⟨S100000x16, .f32⟩
  | 28 => ⟨S100000x16, .f32⟩
  | 29 => ⟨S100000x16, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .i1⟩
  | 37 => ⟨S_, .f32⟩
  | 38 => ⟨S100000x64, .f32⟩
  | 39 => ⟨S100000x64, .i1⟩
  | 40 => ⟨S_, .f32⟩
  | 41 => ⟨S_, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .i1⟩
  | 56 => ⟨S_, .f32⟩
  | 57 => ⟨S100000x64, .f32⟩
  | 58 => ⟨S100000x64, .i1⟩
  | 59 => ⟨S_, .f32⟩
  | 60 => ⟨S_, .f32⟩
  | 61 => ⟨S100000x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .i1⟩
  | 75 => ⟨S_, .f32⟩
  | 76 => ⟨S100000x64, .f32⟩
  | 77 => ⟨S100000x64, .i1⟩
  | 78 => ⟨S_, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S100000x4, .f32⟩
  | 88 => ⟨S1x4, .f32⟩
  | 89 => ⟨S100000x4, .f32⟩
  | 90 => ⟨S100000x4, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_cst_1 : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_v4 : Ref sig .tc := ⟨.hbm, 62, rfl⟩
abbrev main_call0_v5 : Ref sig .tc := ⟨.hbm, 63, rfl⟩
abbrev main_call0_cst_2 : Ref sig .tc := ⟨.hbm, 64, rfl⟩
abbrev main_call0_v6 : Ref sig .tc := ⟨.hbm, 65, rfl⟩
abbrev main_call0_v7 : Ref sig .tc := ⟨.hbm, 66, rfl⟩
abbrev main_v28 : Ref sig .tc := ⟨.hbm, 67, rfl⟩
abbrev main_c_4 : Ref sig .tc := ⟨.hbm, 68, rfl⟩
abbrev main_v29 : Ref sig .tc := ⟨.hbm, 69, rfl⟩
abbrev main_v30 : Ref sig .tc := ⟨.hbm, 70, rfl⟩
abbrev main_c_5 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_6 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_cst_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_9 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_cst_1 : Ref sig .tc := ⟨.hbm, 104, rfl⟩
abbrev main_call1_call0_v0 : Ref sig .tc := ⟨.hbm, 105, rfl⟩
abbrev main_call1_call0_v1 : Ref sig .tc := ⟨.hbm, 106, rfl⟩
abbrev main_call1_v4 : Ref sig .tc := ⟨.hbm, 107, rfl⟩
abbrev main_call1_v5 : Ref sig .tc := ⟨.hbm, 108, rfl⟩
abbrev main_call1_cst_2 : Ref sig .tc := ⟨.hbm, 109, rfl⟩
abbrev main_call1_v6 : Ref sig .tc := ⟨.hbm, 110, rfl⟩
abbrev main_call1_v7 : Ref sig .tc := ⟨.hbm, 111, rfl⟩
abbrev main_v53 : Ref sig .tc := ⟨.hbm, 112, rfl⟩
abbrev main_c_10 : Ref sig .tc := ⟨.hbm, 113, rfl⟩
abbrev main_v54 : Ref sig .tc := ⟨.hbm, 114, rfl⟩
abbrev main_v55 : Ref sig .tc := ⟨.hbm, 115, rfl⟩
abbrev main_c_11 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_cst_12 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_13 : Ref sig .tc := ⟨.hbm, 126, rfl⟩
abbrev main_v64 : Ref sig .tc := ⟨.hbm, 127, rfl⟩
abbrev main_cst_14 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_15 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_cst_1 : Ref sig .tc := ⟨.hbm, 149, rfl⟩
abbrev main_call2_call0_v0 : Ref sig .tc := ⟨.hbm, 150, rfl⟩
abbrev main_call2_call0_v1 : Ref sig .tc := ⟨.hbm, 151, rfl⟩
abbrev main_call2_v4 : Ref sig .tc := ⟨.hbm, 152, rfl⟩
abbrev main_call2_v5 : Ref sig .tc := ⟨.hbm, 153, rfl⟩
abbrev main_call2_cst_2 : Ref sig .tc := ⟨.hbm, 154, rfl⟩
abbrev main_call2_v6 : Ref sig .tc := ⟨.hbm, 155, rfl⟩
abbrev main_call2_v7 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_cst_1 : Ref sig .tc := ⟨.hbm, 168, rfl⟩
abbrev main_call3_call0_v0 : Ref sig .tc := ⟨.hbm, 169, rfl⟩
abbrev main_call3_call0_v1 : Ref sig .tc := ⟨.hbm, 170, rfl⟩
abbrev main_call3_v4 : Ref sig .tc := ⟨.hbm, 171, rfl⟩
abbrev main_call3_v5 : Ref sig .tc := ⟨.hbm, 172, rfl⟩
abbrev main_call3_cst_2 : Ref sig .tc := ⟨.hbm, 173, rfl⟩
abbrev main_call3_v6 : Ref sig .tc := ⟨.hbm, 174, rfl⟩
abbrev main_call3_v7 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_cst_1 : Ref sig .tc := ⟨.hbm, 187, rfl⟩
abbrev main_call4_call0_v0 : Ref sig .tc := ⟨.hbm, 188, rfl⟩
abbrev main_call4_call0_v1 : Ref sig .tc := ⟨.hbm, 189, rfl⟩
abbrev main_call4_v4 : Ref sig .tc := ⟨.hbm, 190, rfl⟩
abbrev main_call4_v5 : Ref sig .tc := ⟨.hbm, 191, rfl⟩
abbrev main_call4_cst_2 : Ref sig .tc := ⟨.hbm, 192, rfl⟩
abbrev main_call4_v6 : Ref sig .tc := ⟨.hbm, 193, rfl⟩
abbrev main_call4_v7 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_call5_cst : Ref sig .tc := ⟨.hbm, 200, rfl⟩
abbrev main_call5_v0 : Ref sig .tc := ⟨.hbm, 201, rfl⟩
abbrev main_call5_v1 : Ref sig .tc := ⟨.hbm, 202, rfl⟩
abbrev main_call5_cst_0 : Ref sig .tc := ⟨.hbm, 203, rfl⟩
abbrev main_call5_v2 : Ref sig .tc := ⟨.hbm, 204, rfl⟩
abbrev main_call5_v3 : Ref sig .tc := ⟨.hbm, 205, rfl⟩
abbrev main_call5_cst_1 : Ref sig .tc := ⟨.hbm, 206, rfl⟩
abbrev main_call5_call0_v0 : Ref sig .tc := ⟨.hbm, 207, rfl⟩
abbrev main_call5_call0_v1 : Ref sig .tc := ⟨.hbm, 208, rfl⟩
abbrev main_call5_v4 : Ref sig .tc := ⟨.hbm, 209, rfl⟩
abbrev main_call5_v5 : Ref sig .tc := ⟨.hbm, 210, rfl⟩
abbrev main_call5_cst_2 : Ref sig .tc := ⟨.hbm, 211, rfl⟩
abbrev main_call5_v6 : Ref sig .tc := ⟨.hbm, 212, rfl⟩
abbrev main_call5_v7 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x64_S100000x64_1_0_0_1_n_n_wf : DotDims.WF S100000x16 S16x64 S100000x64 [1] [0] [0] [1] [] []
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.Spec.lean ====
/-
  The mathematics both programs compute, stated once, row by row, on the extended reals.

  Every dense stage of the network acts on each node (row) separately: a row of features is multiplied by a
  weight matrix, a bias row is added, and the exponential linear unit `elu v = v` for `0 < v`, `exp v − 1`
  otherwise, is applied entry by entry. A graph-convolution stage first scales the row of summed neighbour
  messages by the reciprocal of the node's (clamped) in-degree. Because the stages are row-local, a program that
  works on tiles of 5000 rows and a program that works on all 100000 rows at once compute the same row functions;
  the definitions below are those row functions, and `G0 … G3` are the four whole-array results built from them.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A two-axis array of extended reals with `a` rows and `b` columns. -/
abbrev Mat (a b : Nat) : Type := (⟨2, ![a, b]⟩ : Shape).Idx → EReal

/-- Row `p` of a two-axis array, as a function of the column. -/
abbrev row {a k : Nat} (X : Mat a k) (p : Fin a) : Fin k → EReal := fun c => X (ix2 p c)

/-- The exponential linear unit on the extended reals: the identity on the positives, `exp v − 1` elsewhere. -/
def elu (v : EReal) : EReal := if 0 < v then v else Ideal.exp v - 1

/-- A row times a matrix: entry `q` is `∑ₖ h k · W[k, q]`. -/
def rowMat {k d : Nat} (h : Fin k → EReal) (W : Mat k d) (q : Fin d) : EReal :=
  ∑ c : Fin k, h c * W (ix2 c q)

/-- A dense layer on one row: `h · W + b`, the bias a one-row array. -/
def rowDense {k d : Nat} (h : Fin k → EReal) (W : Mat k d) (b : Mat 1 d) (q : Fin d) : EReal :=
  rowMat h W q + b (ix2 0 q)

/-- The first graph-convolution stage on one row, the messages already projected to 16 features:
    `elu (msg · inv + x · Wr + b)`. -/
def rowSage0 (msg : Fin 16 → EReal) (inv : EReal) (x : Fin 32 → EReal) (Wr : Mat 32 16) (b : Mat 1 16) (q : Fin 16) : EReal :=
  elu (msg q * inv + rowMat x Wr q + b (ix2 0 q))

/-- A graph-convolution stage on one row of 16 features: `elu ((msg · inv) · Wl + x · Wr + b)`. -/
def rowSage (msg : Fin 16 → EReal) (inv : EReal) (x : Fin 16 → EReal) (Wl Wr : Mat 16 16) (b : Mat 1 16) (q : Fin 16) : EReal :=
  elu (rowMat (fun c => msg c * inv) Wl q + rowMat x Wr q + b (ix2 0 q))

/-- The four-layer head on one row: three dense layers each followed by `elu`, then a last dense layer. -/
def rowHead (h : Fin 16 → EReal) (W0 : Mat 16 64) (b0 : Mat 1 64) (W1 : Mat 64 64) (b1 : Mat 1 64)
    (W2 : Mat 64 64) (b2 : Mat 1 64) (W3 : Mat 64 4) (b3 : Mat 1 4) (q : Fin 4) : EReal :=
  rowDense (fun q3 => elu (rowDense (fun q2 => elu (rowDense (fun q1 => elu (rowDense h W0 b0 q1)) W1 b1 q2)) W2 b2 q3)) W3 b3 q

/-- The projection of all node features: `X · W`. -/
def G0 (X : Mat 100000 32) (W : Mat 32 16) : Mat 100000 16 :=
  fun j => rowMat (row X (j 0)) W (j 1)

/-- The first convolution stage on all nodes (`M` the summed projected messages, `inv` the reciprocal degrees). -/
def G1 (M : Mat 100000 16) (X : Mat 100000 32) (Wr : Mat 32 16) (b : Mat 1 16) (inv : Mat 100000 1) : Mat 100000 16 :=
  fun j => rowSage0 (row M (j 0)) (inv (ix2 (j 0) 0)) (row X (j 0)) Wr b (j 1)

/-- A 16-to-16 convolution stage on all nodes. -/
def G2 (M X : Mat 100000 16) (Wl Wr : Mat 16 16) (b : Mat 1 16) (inv : Mat 100000 1) : Mat 100000 16 :=
  fun j => rowSage (row M (j 0)) (inv (ix2 (j 0) 0)) (row X (j 0)) Wl Wr b (j 1)

/-- The last convolution stage followed by the four-layer head, on all nodes. -/
def G3 (M X : Mat 100000 16) (Wl Wr : Mat 16 16) (b : Mat 1 16) (inv : Mat 100000 1)
    (W0 : Mat 16 64) (b0 : Mat 1 64) (W1 : Mat 64 64) (b1 : Mat 1 64)
    (W2 : Mat 64 64) (b2 : Mat 1 64) (W3 : Mat 64 4) (b3 : Mat 1 4) : Mat 100000 4 :=
  fun j => rowHead (rowSage (row M (j 0)) (inv (ix2 (j 0) 0)) (row X (j 0)) Wl Wr b) W0 b0 W1 b1 W2 b2 W3 b3 (j 1)

end Cert.Sage

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.Region0.lean ====
/-
  The projection stage: what the first tiled stage leaves in its output array.  Each tile of 5000 rows of the node
  features is multiplied by the resident 32×16 weight matrix; since a row of the product depends on that row of the
  features alone, the twenty tiles together hold the product of the whole feature array with the weights.
-/
import proofs.«115002_j14955076125382_2_alg».proof.Proof.KernelIdealFrame
import proofs.«115002_j14955076125382_2_alg».proof.Proof.Spec
import proofs.«115002_j14955076125382_2_alg».proof.Proof.LibRowOps
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The tile's product read at row r, column q: row r of the feature tile against the weight matrix. -/
theorem pay_row (x0 : Vec Ideal S5000x32 .f32) (x1 : Vec Ideal S32x16 .f32) (r : Fin 5000) (q : Fin 16) :
    k0_pay1 (F := Ideal) x0 x1 (ix2 r q) = Cert.Sage.rowMat (fun c => x0 (ix2 r c)) x1 q := by
  unfold k0_pay1
  rw [Cert.RowLib.dotDims_eq_plain dot_S5000x32_S32x16_S5000x16_1_0_0_1_n_n rfl rfl rfl rfl rfl rfl]
  refine (Cert.RowLib.matmul_plain_zero_ix2 none _ _ r q).trans ?_
  unfold Cert.Sage.rowMat
  exact Finset.sum_congr rfl fun c _ => rfl

/-- When row r of the feature tile is row p of the feature array and the weight tile is the weight array, the tile's
    product at (r, q) is the whole product at (p, q). -/
theorem point (X : Cert.Sage.Mat 100000 32) (W : Cert.Sage.Mat 32 16) (x0 : Vec Ideal S5000x32 .f32)
    (x1 : Vec Ideal S32x16 .f32) (p : Fin 100000) (r : Fin 5000) (q : Fin 16)
    (h0 : ∀ k : Fin 32, x0 (ix2 r k) = X (ix2 p k)) (h1 : ∀ k : Fin 32, x1 (ix2 k q) = W (ix2 k q)) :
    k0_pay1 (F := Ideal) x0 x1 (ix2 r q) = Cert.Sage.G0 X W (ix2 p q) := by
  rw [pay_row]
  show ∑ k : Fin 32, x0 (ix2 r k) * x1 (ix2 k q) = ∑ k : Fin 32, X (ix2 p k) * W (ix2 k q)
  exact Finset.sum_congr rfl fun k _ => by rw [h0 k, h1 k]

variable (V : (c : Dev nD) → (b : Ref sig .tc) → Buf (Elt Ideal) ((c : Thread nD τ).loc b))

theorem hz : (![0, 0] : Fin 2 → Nat) = fun _ => 0 := funext fun a => by fin_cases a <;> rfl

/-- The index maps over the twenty grid points: the feature tile and the output tile are tile t of their arrays, the
    weight matrix is its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the product of the whole feature array with the weights. -/
theorem flushed_eq (c : Dev nD) (t : Fin cfg0.N) :
    (dat0 V c).flushed 2 t = ((cfg0.win 2).blk t).view.read (Elt Ideal)
      (Cert.Sage.G0 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x32) hz, View.ld_unit_zero (S := S32x16) hz]
  obtain ⟨e0, e1, e2, e3, e4, e5⟩ := idx_facts t
  have hN : cfg0.N = 20 := N_0
  have ht : t.val < cfg0.N := t.isLt
  funext j
  obtain ⟨r, q, rfl⟩ : ∃ (r : Fin 5000) (q : Fin 16), j = ix2 r q := ⟨j 0, j 1, eq_ix2 j⟩
  have hr : r.val < 5000 := r.isLt
  have e2' : ((cfg0.win 2).blk t).view.emb (ix2 r q) = ix2 (⟨t.val * 5000 + r.val, by omega⟩ : Fin 100000) q := by
    funext a; apply Fin.ext
    match a with
    | ⟨0, _⟩ => show win0_2.index t (0 : Fin 2) * 5000 + 1 * r.val = t.val * 5000 + r.val; rw [e4]; omega
    | ⟨1, _⟩ => show win0_2.index t (1 : Fin 2) * 16 + 1 * q.val = q.val; rw [e5]; omega
  show k0_pay1 (iblk0 V c 0 t) (iblk0 V c 1 t) (ix2 r q)
    = Cert.Sage.G0 (V c (Pipeline.arrRef spec0 0)) (V c (Pipeline.arrRef spec0 1)) (((cfg0.win 2).blk t).view.emb (ix2 r q))
  rw [e2']
  refine point (V c (Pipeline.arrRef spec0 0)) (V c (Pipeline.arrRef spec0 1)) (iblk0 V c 0 t) (iblk0 V c 1 t) _ r q ?_ ?_
  · intro k
    show V c (Pipeline.arrRef spec0 0) (((cfg0.win 0).blk t).view.emb (ix2 r k)) = _
    refine congrArg (V c (Pipeline.arrRef spec0 0)) (funext fun a => Fin.ext ?_)
    match a with
    | ⟨0, _⟩ => show win0_0.index t (0 : Fin 2) * 5000 + 1 * r.val = t.val * 5000 + r.val; rw [e0]; omega
    | ⟨1, _⟩ => show win0_0.index t (1 : Fin 2) * 32 + 1 * k.val = k.val; rw [e1]; omega
  · intro k
    show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 32 + 1 * k.val = k.val; rw [e2]; omega
    | ⟨1, _⟩ => show win0_1.index t (1 : Fin 2) * 16 + 1 * q.val = q.val; rw [e3]; omega

/-- An index of the output array is in point t's tile iff each coordinate is in the tile's range on its axis. -/
theorem mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v12).slice (win0_2.rect t)).set ↔ _
  rw [View.set_slice_whole, Rect.mem_set_unit]
  exact Iff.rfl

/-- Every row p of the 100000 is in tile p / 5000. -/
theorem cover (i : S100000x16.Idx) :
    ∃ t : Fin cfg0.N, (cfg0.win 2).flush t = true ∧ i ∈ ((cfg0.win 2).blk t).view.set := by
  have hN : cfg0.N = 20 := N_0
  have hi0 : (i 0).val < 100000 := idx2_lt0 i
  have hi1 : (i 1).val < 16 := idx2_lt1 i
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 16 ≤ (i 1).val ∧ (i 1).val < win0_2.index _ (1 : Fin 2) * 16 + 16
    rw [e5]; omega

/-- THE ARRAY after the twenty points: the product of the whole feature array with the weights, index by index. -/
theorem final (c : Dev nD) : (dat0 (F := Ideal) V c).arrAt 2 cfg0.N
    = Cert.Sage.G0 (V c (Pipeline.arrRef spec0 0)) (V c (Pipeline.arrRef spec0 1)) :=
  (dat0 V c).arrAt_eq_of_cover 2 (Cert.Sage.G0 (V c (Pipeline.arrRef spec0 0)) (V c (Pipeline.arrRef spec0 1)))
    (fun t _ => flushed_eq V c t) (cover)

end Cert.KernelIdeal.Region0

end
-- ==== Proof.Region1.lean ====
/-
  The first graph-convolution stage: what the second tiled stage leaves in its output array.  On each tile of 5000
  rows the summed neighbour messages are scaled by the row's reciprocal degree, the row's own features are multiplied by
  the resident 32×16 weight matrix, the bias row is added and the exponential linear unit is applied entry by entry.
  Every step acts on each row separately, so the twenty tiles together hold the stage applied to the whole arrays.
-/
import proofs.«115002_j14955076125382_2_alg».proof.Proof.KernelIdealFrame
import proofs.«115002_j14955076125382_2_alg».proof.Proof.Spec
import proofs.«115002_j14955076125382_2_alg».proof.Proof.LibRowOps
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The kernel spells the exponential linear unit as a select between h and exp (min h 0) − 1 on "h is above 0";
    where h is not above 0 the minimum is h itself. -/
theorem elu_select (h : Ideal .f32) :
    Scalar.select (FloatOps.cmpf .ogt h (Scalar.ofBits .f32 0x00000000#32)) h
        (FloatOps.subf (FloatOps.exp (FloatOps.minimumf h (Scalar.ofBits .f32 0x00000000#32))) (Scalar.ofBits .f32 0x3F800000#32))
      = Cert.Sage.elu h := by
  rw [Cert.RowLib.select_cmpf_ogt]
  show (if Ideal.ofBits .f32 0x00000000#32 < h then h
      else Ideal.exp (min h (Ideal.ofBits .f32 0x00000000#32)) - Ideal.ofBits .f32 0x3F800000#32) = _
  rw [Ideal.ofBits_zero_f32, Ideal.ofBits_one_f32]
  unfold Cert.Sage.elu
  split_ifs with hh
  · rfl
  · rw [min_eq_left (not_lt.mp hh)]

/-- The tile's result read at row r, column q: the stage's row function of row r of the message tile, the row's
    reciprocal degree, row r of the feature tile, the weights and the bias. -/
theorem pay_row (x0 : Vec Ideal S5000x16 .f32) (x4 : Vec Ideal S5000x1 .f32) (x1 : Vec Ideal S5000x32 .f32)
    (x2 : Vec Ideal S32x16 .f32) (x3 : Vec Ideal S1x16 .f32) (r : Fin 5000) (q : Fin 16) :
    k1_pay1 (F := Ideal) x0 x4 x1 x2 x3 (ix2 r q)
      = Cert.Sage.rowSage0 (fun k => x0 (ix2 r k)) (x4 (ix2 r (0 : Fin 1))) (fun k => x1 (ix2 r k)) x2 x3 q := by
  unfold k1_pay1
  have hH : ∀ H : FVec Ideal S5000x16 .f32,
      (select (cmpf .ogt H (broadcast S5000x16 (Scalar.ofBits .f32 0x00000000#32))) H
        (subf (exp (minimumf H (broadcast S5000x16 (Scalar.ofBits .f32 0x00000000#32))))
          (broadcast S5000x16 (Scalar.ofBits .f32 0x3F800000#32)))) (ix2 r q) = Cert.Sage.elu (H (ix2 r q)) :=
    fun H => elu_select (H (ix2 r q))
  refine (hH _).trans ?_
  unfold Cert.Sage.rowSage0
  refine congrArg Cert.Sage.elu ?_
  rw [addf_apply, addf_apply, mulf_apply, shapeCast_self, shapeCast_self, shapeCast_self,
    Cert.RowLib.broadcastTo_a1_ab_apply, broadcastTo_1b_ab_apply,
    Cert.RowLib.dotDims_eq_plain dot_S5000x32_S32x16_S5000x16_1_0_0_1_n_n rfl rfl rfl rfl rfl rfl]
  refine congrArg (fun z => x0 (ix2 r q) * x4 (ix2 r (0 : Fin 1)) + z + x3 (ix2 (0 : Fin 1) q)) ?_
  refine (Cert.RowLib.matmul_plain_zero_ix2 none _ _ r q).trans ?_
  unfold Cert.Sage.rowMat
  exact Finset.sum_congr rfl fun c _ => rfl

/-- When row r of the message, feature and reciprocal-degree tiles is row p of their arrays and the weight and bias
    tiles are their arrays, the tile's result at (r, q) is the whole stage at (p, q). -/
theorem point (M : Cert.Sage.Mat 100000 16) (X : Cert.Sage.Mat 100000 32) (Wr : Cert.Sage.Mat 32 16)
    (b : Cert.Sage.Mat 1 16) (inv : Cert.Sage.Mat 100000 1)
    (x0 : Vec Ideal S5000x16 .f32) (x4 : Vec Ideal S5000x1 .f32) (x1 : Vec Ideal S5000x32 .f32)
    (x2 : Vec Ideal S32x16 .f32) (x3 : Vec Ideal S1x16 .f32) (p : Fin 100000) (r : Fin 5000) (q : Fin 16)
    (h0 : x0 (ix2 r q) = M (ix2 p q)) (h4 : x4 (ix2 r (0 : Fin 1)) = inv (ix2 p (0 : Fin 1)))
    (h1 : ∀ k : Fin 32, x1 (ix2 r k) = X (ix2 p k)) (h2 : ∀ k : Fin 32, x2 (ix2 k q) = Wr (ix2 k q))
    (h3 : x3 (ix2 (0 : Fin 1) q) = b (ix2 (0 : Fin 1) q)) :
    k1_pay1 (F := Ideal) x0 x4 x1 x2 x3 (ix2 r q) = Cert.Sage.G1 M X Wr b inv (ix2 p q) := by
  rw [pay_row]
  show Cert.Sage.elu (x0 (ix2 r q) * x4 (ix2 r (0 : Fin 1)) + (∑ k : Fin 32, x1 (ix2 r k) * x2 (ix2 k q)) + x3 (ix2 (0 : Fin 1) q))
    = Cert.Sage.elu (M (ix2 p q) * inv (ix2 p (0 : Fin 1)) + (∑ k : Fin 32, X (ix2 p k) * Wr (ix2 k q)) + b (ix2 (0 : Fin 1) q))
  rw [h0, h4, h3, Finset.sum_congr rfl fun k _ => by rw [h1 k, h2 k]]

variable (V : (c : Dev nD) → (b : Ref sig .tc) → Buf (Elt Ideal) ((c : Thread nD τ).loc b))

theorem hz : (![0, 0] : Fin 2 → Nat) = fun _ => 0 := funext fun a => by fin_cases a <;> rfl

/-- The index maps over the twenty grid points: the message, feature, reciprocal-degree and output tiles are tile t of
    their arrays, the weight matrix and the bias row are their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row r of the message tile at point t is row 5000·t + r of the message array. -/
theorem blk0_apply (c : Dev nD) (t : Fin cfg1.N) (r : Fin 5000) (q : Fin 16) (hp : t.val * 5000 + r.val < 100000) :
    iblk1 V c 0 t (ix2 r q) = V c (Pipeline.arrRef spec1 0) (ix2 (⟨t.val * 5000 + r.val, hp⟩ : Fin 100000) q) := by
  obtain ⟨e00, e01, -⟩ := idx_facts t
  show V c (Pipeline.arrRef spec1 0) (((cfg1.win 0).blk t).view.emb (ix2 r q)) = _
  refine congrArg (V c (Pipeline.arrRef spec1 0)) (funext fun a => Fin.ext ?_)
  match a with
  | ⟨0, _⟩ => show win1_0.index t (0 : Fin 2) * 5000 + 1 * r.val = t.val * 5000 + r.val; rw [e00]; omega
  | ⟨1, _⟩ => show win1_0.index t (1 : Fin 2) * 16 + 1 * q.val = q.val; rw [e01]; omega

/-- Row r of the feature tile at point t is row 5000·t + r of the feature array. -/
theorem blk1_apply (c : Dev nD) (t : Fin cfg1.N) (r : Fin 5000) (k : Fin 32) (hp : t.val * 5000 + r.val < 100000) :
    iblk1 V c 1 t (ix2 r k) = V c (Pipeline.arrRef spec1 1) (ix2 (⟨t.val * 5000 + r.val, hp⟩ : Fin 100000) k) := by
  obtain ⟨-, -, e10, e11, -⟩ := idx_facts t
  show V c (Pipeline.arrRef spec1 1) (((cfg1.win 1).blk t).view.emb (ix2 r k)) = _
  refine congrArg (V c (Pipeline.arrRef spec1 1)) (funext fun a => Fin.ext ?_)
  match a with
  | ⟨0, _⟩ => show win1_1.index t (0 : Fin 2) * 5000 + 1 * r.val = t.val * 5000 + r.val; rw [e10]; omega
  | ⟨1, _⟩ => show win1_1.index t (1 : Fin 2) * 32 + 1 * k.val = k.val; rw [e11]; omega

/-- The weight tile at every point is the weight array. -/
theorem blk2_apply (c : Dev nD) (t : Fin cfg1.N) (k : Fin 32) (q : Fin 16) :
    iblk1 V c 2 t (ix2 k q) = V c (Pipeline.arrRef spec1 2) (ix2 k q) := by
  obtain ⟨-, -, -, -, e20, e21, -⟩ := idx_facts t
  show V c (Pipeline.arrRef spec1 2) (((cfg1.win 2).blk t).view.emb (ix2 k q)) = _
  refine congrArg (V c (Pipeline.arrRef spec1 2)) (funext fun a => Fin.ext ?_)
  match a with
  | ⟨0, _⟩ => show win1_2.index t (0 : Fin 2) * 32 + 1 * k.val = k.val; rw [e20]; omega
  | ⟨1, _⟩ => show win1_2.index t (1 : Fin 2) * 16 + 1 * q.val = q.val; rw [e21]; omega

/-- The bias tile at every point is the bias row. -/
theorem blk3_apply (c : Dev nD) (t : Fin cfg1.N) (q : Fin 16) :
    iblk1 V c 3 t (ix2 (0 : Fin 1) q) = V c (Pipeline.arrRef spec1 3) (ix2 (0 : Fin 1) q) := by
  obtain ⟨-, -, -, -, -, -, e30, e31, -⟩ := idx_facts t
  show V c (Pipeline.arrRef spec1 3) (((cfg1.win 3).blk t).view.emb (ix2 (0 : Fin 1) q)) = _
  refine congrArg (V c (Pipeline.arrRef spec1 3)) (funext fun a => Fin.ext ?_)
  match a with
  | ⟨0, _⟩ => show win1_3.index t (0 : Fin 2) * 1 + 1 * 0 = 0; rw [e30]
  | ⟨1, _⟩ => show win1_3.index t (1 : Fin 2) * 16 + 1 * q.val = q.val; rw [e31]; omega

/-- Row r of the reciprocal-degree tile at point t is row 5000·t + r of the reciprocal-degree array. -/
theorem blk4_apply (c : Dev nD) (t : Fin cfg1.N) (r : Fin 5000) (hp : t.val * 5000 + r.val < 100000) :
    iblk1 V c 4 t (ix2 r (0 : Fin 1))
      = V c (Pipeline.arrRef spec1 4) (ix2 (⟨t.val * 5000 + r.val, hp⟩ : Fin 100000) (0 : Fin 1)) := by
  obtain ⟨-, -, -, -, -, -, -, -, e40, e41, -⟩ := idx_facts t
  show V c (Pipeline.arrRef spec1 4) (((cfg1.win 4).blk t).view.emb (ix2 r (0 : Fin 1))) = _
  refine congrArg (V c (Pipeline.arrRef spec1 4)) (funext fun a => Fin.ext ?_)
  match a with
  | ⟨0, _⟩ => show win1_4.index t (0 : Fin 2) * 5000 + 1 * r.val = t.val * 5000 + r.val; rw [e40]; omega
  | ⟨1, _⟩ => show win1_4.index t (1 : Fin 2) * 1 + 1 * 0 = 0; rw [e41]

/-- Entry (r, q) of the output tile at point t sits at (5000·t + r, q) of the output array. -/
theorem emb5 (t : Fin cfg1.N) (r : Fin 5000) (q : Fin 16) (hp : t.val * 5000 + r.val < 100000) :
    ((cfg1.win 5).blk t).view.emb (ix2 r q) = ix2 (⟨t.val * 5000 + r.val, hp⟩ : Fin 100000) q := by
  obtain ⟨-, -, -, -, -, -, -, -, -, -, e50, e51⟩ := idx_facts t
  funext a; apply Fin.ext
  match a with
  | ⟨0, _⟩ => show win1_5.index t (0 : Fin 2) * 5000 + 1 * r.val = t.val * 5000 + r.val; rw [e50]; omega
  | ⟨1, _⟩ => show win1_5.index t (1 : Fin 2) * 16 + 1 * q.val = q.val; rw [e51]; omega

/-- What point t writes back is tile t of the stage applied to the whole arrays. -/
theorem flushed_eq (c : Dev nD) (t : Fin cfg1.N) :
    (dat1 V c).flushed 5 t = ((cfg1.win 5).blk t).view.read (Elt Ideal)
      (Cert.Sage.G1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x16) hz, View.ld_unit_zero (S := S5000x1) hz,
    View.ld_unit_zero (S := S5000x32) hz, View.ld_unit_zero (S := S32x16) hz, View.ld_unit_zero (S := S1x16) hz]
  have hN : cfg1.N = 20 := N_1
  have ht : t.val < cfg1.N := t.isLt
  funext j
  obtain ⟨r, q, rfl⟩ : ∃ (r : Fin 5000) (q : Fin 16), j = ix2 r q := ⟨j 0, j 1, eq_ix2 j⟩
  have hr : r.val < 5000 := r.isLt
  have hp : t.val * 5000 + r.val < 100000 := by omega
  show k1_pay1 (iblk1 V c 0 t) (iblk1 V c 4 t) (iblk1 V c 1 t) (iblk1 V c 2 t) (iblk1 V c 3 t) (ix2 r q)
    = Cert.Sage.G1 (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 r q))
  rw [emb5 t r q hp]
  exact point (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 4 t) (iblk1 V c 1 t) (iblk1 V c 2 t) (iblk1 V c 3 t) _ r q
    (blk0_apply V c t r q hp) (blk4_apply V c t r hp) (fun k => blk1_apply V c t r k hp)
    (fun k => blk2_apply V c t k q) (blk3_apply V c t q)

/-- An index of the output array is in point t's tile iff each coordinate is in the tile's range on its axis. -/
theorem mem_blk (t : Fin cfg1.N) (i : S100000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v24).slice (win1_5.rect t)).set ↔ _
  rw [View.set_slice_whole, Rect.mem_set_unit]
  exact Iff.rfl

/-- Every row p of the 100000 is in tile p / 5000. -/
theorem cover (i : S100000x16.Idx) :
    ∃ t : Fin cfg1.N, (cfg1.win 5).flush t = true ∧ i ∈ ((cfg1.win 5).blk t).view.set := by
  have hN : cfg1.N = 20 := N_1
  have hi0 : (i 0).val < 100000 := idx2_lt0 i
  have hi1 : (i 1).val < 16 := idx2_lt1 i
  refine ⟨⟨(i 0).val / 5000, by rw [hN]; omega⟩, flush1_5 _, ?_⟩
  rw [mem_blk]
  obtain ⟨-, -, -, -, -, -, -, -, -, -, e50, e51⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 16 ≤ (i 1).val ∧ (i 1).val < win1_5.index _ (1 : Fin 2) * 16 + 16
    rw [e51]; omega

/-- THE ARRAY after the twenty points: the first convolution stage of the whole arrays, index by index. -/
theorem final (c : Dev nD) : (dat1 (F := Ideal) V c).arrAt 5 cfg1.N
    = Cert.Sage.G1 (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5
    (Cert.Sage.G1 (V c (Pipeline.arrRef spec1 0)) (V c (Pipeline.arrRef spec1 1)) (V c (Pipeline.arrRef spec1 2))
      (V c (Pipeline.arrRef spec1 3)) (V c (Pipeline.arrRef spec1 4)))
    (fun t _ => flushed_eq V c t) (cover)

end Cert.KernelIdeal.Region1

end
-- ==== Proof.LibSageRows.lean ====
/-
  Row-wise readings of the array operations a dense layer is made of, on the extended reals.

  A product of an [a, k] array with a [k, b] array into a zero accumulator, read at row p and column q, is the
  row-times-matrix sum over the k contracted entries; a one-column array broadcast along the columns reads its
  row's single entry; the select-compare-exponential spelling of the exponential linear unit is that function.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import proofs.«115002_j14955076125382_2_alg».proof.Proof.Spec

noncomputable section

namespace Cert.SageLib

open Idealize.ShloMosaic Idealize.ShloMosaic.ValueIdx

/-- The left operand's index of the plain [a, k] × [k, b] product at output (p, q) and contracted position c is (p, c). -/
theorem plain_lhsIdx {a k b : Nat} (p : Fin a) (q : Fin b) (c : Fin k) :
    (DotDims.plain a k b).lhsIdx (ix2 p q) ((contrEquiv1 (DotDims.plain a k b) k rfl rfl).symm c) = ix2 p c := by
  have hk := contrEquiv1_symm_val (DotDims.plain a k b) k rfl rfl c
  funext ax
  apply Fin.ext
  match ax with
  | ⟨0, _⟩ => rfl
  | ⟨1, _⟩ => exact ((DotDims.plain a k b).lhsIdx_val_of_single rfl (ix2 p q) _).trans hk

/-- The right operand's index there is (c, q). -/
theorem plain_rhsIdx {a k b : Nat} (p : Fin a) (q : Fin b) (c : Fin k) :
    (DotDims.plain a k b).rhsIdx (ix2 p q) ((contrEquiv1 (DotDims.plain a k b) k rfl rfl).symm c) = ix2 c q := by
  have hk := contrEquiv1_symm_val (DotDims.plain a k b) k rfl rfl c
  funext ax
  apply Fin.ext
  match ax with
  | ⟨0, _⟩ => exact ((DotDims.plain a k b).rhsIdx_val_of_single rfl (ix2 p q) _).trans hk
  | ⟨1, _⟩ => rfl

/-- A plain matrix product into the zero accumulator, read at (p, q): row p of the left operand times the right
    operand, at column q. -/
theorem matmul_plain_zero_apply {a k b : Nat} {φ₁ φ₂ : FTy} (prec : Option ContractPrecision)
    (lhs : FVec Ideal ⟨2, ![a, k]⟩ φ₁) (rhs : FVec Ideal ⟨2, ![k, b]⟩ φ₂) (p : Fin a) (q : Fin b) :
    matmul (DotDims.plain a k b) prec lhs rhs (constant (F := Ideal) ⟨2, ![a, b]⟩ .f32 0x00000000#32) (ix2 p q)
      = Cert.Sage.rowMat (fun c => lhs (ix2 p c)) rhs q := by
  unfold Cert.Sage.rowMat
  refine (Ideal.matmul_constant_zero_apply (DotDims.plain a k b) prec lhs rhs (ix2 p q)).trans ?_
  rw [← Equiv.sum_comp (contrEquiv1 (DotDims.plain a k b) k rfl rfl).symm]
  refine Finset.sum_congr rfl fun c _ => ?_
  rw [plain_lhsIdx, plain_rhsIdx]

/-- A one-column array broadcast along the columns reads, at (p, q), its row p's single entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The exponential of a whole array, read at an index. -/
theorem exp_apply {s : Shape} {φ : FTy} (x : FVec Ideal s φ) (i : s.Idx) : exp x i = Ideal.exp (x i) := rfl

/-- `select (h > 0) h (exp (min h 0) − 1)`, with the f32 words of zero and one, is the exponential linear unit. -/
theorem select_elu (h : EReal) :
    Scalar.select (Ideal.cmp .ogt h (Ideal.ofBits .f32 0x00000000#32)) h
        (Ideal.exp (min h (Ideal.ofBits .f32 0x00000000#32)) - Ideal.ofBits .f32 0x3F800000#32)
      = Cert.Sage.elu h := by
  rw [Ideal.ofBits_zero_f32, Ideal.ofBits_one_f32]
  unfold Cert.Sage.elu Scalar.select Ideal.cmp
  by_cases hpos : 0 < h
  · simp [hpos]
  · have hle : h ≤ 0 := not_lt.mp hpos
    simp [hpos, min_eq_left hle]

end Cert.SageLib

end
-- ==== Proof.Region2.lean ====
/-
  The 16-to-16 graph-convolution stage, as the tiled program leaves it.

  The program works on twenty tiles of 5000 rows. At tile t it reads rows 5000·t … 5000·t + 4999 of the summed
  messages, of the node features and of the reciprocal degrees, and the whole of the two weight matrices and of
  the bias row; it writes the same rows of the result. Every operation of the tile's body acts on each row by
  itself, so what the body leaves at row r of tile t is the row function `Cert.Sage.rowSage` of row 5000·t + r of
  the inputs; the twenty tiles cover all 100000 rows, so the result array is `Cert.Sage.G2` of the input arrays.
-/
import proofs.«115002_j14955076125382_2_alg».proof.Proof.KernelIdealFrame
import proofs.«115002_j14955076125382_2_alg».proof.Proof.LibSageRows
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The body at one entry of a tile -/

/-- The printed dimension numbers are those of the plain rows-by-columns product. -/
theorem dot_eq_plain : dot_S5000x16_S16x16_S5000x16_1_0_0_1_n_n = DotDims.plain 5000 16 16 := rfl

/-- Entry (r, q) of what the body computes from a tile's blocks is the convolution's row function of row r of the
    row-tiled blocks (messages, reciprocal degree, features) and the resident weights and bias. -/
theorem pay_apply (msg : Vec Ideal S5000x16 .f32) (inv : Vec Ideal S5000x1 .f32) (x : Vec Ideal S5000x16 .f32)
    (Wl Wr : Vec Ideal S16x16 .f32) (b : Vec Ideal S1x16 .f32) (r : Fin 5000) (q : Fin 16) :
    k2_pay1 msg inv x Wl Wr b (ix2 r q)
      = Cert.Sage.rowSage (fun c => msg (ix2 r c)) (inv (ix2 r (0 : Fin 1))) (fun c => x (ix2 r c)) Wl Wr b q := by
  unfold k2_pay1
  simp only [select_apply, cmpf_apply, subf_apply, Cert.SageLib.exp_apply, minimumf_apply, broadcast_apply, addf_apply,
    shapeCast_self, dot_eq_plain]
  rw [Cert.SageLib.matmul_plain_zero_apply, Cert.SageLib.matmul_plain_zero_apply, broadcastTo_1b_ab_apply]
  simp only [truncf_apply, mulf_apply, Cert.SageLib.broadcastTo_a1_ab_apply]
  exact Cert.SageLib.select_elu _

/-! ## From tiles to the array -/

theorem hz : (![0, 0] : Fin 2 → Nat) = fun _ => 0 := funext fun a => by fin_cases a <;> rfl

/-- The tiles' block indices, decided over the twenty grid points: the row-tiled windows (messages 0, features 1,
    reciprocal degrees 5, result 6) sit at block (t, 0), the resident ones (weights 2 and 3, bias 4) at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The row function does not see how its arguments are spelt. -/
theorem rowSage_congr {msg msg' : Fin 16 → EReal} {inv inv' : EReal} {x x' : Fin 16 → EReal}
    {Wl Wl' Wr Wr' : Cert.Sage.Mat 16 16} {b b' : Cert.Sage.Mat 1 16} (q : Fin 16)
    (h0 : msg = msg') (h5 : inv = inv') (h1 : x = x') (h2 : Wl = Wl') (h3 : Wr = Wr') (h4 : b = b') :
    Cert.Sage.rowSage msg inv x Wl Wr b q = Cert.Sage.rowSage msg' inv' x' Wl' Wr' b' q := by
  subst h0 h5 h1 h2 h3 h4; rfl

variable (V : (c : Dev nD) → (b : Ref sig .tc) → Buf (Elt Ideal) ((c : Thread nD τ).loc b))

/-- The whole-array result: the convolution stage of the six input arrays as the region finds them. -/
abbrev result (c : Dev nD) : Cert.Sage.Mat 100000 16 :=
  Cert.Sage.G2 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-! ### Each window's block at tile t, read off its array

A block's entry sits in the array at block index × block size + the coordinate inside the block, on each axis. -/

/-- Row r of tile t's block of the summed messages is row 5000·t + r of the array. -/
theorem blk0_apply (c : Dev nD) (t : Fin cfg2.N) (r : Fin 5000) (cc : Fin 16) (hp : t.val * 5000 + r.val < 100000) :
    iblk2 (F := Ideal) V c 0 t (ix2 r cc) = V c (Pipeline.arrRef spec2 0) (ix2 ⟨t.val * 5000 + r.val, hp⟩ cc) := by
  obtain ⟨e0, e1, -⟩ := idx_facts t
  show V c (Pipeline.arrRef spec2 0) (((cfg2.win 0).blk t).view.emb (ix2 r cc)) = _
  refine congrArg (V c (Pipeline.arrRef spec2 0)) (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 16 + 1 * cc.val = cc.val; rw [e1]; omega

/-- Row r of tile t's block of the node features is row 5000·t + r of the array. -/
theorem blk1_apply (c : Dev nD) (t : Fin cfg2.N) (r : Fin 5000) (cc : Fin 16) (hp : t.val * 5000 + r.val < 100000) :
    iblk2 (F := Ideal) V c 1 t (ix2 r cc) = V c (Pipeline.arrRef spec2 1) (ix2 ⟨t.val * 5000 + r.val, hp⟩ cc) := by
  obtain ⟨-, -, e0, e1, -⟩ := idx_facts t
  show V c (Pipeline.arrRef spec2 1) (((cfg2.win 1).blk t).view.emb (ix2 r cc)) = _
  refine congrArg (V c (Pipeline.arrRef spec2 1)) (funext fun a => Fin.ext ?_)
  match a with
  | ⟨0, _⟩ => show win2_1.index t (0 : Fin 2) * 5000 + 1 * r.val = t.val * 5000 + r.val; rw [e0]; omega
  | ⟨1, _⟩ => show win2_1.index t (1 : Fin 2) * 16 + 1 * cc.val = cc.val; rw [e1]; omega

/-- Row r of tile t's block of the reciprocal degrees is row 5000·t + r of the array. -/
theorem blk5_apply (c : Dev nD) (t : Fin cfg2.N) (r : Fin 5000) (hp : t.val * 5000 + r.val < 100000) :
    iblk2 (F := Ideal) V c 5 t (ix2 r (0 : Fin 1))
      = V c (Pipeline.arrRef spec2 5) (ix2 ⟨t.val * 5000 + r.val, hp⟩ (0 : Fin 1)) := by
  obtain ⟨-, -, -, -, -, -, -, -, -, -, e0, e1, -⟩ := idx_facts t
  show V c (Pipeline.arrRef spec2 5) (((cfg2.win 5).blk t).view.emb (ix2 r (0 : Fin 1))) = _
  refine congrArg (V c (Pipeline.arrRef spec2 5)) (funext fun a => Fin.ext ?_)
  match a with
  | ⟨0, _⟩ => show win2_5.index t (0 : Fin 2) * 5000 + 1 * r.val = t.val * 5000 + r.val; rw [e0]; omega
  | ⟨1, _⟩ => show win2_5.index t (1 : Fin 2) * 1 + 1 * 0 = 0; rw [e1]

/-- The left weights' block is the whole array at every tile. -/
theorem blk2_eq (c : Dev nD) (t : Fin cfg2.N) : iblk2 (F := Ideal) V c 2 t = V c (Pipeline.arrRef spec2 2) := by
  obtain ⟨-, -, -, -, e0, e1, -⟩ := idx_facts t
  funext y
  show V c (Pipeline.arrRef spec2 2) (((cfg2.win 2).blk t).view.emb y) = _
  refine congrArg (V c (Pipeline.arrRef spec2 2)) (funext fun a => Fin.ext ?_)
  match a with
  | ⟨0, _⟩ => show win2_2.index t (0 : Fin 2) * 16 + 1 * (y 0).val = (y 0).val; rw [e0]; omega
  | ⟨1, _⟩ => show win2_2.index t (1 : Fin 2) * 16 + 1 * (y 1).val = (y 1).val; rw [e1]; omega

/-- The right weights' block is the whole array at every tile. -/
theorem blk3_eq (c : Dev nD) (t : Fin cfg2.N) : iblk2 (F := Ideal) V c 3 t = V c (Pipeline.arrRef spec2 3) := by
  obtain ⟨-, -, -, -, -, -, e0, e1, -⟩ := idx_facts t
  funext y
  show V c (Pipeline.arrRef spec2 3) (((cfg2.win 3).blk t).view.emb y) = _
  refine congrArg (V c (Pipeline.arrRef spec2 3)) (funext fun a => Fin.ext ?_)
  match a with
  | ⟨0, _⟩ => show win2_3.index t (0 : Fin 2) * 16 + 1 * (y 0).val = (y 0).val; rw [e0]; omega
  | ⟨1, _⟩ => show win2_3.index t (1 : Fin 2) * 16 + 1 * (y 1).val = (y 1).val; rw [e1]; omega

/-- The bias row's block is the whole array at every tile. -/
theorem blk4_eq (c : Dev nD) (t : Fin cfg2.N) : iblk2 (F := Ideal) V c 4 t = V c (Pipeline.arrRef spec2 4) := by
  obtain ⟨-, -, -, -, -, -, -, -, e0, e1, -⟩ := idx_facts t
  funext y
  show V c (Pipeline.arrRef spec2 4) (((cfg2.win 4).blk t).view.emb y) = _
  refine congrArg (V c (Pipeline.arrRef spec2 4)) (funext fun a => Fin.ext ?_)
  match a with
  | ⟨0, _⟩ => show win2_4.index t (0 : Fin 2) * 1 + 1 * (y 0).val = (y 0).val; rw [e0]; omega
  | ⟨1, _⟩ => show win2_4.index t (1 : Fin 2) * 16 + 1 * (y 1).val = (y 1).val; rw [e1]; omega

/-- Entry (r, q) of tile t's block of the result array is entry (5000·t + r, q) of the array. -/
theorem emb6_apply (t : Fin cfg2.N) (r : Fin 5000) (q : Fin 16) (hp : t.val * 5000 + r.val < 100000) :
    ((cfg2.win 6).blk t).view.emb (ix2 r q) = ix2 ⟨t.val * 5000 + r.val, hp⟩ q := by
  obtain ⟨-, -, -, -, -, -, -, -, -, -, -, -, e0, e1⟩ := idx_facts t
  funext a; apply Fin.ext
  match a with
  | ⟨0, _⟩ => show win2_6.index t (0 : Fin 2) * 5000 + 1 * r.val = t.val * 5000 + r.val; rw [e0]; omega
  | ⟨1, _⟩ => show win2_6.index t (1 : Fin 2) * 16 + 1 * q.val = q.val; rw [e1]; omega

/-- What tile t writes back is tile t of the whole-array result: entry (r, q) of the body's value is the row function
    of row r of the tile's blocks, which are rows 5000·t + r of the row-tiled arrays and the whole resident arrays. -/
theorem flushed_eq (c : Dev nD) (t : Fin cfg2.N) :
    (dat2 (F := Ideal) V c).flushed 6 t = ((cfg2.win 6).blk t).view.read (Elt Ideal) (result V c) := by
  show (cfg2.win 6).cut (grid2.coords t) ((dat2 V c).after 6 t) = _
  rw [after2_6]
  unfold out2_6
  rw [View.canon_unit_zero hz]
  simp only [View.ld_unit_zero (S := S5000x16) hz, View.ld_unit_zero (S := S5000x1) hz,
    View.ld_unit_zero (S := S16x16) hz, View.ld_unit_zero (S := S1x16) hz]
  have ht : t.val < 20 := by have h : t.val < grid2.N := t.isLt; rw [N_2] at h; exact h
  funext j
  obtain ⟨r, q, rfl⟩ : ∃ (r : Fin 5000) (q : Fin 16), j = ix2 r q := ⟨j 0, j 1, eq_ix2 j⟩
  have hp : t.val * 5000 + r.val < 100000 := by have hr : r.val < 5000 := r.isLt; omega
  show k2_pay1 (iblk2 V c 0 t) (iblk2 V c 5 t) (iblk2 V c 1 t) (iblk2 V c 2 t) (iblk2 V c 3 t) (iblk2 V c 4 t) (ix2 r q)
      = result V c (((cfg2.win 6).blk t).view.emb (ix2 r q))
  rw [emb6_apply t r q hp]
  refine (pay_apply (iblk2 V c 0 t) (iblk2 V c 5 t) (iblk2 V c 1 t) (iblk2 V c 2 t) (iblk2 V c 3 t) (iblk2 V c 4 t) r q).trans ?_
  exact rowSage_congr q (funext fun cc => blk0_apply V c t r cc hp) (blk5_apply V c t r hp)
    (funext fun cc => blk1_apply V c t r cc hp) (blk2_eq V c t) (blk3_eq V c t) (blk4_eq V c t)

/-- An index of the result array is in tile t's block iff each coordinate is in the block's range on its axis. -/
theorem mem_blk (t : Fin cfg2.N) (i : S100000x16.Idx) :
    i ∈ ((cfg2.win 6).blk t).view.set ↔ ∀ a : Fin 2, win2_6.index t a * S5000x16.size a ≤ (i a).val
      ∧ (i a).val < win2_6.index t a * S5000x16.size a + S5000x16.size a := by
  show i ∈ ((View.whole main_v36).slice (win2_6.rect t)).set ↔ _
  rw [View.set_slice_whole, Rect.mem_set_unit]
  exact Iff.rfl

/-- Every row p < 100000 lies in tile p / 5000: the twenty tiles cover the array. -/
theorem cover (i : S100000x16.Idx) :
    ∃ t : Fin cfg2.N, (cfg2.win 6).flush t = true ∧ i ∈ ((cfg2.win 6).blk t).view.set := by
  have hi0 : (i 0).val < 100000 := (i 0).isLt
  have hi1 : (i 1).val < 16 := (i 1).isLt
  have hN : grid2.N = 20 := N_2
  have hlt : (i 0).val / 5000 < grid2.N := by omega
  refine ⟨⟨(i 0).val / 5000, hlt⟩, flush2_6 _, ?_⟩
  rw [mem_blk]
  obtain ⟨-, -, -, -, -, -, -, -, -, -, -, -, e60, e61⟩ := idx_facts ⟨(i 0).val / 5000, hlt⟩
  have e60' : win2_6.index ⟨(i 0).val / 5000, hlt⟩ (0 : Fin 2) = (i 0).val / 5000 := e60
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    omega
  | ⟨1, _⟩ =>
    show win2_6.index ⟨(i 0).val / 5000, hlt⟩ (1 : Fin 2) * 16 ≤ (i 1).val
      ∧ (i 1).val < win2_6.index ⟨(i 0).val / 5000, hlt⟩ (1 : Fin 2) * 16 + 16
    omega

/-- THE RESULT ARRAY of the 16-to-16 convolution region is `Cert.Sage.G2` of the six arrays the region reads, as it
    finds them. -/
theorem final (c : Dev nD) :
    (dat2 (F := Ideal) V c).arrAt 6 cfg2.N
      = Cert.Sage.G2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 V c).arrAt_eq_of_cover 6 (result V c) (fun t _ => flushed_eq V c t) cover

end Cert.KernelIdeal.Region2

end
-- ==== Proof.LibSageDense.lean ====
/-
  A dense layer and the exponential linear unit on whole arrays, as a tiled program spells them, read row by row.

  `denseV h W b` is the array `h · W + b` (the product accumulated into zero, the one-row bias broadcast over the
  rows); `eluV h` is `select (h > 0) h (exp (min h 0) − 1)` entry by entry. At row r and column q the first is the
  row function `Cert.Sage.rowDense` of row r of `h`, the second `Cert.Sage.elu` of the entry.
-/
import proofs.«115002_j14955076125382_2_alg».proof.Proof.LibSageRows

noncomputable section

namespace Cert.SageLib

open Idealize.ShloMosaic Idealize.ShloMosaic.ValueIdx

/-- The exponential linear unit of every entry of an array, in the select-compare-exponential spelling. -/
def eluV {s : Shape} (h : FVec Ideal s .f32) : FVec Ideal s .f32 :=
  select (cmpf .ogt h (broadcast s (Scalar.ofBits .f32 0x00000000#32))) h
    (subf (exp (minimumf h (broadcast s (Scalar.ofBits .f32 0x00000000#32)))) (broadcast s (Scalar.ofBits .f32 0x3F800000#32)))

/-- Read at an index it is the exponential linear unit of the entry. -/
theorem eluV_apply {s : Shape} (h : FVec Ideal s .f32) (i : s.Idx) : eluV h i = Cert.Sage.elu (h i) :=
  select_elu (h i)

/-- A dense layer on all rows at once: `h · W` accumulated into zero, plus the bias row broadcast over the rows. -/
def denseV {a k d : Nat} (h : FVec Ideal ⟨2, ![a, k]⟩ .f32) (W : FVec Ideal ⟨2, ![k, d]⟩ .f32)
    (bias : FVec Ideal ⟨2, ![1, d]⟩ .f32) (hlt : FTy.bf16.bits < FTy.f32.bits)
    (hs : (⟨2, ![1, d]⟩ : Shape).ShapeCasts ⟨2, ![1, d]⟩) (hb : (⟨2, ![1, d]⟩ : Shape).Broadcasts ⟨2, ![a, d]⟩) :
    FVec Ideal ⟨2, ![a, d]⟩ .f32 :=
  addf (matmul (DotDims.plain a k d) none (truncf .bf16 h hlt) (truncf .bf16 W hlt) (constant ⟨2, ![a, d]⟩ .f32 0x00000000#32))
    (broadcastTo ⟨2, ![a, d]⟩ (shapeCast ⟨2, ![1, d]⟩ bias hs) hb)

/-- Read at row r and column q it is the dense layer's row function of row r. -/
theorem denseV_apply {a k d : Nat} (h : FVec Ideal ⟨2, ![a, k]⟩ .f32) (W : FVec Ideal ⟨2, ![k, d]⟩ .f32)
    (bias : FVec Ideal ⟨2, ![1, d]⟩ .f32) (hlt : FTy.bf16.bits < FTy.f32.bits)
    (hs : (⟨2, ![1, d]⟩ : Shape).ShapeCasts ⟨2, ![1, d]⟩) (hb : (⟨2, ![1, d]⟩ : Shape).Broadcasts ⟨2, ![a, d]⟩)
    (r : Fin a) (q : Fin d) :
    denseV h W bias hlt hs hb (ix2 r q) = Cert.Sage.rowDense (fun c => h (ix2 r c)) W bias q := by
  unfold denseV Cert.Sage.rowDense
  rw [addf_apply, matmul_plain_zero_apply, broadcastTo_1b_ab_apply, shapeCast_self]
  rfl

end Cert.SageLib

end
-- ==== Proof.Region3.lean ====
/-
  The last graph-convolution stage followed by the four-layer head: what the fourth tiled stage leaves in its output
  array.  On each tile of 5000 rows the summed neighbour messages are scaled by the row's reciprocal degree and
  multiplied by one resident 16×16 matrix, the row's own features by another, the bias row is added and the
  exponential linear unit applied; three dense layers, each followed by the exponential linear unit, and a last dense
  layer follow.  Every step acts on each row separately, so the twenty tiles together hold the stage applied to the
  whole arrays.
-/
import proofs.«115002_j14955076125382_2_alg».proof.Proof.KernelIdealFrame
import proofs.«115002_j14955076125382_2_alg».proof.Proof.Spec
import proofs.«115002_j14955076125382_2_alg».proof.Proof.LibRowOps
import proofs.«115002_j14955076125382_2_alg».proof.Proof.LibSageDense
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.SageLib (eluV denseV eluV_apply denseV_apply)

/-- The convolution part of the tile's work read at row r, column q: the stage's row function of row r of the message
    tile, the row's reciprocal degree, row r of the feature tile, the two weight matrices and the bias. -/
theorem conv_row (x0 : Vec Ideal S5000x16 .f32) (x5 : Vec Ideal S5000x1 .f32) (x1 : Vec Ideal S5000x16 .f32)
    (x2 x3 : Vec Ideal S16x16 .f32) (x4 : Vec Ideal S1x16 .f32) (r : Fin 5000) (q : Fin 16) :
    k2_pay1 (F := Ideal) x0 x5 x1 x2 x3 x4 (ix2 r q)
      = Cert.Sage.rowSage (fun k => x0 (ix2 r k)) (x5 (ix2 r (0 : Fin 1))) (fun k => x1 (ix2 r k)) x2 x3 x4 q := by
  unfold k2_pay1
  have hH : ∀ H : FVec Ideal S5000x16 .f32,
      (select (cmpf .ogt H (broadcast S5000x16 (Scalar.ofBits .f32 0x00000000#32))) H
        (subf (exp (minimumf H (broadcast S5000x16 (Scalar.ofBits .f32 0x00000000#32))))
          (broadcast S5000x16 (Scalar.ofBits .f32 0x3F800000#32)))) (ix2 r q) = Cert.Sage.elu (H (ix2 r q)) :=
    fun H => eluV_apply H (ix2 r q)
  refine (hH _).trans ?_
  unfold Cert.Sage.rowSage
  refine congrArg Cert.Sage.elu ?_
  rw [addf_apply, addf_apply, broadcastTo_1b_ab_apply,
    Cert.RowLib.dotDims_eq_plain dot_S5000x16_S16x16_S5000x16_1_0_0_1_n_n rfl rfl rfl rfl rfl rfl]
  refine congrArg₂ (· + ·) (congrArg₂ (· + ·) ?_ ?_) (by rw [shapeCast_self])
  · refine (Cert.RowLib.matmul_plain_zero_ix2 none _ _ r q).trans ?_
    unfold Cert.Sage.rowMat
    refine Finset.sum_congr rfl fun k _ => ?_
    rw [truncf_apply, truncf_apply, mulf_apply, shapeCast_self, shapeCast_self, Cert.RowLib.broadcastTo_a1_ab_apply]
  · refine (Cert.RowLib.matmul_plain_zero_ix2 none _ _ r q).trans ?_
    unfold Cert.Sage.rowMat
    refine Finset.sum_congr rfl fun k _ => ?_
    rw [truncf_apply, truncf_apply, shapeCast_self]

/-- The first part of the body is the convolution followed by the first dense layer, before its unit. -/
theorem pay2_eq (x0 : Vec Ideal S5000x16 .f32) (x5 : Vec Ideal S5000x1 .f32) (x1 : Vec Ideal S5000x16 .f32)
    (x2 x3 : Vec Ideal S16x16 .f32) (x4 : Vec Ideal S1x16 .f32) (x6 : Vec Ideal S16x64 .f32) (x7 : Vec Ideal S1x64 .f32) :
    k3_pay2 (F := Ideal) x0 x5 x1 x2 x3 x4 x6 x7
      = denseV (k2_pay1 (F := Ideal) x0 x5 x1 x2 x3 x4) x6 x7 bitsLt_bf16_f32 shapeCasts_S1x64_S1x64 broadcasts_S1x64_S5000x64 := rfl

/-- The second part is unit, dense layer, unit, dense layer, unit. -/
theorem pay3_eq (h : FVec Ideal S5000x64 .f32) (x8 : Vec Ideal S64x64 .f32) (x9 : Vec Ideal S1x64 .f32)
    (x10 : Vec Ideal S64x64 .f32) (x11 : Vec Ideal S1x64 .f32) :
    k3_pay3 (F := Ideal) h x8 x9 x10 x11
      = eluV (denseV (eluV (denseV (eluV h) x8 x9 bitsLt_bf16_f32 shapeCasts_S1x64_S1x64 broadcasts_S1x64_S5000x64))
          x10 x11 bitsLt_bf16_f32 shapeCasts_S1x64_S1x64 broadcasts_S1x64_S5000x64) := rfl

/-- The last part is the last dense layer. -/
theorem pay1_eq (h : FVec Ideal S5000x64 .f32) (x12 : Vec Ideal S64x4 .f32) (x13 : Vec Ideal S1x4 .f32) :
    k3_pay1 (F := Ideal) h x12 x13
      = denseV h x12 x13 bitsLt_bf16_f32 shapeCasts_S1x4_S1x4 broadcasts_S1x4_S5000x4 := rfl

/-- The tile's result read at row r, column q: the head's row function of the convolution's row function of row r. -/
theorem pay_row (x0 : Vec Ideal S5000x16 .f32) (x5 : Vec Ideal S5000x1 .f32) (x1 : Vec Ideal S5000x16 .f32)
    (x2 x3 : Vec Ideal S16x16 .f32) (x4 : Vec Ideal S1x16 .f32) (x6 : Vec Ideal S16x64 .f32) (x7 : Vec Ideal S1x64 .f32)
    (x8 : Vec Ideal S64x64 .f32) (x9 : Vec Ideal S1x64 .f32) (x10 : Vec Ideal S64x64 .f32) (x11 : Vec Ideal S1x64 .f32)
    (x12 : Vec Ideal S64x4 .f32) (x13 : Vec Ideal S1x4 .f32) (r : Fin 5000) (q : Fin 4) :
    k3_pay1 (F := Ideal) (k3_pay3 (k3_pay2 x0 x5 x1 x2 x3 x4 x6 x7) x8 x9 x10 x11) x12 x13 (ix2 r q)
      = Cert.Sage.rowHead (Cert.Sage.rowSage (fun k => x0 (ix2 r k)) (x5 (ix2 r (0 : Fin 1))) (fun k => x1 (ix2 r k)) x2 x3 x4)
          x6 x7 x8 x9 x10 x11 x12 x13 q := by
  rw [pay1_eq, pay3_eq, pay2_eq]
  simp only [denseV_apply, eluV_apply, conv_row]
  rfl

/-- When row r of the message, feature and reciprocal-degree tiles is row p of their arrays and every resident tile
    is its array, the tile's result at (r, q) is the whole stage at (p, q). -/
theorem point (M X : Cert.Sage.Mat 100000 16) (Wl Wr : Cert.Sage.Mat 16 16) (b : Cert.Sage.Mat 1 16)
    (inv : Cert.Sage.Mat 100000 1) (W0 : Cert.Sage.Mat 16 64) (b0 : Cert.Sage.Mat 1 64) (W1 : Cert.Sage.Mat 64 64)
    (b1 : Cert.Sage.Mat 1 64) (W2 : Cert.Sage.Mat 64 64) (b2 : Cert.Sage.Mat 1 64) (W3 : Cert.Sage.Mat 64 4)
    (b3 : Cert.Sage.Mat 1 4)
    (x0 : Vec Ideal S5000x16 .f32) (x5 : Vec Ideal S5000x1 .f32) (x1 : Vec Ideal S5000x16 .f32)
    (x2 x3 : Vec Ideal S16x16 .f32) (x4 : Vec Ideal S1x16 .f32) (x6 : Vec Ideal S16x64 .f32) (x7 : Vec Ideal S1x64 .f32)
    (x8 : Vec Ideal S64x64 .f32) (x9 : Vec Ideal S1x64 .f32) (x10 : Vec Ideal S64x64 .f32) (x11 : Vec Ideal S1x64 .f32)
    (x12 : Vec Ideal S64x4 .f32) (x13 : Vec Ideal S1x4 .f32) (p : Fin 100000) (r : Fin 5000) (q : Fin 4)
    (h0 : ∀ k : Fin 16, x0 (ix2 r k) = M (ix2 p k)) (h1 : ∀ k : Fin 16, x1 (ix2 r k) = X (ix2 p k))
    (h5 : x5 (ix2 r (0 : Fin 1)) = inv (ix2 p (0 : Fin 1)))
    (h2 : x2 = Wl) (h3 : x3 = Wr) (h4 : x4 = b) (h6 : x6 = W0) (h7 : x7 = b0) (h8 : x8 = W1) (h9 : x9 = b1)
    (h10 : x10 = W2) (h11 : x11 = b2) (h12 : x12 = W3) (h13 : x13 = b3) :
    k3_pay1 (F := Ideal) (k3_pay3 (k3_pay2 x0 x5 x1 x2 x3 x4 x6 x7) x8 x9 x10 x11) x12 x13 (ix2 r q)
      = Cert.Sage.G3 M X Wl Wr b inv W0 b0 W1 b1 W2 b2 W3 b3 (ix2 p q) := by
  subst h2 h3 h4 h6 h7 h8 h9 h10 h11 h12 h13
  rw [pay_row]
  show Cert.Sage.rowHead (Cert.Sage.rowSage (fun k => x0 (ix2 r k)) (x5 (ix2 r (0 : Fin 1))) (fun k => x1 (ix2 r k)) x2 x3 x4)
      x6 x7 x8 x9 x10 x11 x12 x13 q
    = Cert.Sage.rowHead (Cert.Sage.rowSage (Cert.Sage.row M p) (inv (ix2 p (0 : Fin 1))) (Cert.Sage.row X p) x2 x3 x4)
      x6 x7 x8 x9 x10 x11 x12 x13 q
  rw [show (fun k => x0 (ix2 r k)) = Cert.Sage.row M p from funext h0,
    show (fun k => x1 (ix2 r k)) = Cert.Sage.row X p from funext h1, h5]

variable (V : (c : Dev nD) → (b : Ref sig .tc) → Buf (Elt Ideal) ((c : Thread nD τ).loc b))

theorem hz : (![0, 0] : Fin 2 → Nat) = fun _ => 0 := funext fun a => by fin_cases a <;> rfl

/-- The index maps over the twenty grid points.  The message, feature, reciprocal-degree and output tiles are tile t
    of their arrays; -/
theorem idx_tiled : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_5.index t (0 : Fin 2) = t.val ∧ win3_5.index t (1 : Fin 2) = 0)
    ∧ (win3_14.index t (0 : Fin 2) = t.val ∧ win3_14.index t (1 : Fin 2) = 0) :=
  (by decide +kernel : ∀ t : Fin grid3.N, _)

/-- every weight matrix and bias row is its one block. -/
theorem idx_res2 : ∀ t : Fin cfg3.N, win3_2.index t (0 : Fin 2) = 0 ∧ win3_2.index t (1 : Fin 2) = 0 :=
  (by decide +kernel : ∀ t : Fin grid3.N, _)
theorem idx_res3 : ∀ t : Fin cfg3.N, win3_3.index t (0 : Fin 2) = 0 ∧ win3_3.index t (1 : Fin 2) = 0 :=
  (by decide +kernel : ∀ t : Fin grid3.N, _)
theorem idx_res4 : ∀ t : Fin cfg3.N, win3_4.index t (0 : Fin 2) = 0 ∧ win3_4.index t (1 : Fin 2) = 0 :=
  (by decide +kernel : ∀ t : Fin grid3.N, _)
theorem idx_res6 : ∀ t : Fin cfg3.N, win3_6.index t (0 : Fin 2) = 0 ∧ win3_6.index t (1 : Fin 2) = 0 :=
  (by decide +kernel : ∀ t : Fin grid3.N, _)
theorem idx_res7 : ∀ t : Fin cfg3.N, win3_7.index t (0 : Fin 2) = 0 ∧ win3_7.index t (1 : Fin 2) = 0 :=
  (by decide +kernel : ∀ t : Fin grid3.N, _)
theorem idx_res8 : ∀ t : Fin cfg3.N, win3_8.index t (0 : Fin 2) = 0 ∧ win3_8.index t (1 : Fin 2) = 0 :=
  (by decide +kernel : ∀ t : Fin grid3.N, _)
theorem idx_res9 : ∀ t : Fin cfg3.N, win3_9.index t (0 : Fin 2) = 0 ∧ win3_9.index t (1 : Fin 2) = 0 :=
  (by decide +kernel : ∀ t : Fin grid3.N, _)
theorem idx_res10 : ∀ t : Fin cfg3.N, win3_10.index t (0 : Fin 2) = 0 ∧ win3_10.index t (1 : Fin 2) = 0 :=
  (by decide +kernel : ∀ t : Fin grid3.N, _)
theorem idx_res11 : ∀ t : Fin cfg3.N, win3_11.index t (0 : Fin 2) = 0 ∧ win3_11.index t (1 : Fin 2) = 0 :=
  (by decide +kernel : ∀ t : Fin grid3.N, _)
theorem idx_res12 : ∀ t : Fin cfg3.N, win3_12.index t (0 : Fin 2) = 0 ∧ win3_12.index t (1 : Fin 2) = 0 :=
  (by decide +kernel : ∀ t : Fin grid3.N, _)
theorem idx_res13 : ∀ t : Fin cfg3.N, win3_13.index t (0 : Fin 2) = 0 ∧ win3_13.index t (1 : Fin 2) = 0 :=
  (by decide +kernel : ∀ t : Fin grid3.N, _)

/-- Row r of the message tile at point t is row 5000·t + r of the message array. -/
theorem blk0_apply (c : Dev nD) (t : Fin cfg3.N) (r : Fin 5000) (k : Fin 16) (hp : t.val * 5000 + r.val < 100000) :
    iblk3 V c 0 t (ix2 r k) = V c (Pipeline.arrRef spec3 0) (ix2 (⟨t.val * 5000 + r.val, hp⟩ : Fin 100000) k) := by
  obtain ⟨⟨e0, e1⟩, -⟩ := idx_tiled t
  show V c (Pipeline.arrRef spec3 0) (((cfg3.win 0).blk t).view.emb (ix2 r k)) = _
  refine congrArg (V c (Pipeline.arrRef spec3 0)) (funext fun a => Fin.ext ?_)
  match a with
  | ⟨0, _⟩ => show win3_0.index t (0 : Fin 2) * 5000 + 1 * r.val = t.val * 5000 + r.val; rw [e0]; omega
  | ⟨1, _⟩ => show win3_0.index t (1 : Fin 2) * 16 + 1 * k.val = k.val; rw [e1]; omega

/-- Row r of the feature tile at point t is row 5000·t + r of the feature array. -/
theorem blk1_apply (c : Dev nD) (t : Fin cfg3.N) (r : Fin 5000) (k : Fin 16) (hp : t.val * 5000 + r.val < 100000) :
    iblk3 V c 1 t (ix2 r k) = V c (Pipeline.arrRef spec3 1) (ix2 (⟨t.val * 5000 + r.val, hp⟩ : Fin 100000) k) := by
  obtain ⟨-, ⟨e0, e1⟩, -⟩ := idx_tiled t
  show V c (Pipeline.arrRef spec3 1) (((cfg3.win 1).blk t).view.emb (ix2 r k)) = _
  refine congrArg (V c (Pipeline.arrRef spec3 1)) (funext fun a => Fin.ext ?_)
  match a with
  | ⟨0, _⟩ => show win3_1.index t (0 : Fin 2) * 5000 + 1 * r.val = t.val * 5000 + r.val; rw [e0]; omega
  | ⟨1, _⟩ => show win3_1.index t (1 : Fin 2) * 16 + 1 * k.val = k.val; rw [e1]; omega

/-- Row r of the reciprocal-degree tile at point t is row 5000·t + r of the reciprocal-degree array. -/
theorem blk5_apply (c : Dev nD) (t : Fin cfg3.N) (r : Fin 5000) (hp : t.val * 5000 + r.val < 100000) :
    iblk3 V c 5 t (ix2 r (0 : Fin 1))
      = V c (Pipeline.arrRef spec3 5) (ix2 (⟨t.val * 5000 + r.val, hp⟩ : Fin 100000) (0 : Fin 1)) := by
  obtain ⟨-, -, ⟨e0, e1⟩, -⟩ := idx_tiled t
  show V c (Pipeline.arrRef spec3 5) (((cfg3.win 5).blk t).view.emb (ix2 r (0 : Fin 1))) = _
  refine congrArg (V c (Pipeline.arrRef spec3 5)) (funext fun a => Fin.ext ?_)
  match a with
  | ⟨0, _⟩ => show win3_5.index t (0 : Fin 2) * 5000 + 1 * r.val = t.val * 5000 + r.val; rw [e0]; omega
  | ⟨1, _⟩ => show win3_5.index t (1 : Fin 2) * 1 + 1 * 0 = 0; rw [e1]

/-- Entry (r, q) of the output tile at point t sits at (5000·t + r, q) of the output array. -/
theorem emb14 (t : Fin cfg3.N) (r : Fin 5000) (q : Fin 4) (hp : t.val * 5000 + r.val < 100000) :
    ((cfg3.win 14).blk t).view.emb (ix2 r q) = ix2 (⟨t.val * 5000 + r.val, hp⟩ : Fin 100000) q := by
  obtain ⟨-, -, -, ⟨e0, e1⟩⟩ := idx_tiled t
  funext a; apply Fin.ext
  match a with
  | ⟨0, _⟩ => show win3_14.index t (0 : Fin 2) * 5000 + 1 * r.val = t.val * 5000 + r.val; rw [e0]; omega
  | ⟨1, _⟩ => show win3_14.index t (1 : Fin 2) * 4 + 1 * q.val = q.val; rw [e1]; omega

/-- The left weight tile at every point is the left weight array. -/
theorem blk2_eq (c : Dev nD) (t : Fin cfg3.N) :
    (iblk3 V c 2 t : Vec Ideal S16x16 .f32) = V c (Pipeline.arrRef spec3 2) := by
  obtain ⟨e0, e1⟩ := idx_res2 t
  funext y
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 16 + 1 * (y 0).val = (y 0).val; rw [e0]; omega
  | ⟨1, _⟩ => show win3_2.index t (1 : Fin 2) * 16 + 1 * (y 1).val = (y 1).val; rw [e1]; omega

/-- The right weight tile at every point is the right weight array. -/
theorem blk3_eq (c : Dev nD) (t : Fin cfg3.N) :
    (iblk3 V c 3 t : Vec Ideal S16x16 .f32) = V c (Pipeline.arrRef spec3 3) := by
  obtain ⟨e0, e1⟩ := idx_res3 t
  funext y
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 16 + 1 * (y 0).val = (y 0).val; rw [e0]; omega
  | ⟨1, _⟩ => show win3_3.index t (1 : Fin 2) * 16 + 1 * (y 1).val = (y 1).val; rw [e1]; omega

/-- The convolution's bias tile at every point is its bias row. -/
theorem blk4_eq (c : Dev nD) (t : Fin cfg3.N) :
    (iblk3 V c 4 t : Vec Ideal S1x16 .f32) = V c (Pipeline.arrRef spec3 4) := by
  obtain ⟨e0, e1⟩ := idx_res4 t
  funext y
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 2) * 1 + 1 * (y 0).val = (y 0).val; rw [e0]; omega
  | ⟨1, _⟩ => show win3_4.index t (1 : Fin 2) * 16 + 1 * (y 1).val = (y 1).val; rw [e1]; omega

/-- The first dense layer's weight tile at every point is its weight array. -/
theorem blk6_eq (c : Dev nD) (t : Fin cfg3.N) :
    (iblk3 V c 6 t : Vec Ideal S16x64 .f32) = V c (Pipeline.arrRef spec3 6) := by
  obtain ⟨e0, e1⟩ := idx_res6 t
  funext y
  show V c (Pipeline.arrRef spec3 6) (((cfg3.win 6).blk t).view.emb y) = V c (Pipeline.arrRef spec3 6) y
  refine congrArg (V c (Pipeline.arrRef spec3 6)) (funext fun a => Fin.ext ?_)
  match a with
  | ⟨0, _⟩ => show win3_6.index t (0 : Fin 2) * 16 + 1 * (y 0).val = (y 0).val; rw [e0]; omega
  | ⟨1, _⟩ => show win3_6.index t (1 : Fin 2) * 64 + 1 * (y 1).val = (y 1).val; rw [e1]; omega

/-- The first dense layer's bias tile at every point is its bias row. -/
theorem blk7_eq (c : Dev nD) (t : Fin cfg3.N) :
    (iblk3 V c 7 t : Vec Ideal S1x64 .f32) = V c (Pipeline.arrRef spec3 7) := by
  obtain ⟨e0, e1⟩ := idx_res7 t
  funext y
  show V c (Pipeline.arrRef spec3 7) (((cfg3.win 7).blk t).view.emb y) = V c (Pipeline.arrRef spec3 7) y
  refine congrArg (V c (Pipeline.arrRef spec3 7)) (funext fun a => Fin.ext ?_)
  match a with
  | ⟨0, _⟩ => show win3_7.index t (0 : Fin 2) * 1 + 1 * (y 0).val = (y 0).val; rw [e0]; omega
  | ⟨1, _⟩ => show win3_7.index t (1 : Fin 2) * 64 + 1 * (y 1).val = (y 1).val; rw [e1]; omega

/-- The second dense layer's weight tile at every point is its weight array. -/
theorem blk8_eq (c : Dev nD) (t : Fin cfg3.N) :
    (iblk3 V c 8 t : Vec Ideal S64x64 .f32) = V c (Pipeline.arrRef spec3 8) := by
  obtain ⟨e0, e1⟩ := idx_res8 t
  funext y
  show V c (Pipeline.arrRef spec3 8) (((cfg3.win 8).blk t).view.emb y) = V c (Pipeline.arrRef spec3 8) y
  refine congrArg (V c (Pipeline.arrRef spec3 8)) (funext fun a => Fin.ext ?_)
  match a with
  | ⟨0, _⟩ => show win3_8.index t (0 : Fin 2) * 64 + 1 * (y 0).val = (y 0).val; rw [e0]; omega
  | ⟨1, _⟩ => show win3_8.index t (1 : Fin 2) * 64 + 1 * (y 1).val = (y 1).val; rw [e1]; omega

/-- The second dense layer's bias tile at every point is its bias row. -/
theorem blk9_eq (c : Dev nD) (t : Fin cfg3.N) :
    (iblk3 V c 9 t : Vec Ideal S1x64 .f32) = V c (Pipeline.arrRef spec3 9) := by
  obtain ⟨e0, e1⟩ := idx_res9 t
  funext y
  show V c (Pipeline.arrRef spec3 9) (((cfg3.win 9).blk t).view.emb y) = V c (Pipeline.arrRef spec3 9) y
  refine congrArg (V c (Pipeline.arrRef spec3 9)) (funext fun a => Fin.ext ?_)
  match a with
  | ⟨0, _⟩ => show win3_9.index t (0 : Fin 2) * 1 + 1 * (y 0).val = (y 0).val; rw [e0]; omega
  | ⟨1, _⟩ => show win3_9.index t (1 : Fin 2) * 64 + 1 * (y 1).val = (y 1).val; rw [e1]; omega

/-- The third dense layer's weight tile at every point is its weight array. -/
theorem blk10_eq (c : Dev nD) (t : Fin cfg3.N) :
    (iblk3 V c 10 t : Vec Ideal S64x64 .f32) = V c (Pipeline.arrRef spec3 10) := by
  obtain ⟨e0, e1⟩ := idx_res10 t
  funext y
  show V c (Pipeline.arrRef spec3 10) (((cfg3.win 10).blk t).view.emb y) = V c (Pipeline.arrRef spec3 10) y
  refine congrArg (V c (Pipeline.arrRef spec3 10)) (funext fun a => Fin.ext ?_)
  match a with
  | ⟨0, _⟩ => show win3_10.index t (0 : Fin 2) * 64 + 1 * (y 0).val = (y 0).val; rw [e0]; omega
  | ⟨1, _⟩ => show win3_10.index t (1 : Fin 2) * 64 + 1 * (y 1).val = (y 1).val; rw [e1]; omega

/-- The third dense layer's bias tile at every point is its bias row. -/
theorem blk11_eq (c : Dev nD) (t : Fin cfg3.N) :
    (iblk3 V c 11 t : Vec Ideal S1x64 .f32) = V c (Pipeline.arrRef spec3 11) := by
  obtain ⟨e0, e1⟩ := idx_res11 t
  funext y
  show V c (Pipeline.arrRef spec3 11) (((cfg3.win 11).blk t).view.emb y) = V c (Pipeline.arrRef spec3 11) y
  refine congrArg (V c (Pipeline.arrRef spec3 11)) (funext fun a => Fin.ext ?_)
  match a with
  | ⟨0, _⟩ => show win3_11.index t (0 : Fin 2) * 1 + 1 * (y 0).val = (y 0).val; rw [e0]; omega
  | ⟨1, _⟩ => show win3_11.index t (1 : Fin 2) * 64 + 1 * (y 1).val = (y 1).val; rw [e1]; omega

/-- The last dense layer's weight tile at every point is its weight array. -/
theorem blk12_eq (c : Dev nD) (t : Fin cfg3.N) :
    (iblk3 V c 12 t : Vec Ideal S64x4 .f32) = V c (Pipeline.arrRef spec3 12) := by
  obtain ⟨e0, e1⟩ := idx_res12 t
  funext y
  show V c (Pipeline.arrRef spec3 12) (((cfg3.win 12).blk t).view.emb y) = V c (Pipeline.arrRef spec3 12) y
  refine congrArg (V c (Pipeline.arrRef spec3 12)) (funext fun a => Fin.ext ?_)
  match a with
  | ⟨0, _⟩ => show win3_12.index t (0 : Fin 2) * 64 + 1 * (y 0).val = (y 0).val; rw [e0]; omega
  | ⟨1, _⟩ => show win3_12.index t (1 : Fin 2) * 4 + 1 * (y 1).val = (y 1).val; rw [e1]; omega

/-- The last dense layer's bias tile at every point is its bias row. -/
theorem blk13_eq (c : Dev nD) (t : Fin cfg3.N) :
    (iblk3 V c 13 t : Vec Ideal S1x4 .f32) = V c (Pipeline.arrRef spec3 13) := by
  obtain ⟨e0, e1⟩ := idx_res13 t
  funext y
  show V c (Pipeline.arrRef spec3 13) (((cfg3.win 13).blk t).view.emb y) = V c (Pipeline.arrRef spec3 13) y
  refine congrArg (V c (Pipeline.arrRef spec3 13)) (funext fun a => Fin.ext ?_)
  match a with
  | ⟨0, _⟩ => show win3_13.index t (0 : Fin 2) * 1 + 1 * (y 0).val = (y 0).val; rw [e0]; omega
  | ⟨1, _⟩ => show win3_13.index t (1 : Fin 2) * 4 + 1 * (y 1).val = (y 1).val; rw [e1]; omega

set_option maxHeartbeats 1000000 in
/-- What point t writes back is tile t of the stage applied to the whole arrays. -/
theorem flushed_eq (c : Dev nD) (t : Fin cfg3.N) :
    (dat3 V c).flushed 14 t = ((cfg3.win 14).blk t).view.read (Elt Ideal)
      (Cert.Sage.G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))
        (V c (Pipeline.arrRef spec3 9)) (V c (Pipeline.arrRef spec3 10)) (V c (Pipeline.arrRef spec3 11))
        (V c (Pipeline.arrRef spec3 12)) (V c (Pipeline.arrRef spec3 13))) := by
  show (cfg3.win 14).cut (grid3.coords t) ((dat3 V c).after 14 t) = _
  rw [after3_14]
  unfold out3_14
  rw [View.canon_unit_zero hz]
  simp only [View.ld_unit_zero (S := S5000x16) hz, View.ld_unit_zero (S := S5000x1) hz,
    View.ld_unit_zero (S := S16x16) hz, View.ld_unit_zero (S := S1x16) hz, View.ld_unit_zero (S := S16x64) hz,
    View.ld_unit_zero (S := S1x64) hz, View.ld_unit_zero (S := S64x64) hz, View.ld_unit_zero (S := S64x4) hz,
    View.ld_unit_zero (S := S1x4) hz]
  have hN : cfg3.N = 20 := N_3
  have ht : t.val < cfg3.N := t.isLt
  funext j
  obtain ⟨r, q, rfl⟩ : ∃ (r : Fin 5000) (q : Fin 4), j = ix2 r q := ⟨j 0, j 1, eq_ix2 j⟩
  have hr : r.val < 5000 := r.isLt
  have hp : t.val * 5000 + r.val < 100000 := by omega
  show k3_pay1 (k3_pay3 (k3_pay2 (iblk3 V c 0 t) (iblk3 V c 5 t) (iblk3 V c 1 t) (iblk3 V c 2 t) (iblk3 V c 3 t)
        (iblk3 V c 4 t) (iblk3 V c 6 t) (iblk3 V c 7 t)) (iblk3 V c 8 t) (iblk3 V c 9 t) (iblk3 V c 10 t) (iblk3 V c 11 t))
      (iblk3 V c 12 t) (iblk3 V c 13 t) (ix2 r q)
    = Cert.Sage.G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))
        (V c (Pipeline.arrRef spec3 9)) (V c (Pipeline.arrRef spec3 10)) (V c (Pipeline.arrRef spec3 11))
        (V c (Pipeline.arrRef spec3 12)) (V c (Pipeline.arrRef spec3 13)) (((cfg3.win 14).blk t).view.emb (ix2 r q))
  rw [emb14 t r q hp]
  exact point (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))
    (V c (Pipeline.arrRef spec3 9)) (V c (Pipeline.arrRef spec3 10)) (V c (Pipeline.arrRef spec3 11))
    (V c (Pipeline.arrRef spec3 12)) (V c (Pipeline.arrRef spec3 13))
    (iblk3 V c 0 t) (iblk3 V c 5 t) (iblk3 V c 1 t) (iblk3 V c 2 t) (iblk3 V c 3 t) (iblk3 V c 4 t) (iblk3 V c 6 t)
    (iblk3 V c 7 t) (iblk3 V c 8 t) (iblk3 V c 9 t) (iblk3 V c 10 t) (iblk3 V c 11 t) (iblk3 V c 12 t) (iblk3 V c 13 t)
    _ r q
    (fun k => blk0_apply V c t r k hp) (fun k => blk1_apply V c t r k hp) (blk5_apply V c t r hp)
    (blk2_eq V c t) (blk3_eq V c t) (blk4_eq V c t) (blk6_eq V c t) (blk7_eq V c t) (blk8_eq V c t) (blk9_eq V c t)
    (blk10_eq V c t) (blk11_eq V c t) (blk12_eq V c t) (blk13_eq V c t)

/-- An index of the output array is in point t's tile iff each coordinate is in the tile's range on its axis. -/
theorem mem_blk (t : Fin cfg3.N) (i : S100000x4.Idx) :
    i ∈ ((cfg3.win 14).blk t).view.set ↔ ∀ a : Fin 2, win3_14.index t a * S5000x4.size a ≤ (i a).val
      ∧ (i a).val < win3_14.index t a * S5000x4.size a + S5000x4.size a := by
  show i ∈ ((View.whole main_v52).slice (win3_14.rect t)).set ↔ _
  rw [View.set_slice_whole, Rect.mem_set_unit]
  exact Iff.rfl

/-- Every row p of the 100000 is in tile p / 5000. -/
theorem cover (i : S100000x4.Idx) :
    ∃ t : Fin cfg3.N, (cfg3.win 14).flush t = true ∧ i ∈ ((cfg3.win 14).blk t).view.set := by
  have hN : cfg3.N = 20 := N_3
  have hi0 : (i 0).val < 100000 := idx2_lt0 i
  have hi1 : (i 1).val < 4 := idx2_lt1 i
  refine ⟨⟨(i 0).val / 5000, by rw [hN]; omega⟩, flush3_14 _, ?_⟩
  rw [mem_blk]
  obtain ⟨-, -, -, ⟨e0, e1⟩⟩ := idx_tiled ⟨(i 0).val / 5000, by rw [hN]; omega⟩
  intro a
  match a with
  | ⟨0, _⟩ =>
    show win3_14.index _ (0 : Fin 2) * 5000 ≤ (i 0).val ∧ (i 0).val < win3_14.index _ (0 : Fin 2) * 5000 + 5000
    rw [e0]; show (i 0).val / 5000 * 5000 ≤ (i 0).val ∧ (i 0).val < (i 0).val / 5000 * 5000 + 5000; omega
  | ⟨1, _⟩ =>
    show win3_14.index _ (1 : Fin 2) * 4 ≤ (i 1).val ∧ (i 1).val < win3_14.index _ (1 : Fin 2) * 4 + 4
    rw [e1]; omega

/-- THE ARRAY after the twenty points: the last convolution stage and the head of the whole arrays, index by index. -/
theorem final (c : Dev nD) : (dat3 (F := Ideal) V c).arrAt 14 cfg3.N
    = Cert.Sage.G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))
        (V c (Pipeline.arrRef spec3 9)) (V c (Pipeline.arrRef spec3 10)) (V c (Pipeline.arrRef spec3 11))
        (V c (Pipeline.arrRef spec3 12)) (V c (Pipeline.arrRef spec3 13)) :=
  (dat3 V c).arrAt_eq_of_cover 14
    (Cert.Sage.G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))
        (V c (Pipeline.arrRef spec3 9)) (V c (Pipeline.arrRef spec3 10)) (V c (Pipeline.arrRef spec3 11))
        (V c (Pipeline.arrRef spec3 12)) (V c (Pipeline.arrRef spec3 13)))
    (fun t _ => flushed_eq V c t) (cover)

end Cert.KernelIdeal.Region3

end
-- ==== Proof.KerTerm.lean ====
/-
  The result of the kernel program as a closed term of its nineteen argument arrays, at the ideal
  instance (a float an extended real, every operation exact).

  The program is a three-layer mean-aggregating graph convolution followed by a four-layer
  perceptron over N = 100000 nodes and E = 3200000 directed edges.  `ei` is the edge list: row 0
  holds each edge's source node, row 1 its destination node.  Between its four dense stages the
  program computes, with whole-array operations,

    * the reciprocal degree  inv v = 1 / max (indegree v) 1,  once, and
    * before each convolution stage the summed messages  M v = ∑ over edges e with dst e = v of X (src e),

  and each dense stage is one of the four row-local functions `G0 … G3` of the specification:
  the projection `X · W`, two convolution stages `elu ((M · inv) … + X · Wr + b)`, and the last
  convolution stage followed by the perceptron.

  Every definition below is, operation for operation and in the program's order, the composition
  of the pure functions of the program's whole-array statements that compute the named value; the
  source-index computation, which the program repeats before every aggregation from the same
  operand, is stated once.
-/
import proofs.«115002_j14955076125382_2_alg».proof.KernelIdeal
import proofs.«115002_j14955076125382_2_alg».proof.Proof.Spec

noncomputable section

namespace Cert.KernelIdeal.KerTerm

open Cert.KernelIdeal Idealize.ShloMosaic

variable [Facts]
open Facts₀ Facts

/-! ## The edge list -/

/-- Row 0 of the edge list as a vector of E entries: each edge's source node, as stored. -/
def srcFlat (ei : IVec S2x3200000 32) : IVec S3200000 32 :=
  shapeCast S3200000 (extractStridedSlice S1x3200000 ![0, 0] ei slices_S2x3200000_S1x3200000_0_0)
    shapeCasts_S1x3200000_S3200000

/-- Row 1 of the edge list as a vector of E entries: each edge's destination node. -/
def dstFlat (ei : IVec S2x3200000 32) : IVec S3200000 32 :=
  shapeCast S3200000 (extractStridedSlice S1x3200000 ![1, 0] ei slices_S2x3200000_S1x3200000_1_0)
    shapeCasts_S1x3200000_S3200000

/-- A vector of E node numbers with each negative one raised by N (an index counted from the end),
    as a column [E, 1]: the index operand of a row gather. -/
def wrapIdx (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The source nodes as the gather's index column [E, 1]. -/
def srcIdx (ei : IVec S2x3200000 32) : IVec S3200000x1 32 := wrapIdx (srcFlat ei)

/-- The destination nodes as the scatter's index column [E, 1]. -/
def dstIdx (ei : IVec S2x3200000 32) : IVec S3200000x1 32 :=
  broadcastInDim S3200000x1 ![0] bcast_S3200000_S3200000x1_0 (dstFlat ei)

/-- `1 / max (indegree v) 1` for every node `v`, as a column [N, 1]: a one added at each edge's
    destination into zeros, the maximum of that with one, and one divided by the maximum. -/
def invDeg (ei : IVec S2x3200000 32) : FVec Ideal S100000x1 .f32 :=
  Host.divf (F := Ideal)
    (broadcastInDim S100000x1 ![] bcast_S_S100000x1 (constant (F := Ideal) S_ .f32 0x3F800000#32))
    (maximumf
      (Host.scatterAdd (F := Ideal) scatter_S100000x1_S3200000x1_S3200000x1_1_0_0_1
        (broadcastInDim S100000x1 ![] bcast_S_S100000x1 (constant (F := Ideal) S_ .f32 0x00000000#32))
        (dstIdx ei)
        (broadcastInDim S3200000x1 ![] bcast_S_S3200000x1 (constant (F := Ideal) S_ .f32 0x3F800000#32)))
      (broadcastInDim S100000x1 ![] bcast_S_S100000x1 (constant (F := Ideal) S_ .f32 0x3F800000#32)))

/-! ## The aggregation -/

/-- The summed messages at width 16: the rows of `X` gathered at the edges' sources and added at
    the edges' destinations into zeros. -/
def agg16 (ei : IVec S2x3200000 32) (X : FVec Ideal S100000x16 .f32) : FVec Ideal S100000x16 .f32 :=
  Host.scatterAdd (F := Ideal) scatter_S100000x16_S3200000x1_S3200000x16_1_0_0_1
    (broadcastInDim S100000x16 ![] bcast_S_S100000x16 (constant (F := Ideal) S_ .f32 0x00000000#32))
    (dstIdx ei)
    (Host.gather gather_S100000x16_S3200000x1_S3200000x16_1_0_n_n_0_1_116 X (srcIdx ei))

/-! ## The biases as one-row arrays -/

/-- A bias of 16 entries as the array [1, 16]. -/
def bias16 (b : FVec Ideal S16 .f32) : FVec Ideal S1x16 .f32 := shapeCast S1x16 b shapeCasts_S16_S1x16

/-- A bias of 64 entries as the array [1, 64]. -/
def bias64 (b : FVec Ideal S64 .f32) : FVec Ideal S1x64 .f32 := shapeCast S1x64 b shapeCasts_S64_S1x64

/-- A bias of 4 entries as the array [1, 4]. -/
def bias4 (b : FVec Ideal S4 .f32) : FVec Ideal S1x4 .f32 := shapeCast S1x4 b shapeCasts_S4_S1x4

/-! ## The stages -/

/-- The projected features [N, 16]: `X · W`. -/
def y0 (a0 : FVec Ideal S100000x32 .f32) (a2 : FVec Ideal S32x16 .f32) : FVec Ideal S100000x16 .f32 :=
  Cert.Sage.G0 a0 a2

/-- The first convolution stage's result [N, 16]. -/
def x1 (a0 : FVec Ideal S100000x32 .f32) (a1 : IVec S2x3200000 32) (a2 a3 : FVec Ideal S32x16 .f32)
    (a4 : FVec Ideal S16 .f32) : FVec Ideal S100000x16 .f32 :=
  Cert.Sage.G1 (agg16 a1 (y0 a0 a2)) a0 a3 (bias16 a4) (invDeg a1)

/-- The second convolution stage's result [N, 16]. -/
def x2 (a0 : FVec Ideal S100000x32 .f32) (a1 : IVec S2x3200000 32) (a2 a3 : FVec Ideal S32x16 .f32)
    (a4 : FVec Ideal S16 .f32) (a5 a6 : FVec Ideal S16x16 .f32) (a7 : FVec Ideal S16 .f32) :
    FVec Ideal S100000x16 .f32 :=
  Cert.Sage.G2 (agg16 a1 (x1 a0 a1 a2 a3 a4)) (x1 a0 a1 a2 a3 a4) a5 a6 (bias16 a7) (invDeg a1)

/-! ## The whole program -/

/-- The program's result [N, 4] as a function of its nineteen arguments, in their order: the node
    features, the edge list, three layers' (neighbour weight, root weight, bias), four layers'
    (weight, bias). -/
def out (a0 : FVec Ideal S100000x32 .f32) (a1 : IVec S2x3200000 32)
    (a2 a3 : FVec Ideal S32x16 .f32) (a4 : FVec Ideal S16 .f32)
    (a5 a6 : FVec Ideal S16x16 .f32) (a7 : FVec Ideal S16 .f32)
    (a8 a9 : FVec Ideal S16x16 .f32) (a10 : FVec Ideal S16 .f32)
    (a11 : FVec Ideal S16x64 .f32) (a12 : FVec Ideal S64 .f32)
    (a13 : FVec Ideal S64x64 .f32) (a14 : FVec Ideal S64 .f32)
    (a15 : FVec Ideal S64x64 .f32) (a16 : FVec Ideal S64 .f32)
    (a17 : FVec Ideal S64x4 .f32) (a18 : FVec Ideal S4 .f32) : FVec Ideal S100000x4 .f32 :=
  Cert.Sage.G3 (agg16 a1 (x2 a0 a1 a2 a3 a4 a5 a6 a7)) (x2 a0 a1 a2 a3 a4 a5 a6 a7) a8 a9 (bias16 a10) (invDeg a1)
    a11 (bias64 a12) a13 (bias64 a14) a15 (bias64 a16) a17 (bias4 a18)

end Cert.KernelIdeal.KerTerm

end
-- ==== Proof.KerKeep.lean ====
/-
  What the stretches of whole-array operations compute, and what every step of the kernel program keeps.

  The program alternates four stretches of whole-array operations with four tiled dense stages; the contents
  of the buffers at the eight boundaries between these segments are a fold from the launch memory.  This module
  reads that fold at the buffers of interest:

    * from any contents, each stretch leaves in the buffers it computes the values named in `KerTerm` (the
      edge-list columns, the reciprocal degrees, the summed messages, the biases as one-row arrays);
    * a stretch keeps every buffer none of its operations writes, and a dense stage keeps its input arrays
      and every buffer that is not one of its arrays; hence the edge-list columns and the reciprocal degrees,
      computed by the first stretch, and the nineteen arguments hold at every later boundary what they held
      at the first.
-/
import proofs.«115002_j14955076125382_2_alg».proof.Proof.KernelIdealFrame
import proofs.«115002_j14955076125382_2_alg».proof.Proof.KerTerm

set_option maxRecDepth 16384

noncomputable section

namespace Cert.KernelIdeal.KerKeep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts]
open Facts₀ Facts

/-! ## The stretches of whole-array operations, from any contents `V` -/

section Host

variable (V : Valuation τ sig (Elt Ideal))

/-- The first stretch leaves the edges' source nodes, as stored, in their vector. -/
theorem host0_src : StableHlo.after (hostOps0 (F := Ideal)) V (Proc.devRef .tc main_v1)
    = KerTerm.srcFlat (V (Proc.devRef .tc main_arg1)) := by
  after_results; rfl

/-- The first stretch leaves the edges' destination nodes in their vector. -/
theorem host0_dst : StableHlo.after (hostOps0 (F := Ideal)) V (Proc.devRef .tc main_v3)
    = KerTerm.dstFlat (V (Proc.devRef .tc main_arg1)) := by
  after_results; rfl

/-- The first stretch leaves the reciprocal degrees in their column. -/
theorem host0_inv : StableHlo.after (hostOps0 (F := Ideal)) V (Proc.devRef .tc main_v11)
    = KerTerm.invDeg (V (Proc.devRef .tc main_arg1)) := by
  after_results; rfl

/-- The second stretch sums the projected features over the edges: gathered at the sources, added at the
    destinations. -/
theorem host1_agg (ei : IVec S2x3200000 32)
    (hs : V (Proc.devRef .tc main_v1) = KerTerm.srcFlat ei) (hd : V (Proc.devRef .tc main_v3) = KerTerm.dstFlat ei) :
    StableHlo.after (hostOps1 (F := Ideal)) V (Proc.devRef .tc main_v22)
      = KerTerm.agg16 ei (V (Proc.devRef .tc main_v12)) := by
  after_results_simp; rw [hs, hd]; rfl

/-- The second stretch leaves the first bias as a one-row array. -/
theorem host1_bias : StableHlo.after (hostOps1 (F := Ideal)) V (Proc.devRef .tc main_v23)
    = KerTerm.bias16 (V (Proc.devRef .tc main_arg4)) := by
  after_results; rfl

/-- The third stretch sums the first stage's features over the edges. -/
theorem host2_agg (ei : IVec S2x3200000 32)
    (hs : V (Proc.devRef .tc main_v1) = KerTerm.srcFlat ei) (hd : V (Proc.devRef .tc main_v3) = KerTerm.dstFlat ei) :
    StableHlo.after (hostOps2 (F := Ideal)) V (Proc.devRef .tc main_v34)
      = KerTerm.agg16 ei (V (Proc.devRef .tc main_v24)) := by
  after_results_simp; rw [hs, hd]; rfl

/-- The third stretch leaves the second bias as a one-row array. -/
theorem host2_bias : StableHlo.after (hostOps2 (F := Ideal)) V (Proc.devRef .tc main_v35)
    = KerTerm.bias16 (V (Proc.devRef .tc main_arg7)) := by
  after_results; rfl

/-- The fourth stretch sums the second stage's features over the edges. -/
theorem host3_agg (ei : IVec S2x3200000 32)
    (hs : V (Proc.devRef .tc main_v1) = KerTerm.srcFlat ei) (hd : V (Proc.devRef .tc main_v3) = KerTerm.dstFlat ei) :
    StableHlo.after (hostOps3 (F := Ideal)) V (Proc.devRef .tc main_v46)
      = KerTerm.agg16 ei (V (Proc.devRef .tc main_v36)) := by
  after_results_simp; rw [hs, hd]; rfl

/-- The fourth stretch leaves the five remaining biases as one-row arrays. -/
theorem host3_bias10 : StableHlo.after (hostOps3 (F := Ideal)) V (Proc.devRef .tc main_v47)
    = KerTerm.bias16 (V (Proc.devRef .tc main_arg10)) := by
  after_results; rfl
theorem host3_bias12 : StableHlo.after (hostOps3 (F := Ideal)) V (Proc.devRef .tc main_v48)
    = KerTerm.bias64 (V (Proc.devRef .tc main_arg12)) := by
  after_results; rfl
theorem host3_bias14 : StableHlo.after (hostOps3 (F := Ideal)) V (Proc.devRef .tc main_v49)
    = KerTerm.bias64 (V (Proc.devRef .tc main_arg14)) := by
  after_results; rfl
theorem host3_bias16 : StableHlo.after (hostOps3 (F := Ideal)) V (Proc.devRef .tc main_v50)
    = KerTerm.bias64 (V (Proc.devRef .tc main_arg16)) := by
  after_results; rfl
theorem host3_bias18 : StableHlo.after (hostOps3 (F := Ideal)) V (Proc.devRef .tc main_v51)
    = KerTerm.bias4 (V (Proc.devRef .tc main_arg18)) := by
  after_results; rfl

end Host

/-! ## What every step keeps -/

/-- A buffer that no operation of the listed stretch writes keeps its contents through it: every operation
    writes one reference, and each of those differs from the given one. -/
local macro "host_keeps" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-- The nineteen argument arrays. -/
def args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

/-- The buffers every step after the first stretch keeps: the two edge-list columns and the reciprocal degrees,
    which the first stretch computes, and the arguments. -/
def kept : List (Ref sig .tc) := main_v1 :: main_v3 :: main_v11 :: args

theorem kept_of_args {r : Ref sig .tc} (hr : r ∈ args) : r ∈ kept :=
  List.mem_cons_of_mem _ (List.mem_cons_of_mem _ (List.mem_cons_of_mem _ hr))

section Run

variable (m : (ℓ : Loc nD τ sig) → Buf (Elt Ideal) ℓ) (ρ : Dev nD → PrngReg) (c : Dev nD)

/-- The first stretch writes no argument. -/
theorem step1 {r : Ref sig .tc} (hr : r ∈ args) :
    W1 m ρ c (Proc.devRef .tc r) = W0 m ρ c (Proc.devRef .tc r) := by
  simp only [args, List.mem_cons, List.not_mem_nil, or_false] at hr
  rcases hr with rfl | rfl | rfl | rfl | rfl | rfl | rfl | rfl | rfl | rfl | rfl | rfl | rfl | rfl | rfl | rfl | rfl | rfl | rfl
  all_goals host_keeps hostOps0

/-- The first dense stage keeps them: each is one of its input arrays or none of its arrays. -/
theorem step2 {r : Ref sig .tc} (hr : r ∈ kept) :
    W2 m ρ c (Proc.devRef .tc r) = W1 m ρ c (Proc.devRef .tc r) := by
  simp only [kept, args, List.mem_cons, List.not_mem_nil, or_false] at hr
  rcases hr with rfl | rfl | rfl | rfl | rfl | rfl | rfl | rfl | rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

/-- The second stretch writes none of them. -/
theorem step3 {r : Ref sig .tc} (hr : r ∈ kept) :
    W3 m ρ c (Proc.devRef .tc r) = W2 m ρ c (Proc.devRef .tc r) := by
  simp only [kept, args, List.mem_cons, List.not_mem_nil, or_false] at hr
  rcases hr with rfl | rfl | rfl | rfl | rfl | rfl | rfl | rfl | rfl | rfl | rfl | rfl | rfl | rfl | rfl | rfl | rfl | rfl | rfl | rfl | rfl | rfl
  all_goals host_keeps hostOps1

/-- The second dense stage keeps them: each is one of its input arrays or none of its arrays. -/
theorem step4 {r : Ref sig .tc} (hr : r ∈ kept) :
    W4 m ρ c (Proc.devRef .tc r) = W3 m ρ c (Proc.devRef .tc r) := by
  simp only [kept, args, List.mem_cons, List.not_mem_nil, or_false] at hr
  rcases hr with rfl | rfl | rfl | rfl | rfl | rfl | rfl | rfl | rfl | rfl | rfl | rfl | rfl | rfl | rfl | rfl | rfl | rfl | rfl | rfl | rfl | rfl
  all_goals first
    | exact W4_of_ne m ρ c _ (by decide)
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
    | exact (W4_arr m ρ c 4).trans (((dat1 (V3 m ρ) c).arrAt_in 4 rfl _).trans (A_eq1 (V3 m ρ) c 4))

/-- The third stretch writes none of them. -/
theorem step5 {r : Ref sig .tc} (hr : r ∈ kept) :
    W5 m ρ c (Proc.devRef .tc r) = W4 m ρ c (Proc.devRef .tc r) := by
  simp only [kept, args, List.mem_cons, List.not_mem_nil, or_false] at hr
  rcases hr with rfl | rfl | rfl | rfl | rfl | rfl | rfl | rfl | rfl | rfl | rfl | rfl | rfl | rfl | rfl | rfl | rfl | rfl | rfl | rfl | rfl | rfl
  all_goals host_keeps hostOps2

/-- The third dense stage keeps them: each is one of its input arrays or none of its arrays. -/
theorem step6 {r : Ref sig .tc} (hr : r ∈ kept) :
    W6 m ρ c (Proc.devRef .tc r) = W5 m ρ c (Proc.devRef .tc r) := by
  simp only [kept, args, List.mem_cons, List.not_mem_nil, or_false] at hr
  rcases hr with rfl | rfl | rfl | rfl | rfl | rfl | rfl | rfl | rfl | rfl | rfl | rfl | rfl | rfl | rfl | rfl | rfl | rfl | rfl | rfl | rfl | rfl
  all_goals first
    | exact W6_of_ne m ρ c _ (by decide)
    | exact (W6_arr m ρ c 2).trans (((dat2 (V5 m ρ) c).arrAt_in 2 rfl _).trans (A_eq2 (V5 m ρ) c 2))
    | exact (W6_arr m ρ c 3).trans (((dat2 (V5 m ρ) c).arrAt_in 3 rfl _).trans (A_eq2 (V5 m ρ) c 3))
    | exact (W6_arr m ρ c 5).trans (((dat2 (V5 m ρ) c).arrAt_in 5 rfl _).trans (A_eq2 (V5 m ρ) c 5))

/-- The fourth stretch writes none of them. -/
theorem step7 {r : Ref sig .tc} (hr : r ∈ kept) :
    W7 m ρ c (Proc.devRef .tc r) = W6 m ρ c (Proc.devRef .tc r) := by
  simp only [kept, args, List.mem_cons, List.not_mem_nil, or_false] at hr
  rcases hr with rfl | rfl | rfl | rfl | rfl | rfl | rfl | rfl | rfl | rfl | rfl | rfl | rfl | rfl | rfl | rfl | rfl | rfl | rfl | rfl | rfl | rfl
  all_goals host_keeps hostOps3

/-- From the first dense stage's entry on, a kept buffer holds at every boundary what it held there. -/
theorem at2 {r : Ref sig .tc} (hr : r ∈ kept) : W2 m ρ c (Proc.devRef .tc r) = W1 m ρ c (Proc.devRef .tc r) := step2 m ρ c hr
theorem at3 {r : Ref sig .tc} (hr : r ∈ kept) : W3 m ρ c (Proc.devRef .tc r) = W1 m ρ c (Proc.devRef .tc r) := (step3 m ρ c hr).trans (at2 m ρ c hr)
theorem at4 {r : Ref sig .tc} (hr : r ∈ kept) : W4 m ρ c (Proc.devRef .tc r) = W1 m ρ c (Proc.devRef .tc r) := (step4 m ρ c hr).trans (at3 m ρ c hr)
theorem at5 {r : Ref sig .tc} (hr : r ∈ kept) : W5 m ρ c (Proc.devRef .tc r) = W1 m ρ c (Proc.devRef .tc r) := (step5 m ρ c hr).trans (at4 m ρ c hr)
theorem at6 {r : Ref sig .tc} (hr : r ∈ kept) : W6 m ρ c (Proc.devRef .tc r) = W1 m ρ c (Proc.devRef .tc r) := (step6 m ρ c hr).trans (at5 m ρ c hr)
theorem at7 {r : Ref sig .tc} (hr : r ∈ kept) : W7 m ρ c (Proc.devRef .tc r) = W1 m ρ c (Proc.devRef .tc r) := (step7 m ρ c hr).trans (at6 m ρ c hr)

/-- The first stage's result array is not written by the third stretch. -/
theorem keep5_x1 : W5 m ρ c (Proc.devRef .tc main_v24) = W4 m ρ c (Proc.devRef .tc main_v24) := by
  host_keeps hostOps2

/-- The second stage's result array is not written by the fourth stretch. -/
theorem keep7_x2 : W7 m ρ c (Proc.devRef .tc main_v36) = W6 m ρ c (Proc.devRef .tc main_v36) := by
  host_keeps hostOps3

end Run

/-! ## The buffers of interest at each boundary -/

section Values

variable (m : (ℓ : Loc nD τ sig) → Buf (Elt Ideal) ℓ) (ρ : Dev nD → PrngReg) (c : Dev nD)

/-- An argument array holds its launch contents at every boundary. -/
theorem arg1 {r : Ref sig .tc} (hr : r ∈ args) : W1 m ρ c (Proc.devRef .tc r) = W0 m ρ c (Proc.devRef .tc r) := step1 m ρ c hr
theorem arg2 {r : Ref sig .tc} (hr : r ∈ args) : W2 m ρ c (Proc.devRef .tc r) = W0 m ρ c (Proc.devRef .tc r) :=
  (at2 m ρ c (kept_of_args hr)).trans (step1 m ρ c hr)
theorem arg3 {r : Ref sig .tc} (hr : r ∈ args) : W3 m ρ c (Proc.devRef .tc r) = W0 m ρ c (Proc.devRef .tc r) :=
  (at3 m ρ c (kept_of_args hr)).trans (step1 m ρ c hr)
theorem arg4 {r : Ref sig .tc} (hr : r ∈ args) : W4 m ρ c (Proc.devRef .tc r) = W0 m ρ c (Proc.devRef .tc r) :=
  (at4 m ρ c (kept_of_args hr)).trans (step1 m ρ c hr)
theorem arg5 {r : Ref sig .tc} (hr : r ∈ args) : W5 m ρ c (Proc.devRef .tc r) = W0 m ρ c (Proc.devRef .tc r) :=
  (at5 m ρ c (kept_of_args hr)).trans (step1 m ρ c hr)
theorem arg6 {r : Ref sig .tc} (hr : r ∈ args) : W6 m ρ c (Proc.devRef .tc r) = W0 m ρ c (Proc.devRef .tc r) :=
  (at6 m ρ c (kept_of_args hr)).trans (step1 m ρ c hr)
theorem arg7 {r : Ref sig .tc} (hr : r ∈ args) : W7 m ρ c (Proc.devRef .tc r) = W0 m ρ c (Proc.devRef .tc r) :=
  (at7 m ρ c (kept_of_args hr)).trans (step1 m ρ c hr)

/-- The edges' source nodes, computed by the first stretch from the edge list. -/
theorem src1 : W1 m ρ c (Proc.devRef .tc main_v1) = KerTerm.srcFlat (m ((c : Thread nD τ).loc main_arg1)) := host0_src (W0 m ρ c)
/-- The edges' destination nodes. -/
theorem dst1 : W1 m ρ c (Proc.devRef .tc main_v3) = KerTerm.dstFlat (m ((c : Thread nD τ).loc main_arg1)) := host0_dst (W0 m ρ c)
/-- The reciprocal degrees. -/
theorem inv1 : W1 m ρ c (Proc.devRef .tc main_v11) = KerTerm.invDeg (m ((c : Thread nD τ).loc main_arg1)) := host0_inv (W0 m ρ c)

theorem src2 : W2 m ρ c (Proc.devRef .tc main_v1) = KerTerm.srcFlat (m ((c : Thread nD τ).loc main_arg1)) := (at2 m ρ c (r := main_v1) (by decide)).trans (src1 m ρ c)
theorem dst2 : W2 m ρ c (Proc.devRef .tc main_v3) = KerTerm.dstFlat (m ((c : Thread nD τ).loc main_arg1)) := (at2 m ρ c (r := main_v3) (by decide)).trans (dst1 m ρ c)
theorem src4 : W4 m ρ c (Proc.devRef .tc main_v1) = KerTerm.srcFlat (m ((c : Thread nD τ).loc main_arg1)) := (at4 m ρ c (r := main_v1) (by decide)).trans (src1 m ρ c)
theorem dst4 : W4 m ρ c (Proc.devRef .tc main_v3) = KerTerm.dstFlat (m ((c : Thread nD τ).loc main_arg1)) := (at4 m ρ c (r := main_v3) (by decide)).trans (dst1 m ρ c)
theorem src6 : W6 m ρ c (Proc.devRef .tc main_v1) = KerTerm.srcFlat (m ((c : Thread nD τ).loc main_arg1)) := (at6 m ρ c (r := main_v1) (by decide)).trans (src1 m ρ c)
theorem dst6 : W6 m ρ c (Proc.devRef .tc main_v3) = KerTerm.dstFlat (m ((c : Thread nD τ).loc main_arg1)) := (at6 m ρ c (r := main_v3) (by decide)).trans (dst1 m ρ c)
theorem inv3 : W3 m ρ c (Proc.devRef .tc main_v11) = KerTerm.invDeg (m ((c : Thread nD τ).loc main_arg1)) := (at3 m ρ c (r := main_v11) (by decide)).trans (inv1 m ρ c)
theorem inv5 : W5 m ρ c (Proc.devRef .tc main_v11) = KerTerm.invDeg (m ((c : Thread nD τ).loc main_arg1)) := (at5 m ρ c (r := main_v11) (by decide)).trans (inv1 m ρ c)
theorem inv7 : W7 m ρ c (Proc.devRef .tc main_v11) = KerTerm.invDeg (m ((c : Thread nD τ).loc main_arg1)) := (at7 m ρ c (r := main_v11) (by decide)).trans (inv1 m ρ c)

end Values

end Cert.KernelIdeal.KerKeep

end
-- ==== Proof.KerRun.lean ====
/-
  The run of the kernel program with its result exposed.

  The program alternates stretches of whole-array operations with four tiled dense stages.  Given
  what each dense stage leaves in its output array as a function of its input arrays (the four
  hypotheses `h0 … h3`, the row-local functions `G0 … G3` of the specification), the contents of
  every buffer of interest are followed from the launch memory through the eight boundaries
  between the segments:

    * a stretch of whole-array operations rewrites the buffers it computes (read off the fold of
      its operations) and keeps every other buffer;
    * a dense stage rewrites its output array (the hypothesis), keeps its input arrays and keeps
      every buffer that is not one of its arrays.

  The edge-list columns and the reciprocal degree are computed once, before the first stage, and
  kept from there on; the nineteen arguments are kept throughout.  Composing the steps gives the
  result array as `KerTerm.out` of the nineteen arguments, and the run of the program then ends,
  at every device, with the result array at that value and the arguments as launched.
-/
import proofs.«115002_j14955076125382_2_alg».proof.Proof.KerKeep

set_option maxRecDepth 16384

noncomputable section

namespace Cert.KernelIdeal.KerRun

open Cert.KernelIdeal Cert.KernelIdeal.Gen Cert.KernelIdeal.KerKeep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Facts]
open Facts₀ Facts

/-! ## What each dense stage is assumed to leave in its output array

From any contents `V` of the buffers at its entry, a dense stage's output array ends, after all its tiles,
at the row-local function of the specification applied to its input arrays as `V` has them. -/

/-- The first dense stage leaves the projection `G0` of its two input arrays. -/
def Stage0 : Prop :=
  ∀ (V : (c : Dev nD) → (b : Ref sig .tc) → Buf (Elt Ideal) ((c : Thread nD τ).loc b)) (c : Dev nD),
    (dat0 (F := Ideal) V c).arrAt 2 cfg0.N
      = Cert.Sage.G0 (V c (Pipeline.arrRef spec0 0)) (V c (Pipeline.arrRef spec0 1))

/-- The second dense stage leaves the first convolution stage `G1` of its five input arrays. -/
def Stage1 : Prop :=
  ∀ (V : (c : Dev nD) → (b : Ref sig .tc) → Buf (Elt Ideal) ((c : Thread nD τ).loc b)) (c : Dev nD),
    (dat1 (F := Ideal) V c).arrAt 5 cfg1.N
      = Cert.Sage.G1 (V c (Pipeline.arrRef spec1 0)) (V c (Pipeline.arrRef spec1 1)) (V c (Pipeline.arrRef spec1 2)) (V c (Pipeline.arrRef spec1 3)) (V c (Pipeline.arrRef spec1 4))

/-- The third dense stage leaves the convolution stage `G2` of its six input arrays. -/
def Stage2 : Prop :=
  ∀ (V : (c : Dev nD) → (b : Ref sig .tc) → Buf (Elt Ideal) ((c : Thread nD τ).loc b)) (c : Dev nD),
    (dat2 (F := Ideal) V c).arrAt 6 cfg2.N
      = Cert.Sage.G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-- The fourth dense stage leaves the last convolution stage and the perceptron, `G3`, of its fourteen input arrays. -/
def Stage3 : Prop :=
  ∀ (V : (c : Dev nD) → (b : Ref sig .tc) → Buf (Elt Ideal) ((c : Thread nD τ).loc b)) (c : Dev nD),
    (dat3 (F := Ideal) V c).arrAt 14 cfg3.N
      = Cert.Sage.G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13))

/-! ## The dense stages respect equality of their operands -/

theorem G0_congr {X X' : Cert.Sage.Mat 100000 32} {W W' : Cert.Sage.Mat 32 16}
    (e0 : X = X') (e1 : W = W') :
    Cert.Sage.G0 X W = Cert.Sage.G0 X' W' := by
  subst e0 e1; rfl
theorem G1_congr {M M' : Cert.Sage.Mat 100000 16} {X X' : Cert.Sage.Mat 100000 32} {Wr Wr' : Cert.Sage.Mat 32 16} {b b' : Cert.Sage.Mat 1 16} {inv inv' : Cert.Sage.Mat 100000 1}
    (e0 : M = M') (e1 : X = X') (e2 : Wr = Wr') (e3 : b = b') (e4 : inv = inv') :
    Cert.Sage.G1 M X Wr b inv = Cert.Sage.G1 M' X' Wr' b' inv' := by
  subst e0 e1 e2 e3 e4; rfl
theorem G2_congr {M M' : Cert.Sage.Mat 100000 16} {X X' : Cert.Sage.Mat 100000 16} {Wl Wl' : Cert.Sage.Mat 16 16} {Wr Wr' : Cert.Sage.Mat 16 16} {b b' : Cert.Sage.Mat 1 16} {inv inv' : Cert.Sage.Mat 100000 1}
    (e0 : M = M') (e1 : X = X') (e2 : Wl = Wl') (e3 : Wr = Wr') (e4 : b = b') (e5 : inv = inv') :
    Cert.Sage.G2 M X Wl Wr b inv = Cert.Sage.G2 M' X' Wl' Wr' b' inv' := by
  subst e0 e1 e2 e3 e4 e5; rfl
theorem G3_congr {M M' : Cert.Sage.Mat 100000 16} {X X' : Cert.Sage.Mat 100000 16} {Wl Wl' : Cert.Sage.Mat 16 16} {Wr Wr' : Cert.Sage.Mat 16 16} {b b' : Cert.Sage.Mat 1 16} {inv inv' : Cert.Sage.Mat 100000 1} {P0 P0' : Cert.Sage.Mat 16 64} {b0 b0' : Cert.Sage.Mat 1 64} {P1 P1' : Cert.Sage.Mat 64 64} {b1 b1' : Cert.Sage.Mat 1 64} {P2 P2' : Cert.Sage.Mat 64 64} {b2 b2' : Cert.Sage.Mat 1 64} {P3 P3' : Cert.Sage.Mat 64 4} {b3 b3' : Cert.Sage.Mat 1 4}
    (e0 : M = M') (e1 : X = X') (e2 : Wl = Wl') (e3 : Wr = Wr') (e4 : b = b') (e5 : inv = inv') (e6 : P0 = P0') (e7 : b0 = b0') (e8 : P1 = P1') (e9 : b1 = b1') (e10 : P2 = P2') (e11 : b2 = b2') (e12 : P3 = P3') (e13 : b3 = b3') :
    Cert.Sage.G3 M X Wl Wr b inv P0 b0 P1 b1 P2 b2 P3 b3 = Cert.Sage.G3 M' X' Wl' Wr' b' inv' P0' b0' P1' b1' P2' b2' P3' b3' := by
  subst e0 e1 e2 e3 e4 e5 e6 e7 e8 e9 e10 e11 e12 e13; rfl

/-! ## The four dense stages' results, and the program's -/

section Result

variable (h0 : Stage0) (h1 : Stage1) (h2 : Stage2) (h3 : Stage3)
    (m : (ℓ : Loc nD τ sig) → Buf (Elt Ideal) ℓ) (ρ : Dev nD → PrngReg)

include h0 in
/-- After the first dense stage its output array holds the projected features. -/
theorem val0 (c : Dev nD) : W2 m ρ c (Proc.devRef .tc main_v12) = KerTerm.y0 (m ((c : Thread nD τ).loc main_arg0)) (m ((c : Thread nD τ).loc main_arg2)) :=
  calc W2 m ρ c (Proc.devRef .tc main_v12)
      = (dat0 (V1 m ρ) c).arrAt 2 cfg0.N := W2_arr m ρ c 2
    _ = Cert.Sage.G0 (W1 m ρ c (Proc.devRef .tc main_arg0)) (W1 m ρ c (Proc.devRef .tc main_arg2)) := h0 (V1 m ρ) c
    _ = Cert.Sage.G0 (m ((c : Thread nD τ).loc main_arg0)) (m ((c : Thread nD τ).loc main_arg2)) := G0_congr (arg1 m ρ c (r := main_arg0) (by decide)) (arg1 m ρ c (r := main_arg2) (by decide))
    _ = KerTerm.y0 (m ((c : Thread nD τ).loc main_arg0)) (m ((c : Thread nD τ).loc main_arg2)) := rfl

include h0 in
/-- The second stretch sums the projected features over the edges. -/
theorem agg1 (c : Dev nD) : W3 m ρ c (Proc.devRef .tc main_v22) = KerTerm.agg16 (m ((c : Thread nD τ).loc main_arg1)) (KerTerm.y0 (m ((c : Thread nD τ).loc main_arg0)) (m ((c : Thread nD τ).loc main_arg2))) :=
  (host1_agg (W2 m ρ c) _ (src2 m ρ c) (dst2 m ρ c)).trans (congrArg (KerTerm.agg16 _) (val0 h0 m ρ c))

/-- The first bias as a one-row array. -/
theorem bias1 (c : Dev nD) : W3 m ρ c (Proc.devRef .tc main_v23) = KerTerm.bias16 (m ((c : Thread nD τ).loc main_arg4)) :=
  (host1_bias (W2 m ρ c)).trans (congrArg KerTerm.bias16 (arg2 m ρ c (r := main_arg4) (by decide)))

include h0 h1 in
/-- After the second dense stage its output array holds the first convolution stage's features. -/
theorem val1 (c : Dev nD) : W4 m ρ c (Proc.devRef .tc main_v24) = KerTerm.x1 (m ((c : Thread nD τ).loc main_arg0)) (m ((c : Thread nD τ).loc main_arg1)) (m ((c : Thread nD τ).loc main_arg2)) (m ((c : Thread nD τ).loc main_arg3)) (m ((c : Thread nD τ).loc main_arg4)) :=
  calc W4 m ρ c (Proc.devRef .tc main_v24)
      = (dat1 (V3 m ρ) c).arrAt 5 cfg1.N := W4_arr m ρ c 5
    _ = Cert.Sage.G1 (W3 m ρ c (Proc.devRef .tc main_v22)) (W3 m ρ c (Proc.devRef .tc main_arg0)) (W3 m ρ c (Proc.devRef .tc main_arg3))
          (W3 m ρ c (Proc.devRef .tc main_v23)) (W3 m ρ c (Proc.devRef .tc main_v11)) := h1 (V3 m ρ) c
    _ = Cert.Sage.G1 (KerTerm.agg16 (m ((c : Thread nD τ).loc main_arg1)) (KerTerm.y0 (m ((c : Thread nD τ).loc main_arg0)) (m ((c : Thread nD τ).loc main_arg2)))) (m ((c : Thread nD τ).loc main_arg0)) (m ((c : Thread nD τ).loc main_arg3)) (KerTerm.bias16 (m ((c : Thread nD τ).loc main_arg4))) (KerTerm.invDeg (m ((c : Thread nD τ).loc main_arg1))) :=
        G1_congr (agg1 h0 m ρ c) (arg3 m ρ c (r := main_arg0) (by decide)) (arg3 m ρ c (r := main_arg3) (by decide)) (bias1 m ρ c) (inv3 m ρ c)
    _ = KerTerm.x1 (m ((c : Thread nD τ).loc main_arg0)) (m ((c : Thread nD τ).loc main_arg1)) (m ((c : Thread nD τ).loc main_arg2)) (m ((c : Thread nD τ).loc main_arg3)) (m ((c : Thread nD τ).loc main_arg4)) := rfl

include h0 h1 in
/-- The third stretch sums the first stage's features over the edges. -/
theorem agg2 (c : Dev nD) : W5 m ρ c (Proc.devRef .tc main_v34) = KerTerm.agg16 (m ((c : Thread nD τ).loc main_arg1)) (KerTerm.x1 (m ((c : Thread nD τ).loc main_arg0)) (m ((c : Thread nD τ).loc main_arg1)) (m ((c : Thread nD τ).loc main_arg2)) (m ((c : Thread nD τ).loc main_arg3)) (m ((c : Thread nD τ).loc main_arg4))) :=
  (host2_agg (W4 m ρ c) _ (src4 m ρ c) (dst4 m ρ c)).trans (congrArg (KerTerm.agg16 _) (val1 h0 h1 m ρ c))

/-- The second bias as a one-row array. -/
theorem bias2 (c : Dev nD) : W5 m ρ c (Proc.devRef .tc main_v35) = KerTerm.bias16 (m ((c : Thread nD τ).loc main_arg7)) :=
  (host2_bias (W4 m ρ c)).trans (congrArg KerTerm.bias16 (arg4 m ρ c (r := main_arg7) (by decide)))

include h0 h1 h2 in
/-- After the third dense stage its output array holds the second convolution stage's features. -/
theorem val2 (c : Dev nD) : W6 m ρ c (Proc.devRef .tc main_v36) = KerTerm.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  calc W6 m ρ c (Proc.devRef .tc main_v36)
      = (dat2 (V5 m ρ) c).arrAt 6 cfg2.N := W6_arr m ρ c 6
    _ = Cert.Sage.G2 (W5 m ρ c (Proc.devRef .tc main_v34)) (W5 m ρ c (Proc.devRef .tc main_v24)) (W5 m ρ c (Proc.devRef .tc main_arg5))
          (W5 m ρ c (Proc.devRef .tc main_arg6)) (W5 m ρ c (Proc.devRef .tc main_v35)) (W5 m ρ c (Proc.devRef .tc main_v11)) := h2 (V5 m ρ) c
    _ = Cert.Sage.G2 (KerTerm.agg16 (m ((c : Thread nD τ).loc main_arg1)) (KerTerm.x1 (m ((c : Thread nD τ).loc main_arg0)) (m ((c : Thread nD τ).loc main_arg1)) (m ((c : Thread nD τ).loc main_arg2)) (m ((c : Thread nD τ).loc main_arg3)) (m ((c : Thread nD τ).loc main_arg4)))) (KerTerm.x1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (KerTerm.bias16 (m ((c : Thread nD τ).loc main_arg7))) (KerTerm.invDeg (m ((c : Thread nD τ).loc main_arg1))) :=
        G2_congr (agg2 h0 h1 m ρ c) ((keep5_x1 m ρ c).trans (val1 h0 h1 m ρ c)) (arg5 m ρ c (r := main_arg5) (by decide)) (arg5 m ρ c (r := main_arg6) (by decide)) (bias2 m ρ c) (inv5 m ρ c)
    _ = KerTerm.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

include h0 h1 h2 in
/-- The fourth stretch sums the second stage's features over the edges. -/
theorem agg3 (c : Dev nD) : W7 m ρ c (Proc.devRef .tc main_v46) = KerTerm.agg16 (m ((c : Thread nD τ).loc main_arg1)) (KerTerm.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (host3_agg (W6 m ρ c) _ (src6 m ρ c) (dst6 m ρ c)).trans (congrArg (KerTerm.agg16 _) (val2 h0 h1 h2 m ρ c))

/-- The five remaining biases as one-row arrays. -/
theorem bias3_10 (c : Dev nD) : W7 m ρ c (Proc.devRef .tc main_v47) = KerTerm.bias16 (m ((c : Thread nD τ).loc main_arg10)) :=
  (host3_bias10 (W6 m ρ c)).trans (congrArg KerTerm.bias16 (arg6 m ρ c (r := main_arg10) (by decide)))
theorem bias3_12 (c : Dev nD) : W7 m ρ c (Proc.devRef .tc main_v48) = KerTerm.bias64 (m ((c : Thread nD τ).loc main_arg12)) :=
  (host3_bias12 (W6 m ρ c)).trans (congrArg KerTerm.bias64 (arg6 m ρ c (r := main_arg12) (by decide)))
theorem bias3_14 (c : Dev nD) : W7 m ρ c (Proc.devRef .tc main_v49) = KerTerm.bias64 (m ((c : Thread nD τ).loc main_arg14)) :=
  (host3_bias14 (W6 m ρ c)).trans (congrArg KerTerm.bias64 (arg6 m ρ c (r := main_arg14) (by decide)))
theorem bias3_16 (c : Dev nD) : W7 m ρ c (Proc.devRef .tc main_v50) = KerTerm.bias64 (m ((c : Thread nD τ).loc main_arg16)) :=
  (host3_bias16 (W6 m ρ c)).trans (congrArg KerTerm.bias64 (arg6 m ρ c (r := main_arg16) (by decide)))
theorem bias3_18 (c : Dev nD) : W7 m ρ c (Proc.devRef .tc main_v51) = KerTerm.bias4 (m ((c : Thread nD τ).loc main_arg18)) :=
  (host3_bias18 (W6 m ρ c)).trans (congrArg KerTerm.bias4 (arg6 m ρ c (r := main_arg18) (by decide)))

include h0 h1 h2 h3 in
/-- THE RESULT: after the last dense stage the result array holds `KerTerm.out` of the nineteen arguments. -/
theorem result (c : Dev nD) : W8 (F := Ideal) m ρ c (Proc.devRef .tc main_v52)
    = KerTerm.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  calc W8 (F := Ideal) m ρ c (Proc.devRef .tc main_v52)
      = (dat3 (V7 m ρ) c).arrAt 14 cfg3.N := W8_arr m ρ c 14
    _ = Cert.Sage.G3 (W7 m ρ c (Proc.devRef .tc main_v46)) (W7 m ρ c (Proc.devRef .tc main_v36)) (W7 m ρ c (Proc.devRef .tc main_arg8))
          (W7 m ρ c (Proc.devRef .tc main_arg9)) (W7 m ρ c (Proc.devRef .tc main_v47)) (W7 m ρ c (Proc.devRef .tc main_v11))
          (W7 m ρ c (Proc.devRef .tc main_arg11)) (W7 m ρ c (Proc.devRef .tc main_v48)) (W7 m ρ c (Proc.devRef .tc main_arg13))
          (W7 m ρ c (Proc.devRef .tc main_v49)) (W7 m ρ c (Proc.devRef .tc main_arg15)) (W7 m ρ c (Proc.devRef .tc main_v50))
          (W7 m ρ c (Proc.devRef .tc main_arg17)) (W7 m ρ c (Proc.devRef .tc main_v51)) := h3 (V7 m ρ) c
    _ = Cert.Sage.G3 (KerTerm.agg16 (m ((c : Thread nD τ).loc main_arg1)) (KerTerm.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (KerTerm.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (KerTerm.bias16 (m ((c : Thread nD τ).loc main_arg10))) (KerTerm.invDeg (m ((c : Thread nD τ).loc main_arg1)))
          (m ((c : Thread nD τ).loc main_arg11)) (KerTerm.bias64 (m ((c : Thread nD τ).loc main_arg12))) (m ((c : Thread nD τ).loc main_arg13)) (KerTerm.bias64 (m ((c : Thread nD τ).loc main_arg14))) (m ((c : Thread nD τ).loc main_arg15)) (KerTerm.bias64 (m ((c : Thread nD τ).loc main_arg16)))
          (m ((c : Thread nD τ).loc main_arg17)) (KerTerm.bias4 (m ((c : Thread nD τ).loc main_arg18))) :=
        G3_congr (agg3 h0 h1 h2 m ρ c) ((keep7_x2 m ρ c).trans (val2 h0 h1 h2 m ρ c)) (arg7 m ρ c (r := main_arg8) (by decide)) (arg7 m ρ c (r := main_arg9) (by decide))
          (bias3_10 m ρ c) (inv7 m ρ c) (arg7 m ρ c (r := main_arg11) (by decide)) (bias3_12 m ρ c) (arg7 m ρ c (r := main_arg13) (by decide)) (bias3_14 m ρ c)
          (arg7 m ρ c (r := main_arg15) (by decide)) (bias3_16 m ρ c) (arg7 m ρ c (r := main_arg17) (by decide)) (bias3_18 m ρ c)
    _ = KerTerm.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := rfl

end Result

/-! ## The run -/

section TheRun

local notation "𝕄" => MT nD τ sig Unit (Elt Ideal) ℕ (UR sig nD τ) ℕ

variable (h0 : Stage0) (h1 : Stage1) (h2 : Stage2) (h3 : Stage3)
    (m : (ℓ : Loc nD τ sig) → Buf (Elt Ideal) ℓ) (ρ : Dev nD → PrngReg)

include h0 h1 h2 h3 in
set_option backward.isDefEq.respectTransparency.types false in
/-- THE RUN: at the compiled mesh, from any memory with zero counters, every weakly fair execution of the
    program on the TensorCores terminates, nothing faulting, and every final state has, at every device, the
    result array at `KerTerm.out` of the nineteen argument arrays and the argument arrays as launched: the run of the
    segments from the launch to the return, whose last thread state holds every unscoped buffer at the last
    boundary's contents; the result array is read there by `result`, each argument by walking its buffer back
    to the launch memory. -/
theorem run : θ_run (defs (F := Ideal)) (onTc (τ := τ) (main (F := Ideal))) ⟨m, fun _ => 0, ρ⟩ (fun r => ∀ c : Dev nD,
      r.2.mem ((c.tc : Thread nD τ).loc main_v52)
        = KerTerm.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v52 (by decide))).trans (result h0 h1 h2 h3 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end TheRun

end Cert.KernelIdeal.KerRun

end
-- ==== Proof.RefOps.lean ====
/-
  The reference program's @main as a list of its 200 host operations, in order, cut into the
  stretches that compute one layer's pre-activation or one activation each.  The program is a
  three-layer mean-aggregating graph convolution followed by a four-layer perceptron; an outlined
  activation function's operations stand in its call's place, over that call's own buffers.
-/
import proofs.«115002_j14955076125382_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4: the two rows of the edge list, each sliced out and flattened to a vector of E entries. -/
abbrev w0 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000 ]

/-- Operations 5 … 34: the first graph-convolution layer before its activation — the source indices wrapped and gathered, the gathered rows added at the destinations, the indegree counted the same way and clamped below at one, the quotient, the two products and the bias. -/
abbrev w1 : List (HloOp τ sig (Elt F)) :=
  [ nullary main_c (constantI S_ 32 0#32),
    unary main_c main_v4 (broadcastInDim S3200000 ![] bcast_S_S3200000 : (⟨S_, .i32⟩ : BufTy).Contents (Elt F) → (⟨S3200000, .i32⟩ : BufTy).Contents (Elt F)),
    binary main_v1 main_v4 main_v5 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v6 (broadcastInDim S3200000 ![] bcast_S_S3200000 : (⟨S_, .i32⟩ : BufTy).Contents (Elt F) → (⟨S3200000, .i32⟩ : BufTy).Contents (Elt F)),
    binary main_v1 main_v6 main_v7 (addi : (⟨S3200000, .i32⟩ : BufTy).Contents (Elt F) → (⟨S3200000, .i32⟩ : BufTy).Contents (Elt F) → (⟨S3200000, .i32⟩ : BufTy).Contents (Elt F)),
    ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v8 main_v9 (broadcastInDim S3200000x1 ![0] bcast_S3200000_S3200000x1_0 : (⟨S3200000, .i32⟩ : BufTy).Contents (Elt F) → (⟨S3200000x1, .i32⟩ : BufTy).Contents (Elt F)),
    binary main_arg0 main_v9 main_v10 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    nullary main_cst (constant S_ .f32 0x00000000#32),
    unary main_cst main_v11 (broadcastInDim S100000x32 ![] bcast_S_S100000x32 : (⟨S_, .f32⟩ : BufTy).Contents (Elt F) → (⟨S100000x32, .f32⟩ : BufTy).Contents (Elt F)),
    unary main_v3 main_v12 (broadcastInDim S3200000x1 ![0] bcast_S3200000_S3200000x1_0 : (⟨S3200000, .i32⟩ : BufTy).Contents (Elt F) → (⟨S3200000x1, .i32⟩ : BufTy).Contents (Elt F)),
    ternary main_v11 main_v12 main_v10 main_v13 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    nullary main_cst_1 (constant S_ .f32 0x3F800000#32),
    unary main_cst_1 main_v14 (broadcastInDim S3200000x1 ![] bcast_S_S3200000x1 : (⟨S_, .f32⟩ : BufTy).Contents (Elt F) → (⟨S3200000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x32 ![0, 1] bcast_S100000x1_S100000x32_0_1 : (⟨S100000x1, .f32⟩ : BufTy).Contents (Elt F) → (⟨S100000x32, .f32⟩ : BufTy).Contents (Elt F)),
    binary main_v13 main_v20 main_v21 (Host.divf : (⟨S100000x32, .f32⟩ : BufTy).Contents (Elt F) → (⟨S100000x32, .f32⟩ : BufTy).Contents (Elt F) → (⟨S100000x32, .f32⟩ : BufTy).Contents (Elt F)),
    binary main_v21 main_arg2 main_v22 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg4 main_v23 (broadcastInDim S1x16 ![1] bcast_S16_S1x16_1 : (⟨S16, .f32⟩ : BufTy).Contents (Elt F) → (⟨S1x16, .f32⟩ : BufTy).Contents (Elt F)),
    unary main_v23 main_v24 (broadcastInDim S100000x16 ![0, 1] bcast_S1x16_S100000x16_0_1 : (⟨S1x16, .f32⟩ : BufTy).Contents (Elt F) → (⟨S100000x16, .f32⟩ : BufTy).Contents (Elt F)),
    binary main_v22 main_v24 main_v25 (addf : (⟨S100000x16, .f32⟩ : BufTy).Contents (Elt F) → (⟨S100000x16, .f32⟩ : BufTy).Contents (Elt F) → (⟨S100000x16, .f32⟩ : BufTy).Contents (Elt F)),
    binary main_arg0 main_arg3 main_v26 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    binary main_v25 main_v26 main_v27 (addf : (⟨S100000x16, .f32⟩ : BufTy).Contents (Elt F) → (⟨S100000x16, .f32⟩ : BufTy).Contents (Elt F) → (⟨S100000x16, .f32⟩ : BufTy).Contents (Elt F)) ]

/-- Operations 35 … 49: the activation of the first layer (the outlined `elu`, its two `where` selections in their place). -/
abbrev w2 : List (HloOp τ sig (Elt F)) :=
  [ TRef.nullary main_call0.cst (constant S_ .f32 0x00000000#32),
    TRef.unary main_call0.cst main_call0.v0 (broadcastInDim S100000x16 ![] bcast_S_S100000x16),
    TRef.binary (.of main_v27) main_call0.v0 main_call0.v1 (cmpf .ogt),
    TRef.nullary main_call0.cst_0 (constant S_ .f32 0x00000000#32),
    TRef.unary main_call0.cst_0 main_call0.v2 (broadcastInDim S100000x16 ![] bcast_S_S100000x16),
    TRef.binary (.of main_v27) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x16 ![] bcast_S_S100000x16),
    TRef.ternary main_call0.v3 main_call0.call0.v1 (.of main_v27) main_call0.call0.v2 select,
    TRef.unary main_call0.call0.v2 main_call0.v5 Host.expm1,
    TRef.nullary main_call0.cst_2 (constant S_ .f32 0x3F800000#32),
    TRef.unary main_call0.cst_2 main_call0.v6 (broadcastInDim S100000x16 ![] bcast_S_S100000x16),
    TRef.binary main_call0.v6 main_call0.v5 main_call0.v7 mulf,
    TRef.ternary main_call0.v1 (.of main_v27) main_call0.v7 main_call0.call1.v0 select ]

/-- Operations 50 … 74: the second graph-convolution layer up to its neighbour product. -/
abbrev w3a : List (HloOp τ sig (Elt F)) :=
  [ nullary main_c_4 (constantI S_ 32 0#32),
    unary main_c_4 main_v29 (broadcastInDim S3200000 ![] bcast_S_S3200000 : (⟨S_, .i32⟩ : BufTy).Contents (Elt F) → (⟨S3200000, .i32⟩ : BufTy).Contents (Elt F)),
    binary main_v1 main_v29 main_v30 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v31 (broadcastInDim S3200000 ![] bcast_S_S3200000 : (⟨S_, .i32⟩ : BufTy).Contents (Elt F) → (⟨S3200000, .i32⟩ : BufTy).Contents (Elt F)),
    binary main_v1 main_v31 main_v32 (addi : (⟨S3200000, .i32⟩ : BufTy).Contents (Elt F) → (⟨S3200000, .i32⟩ : BufTy).Contents (Elt F) → (⟨S3200000, .i32⟩ : BufTy).Contents (Elt F)),
    ternary main_v30 main_v32 main_v1 main_v33 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v33 main_v34 (broadcastInDim S3200000x1 ![0] bcast_S3200000_S3200000x1_0 : (⟨S3200000, .i32⟩ : BufTy).Contents (Elt F) → (⟨S3200000x1, .i32⟩ : BufTy).Contents (Elt F)),
    binary main_v28 main_v34 main_v35 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    nullary main_cst_6 (constant S_ .f32 0x00000000#32),
    unary main_cst_6 main_v36 (broadcastInDim S100000x16 ![] bcast_S_S100000x16 : (⟨S_, .f32⟩ : BufTy).Contents (Elt F) → (⟨S100000x16, .f32⟩ : BufTy).Contents (Elt F)),
    unary main_v3 main_v37 (broadcastInDim S3200000x1 ![0] bcast_S3200000_S3200000x1_0 : (⟨S3200000, .i32⟩ : BufTy).Contents (Elt F) → (⟨S3200000x1, .i32⟩ : BufTy).Contents (Elt F)),
    ternary main_v36 main_v37 main_v35 main_v38 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    nullary main_cst_7 (constant S_ .f32 0x3F800000#32),
    unary main_cst_7 main_v39 (broadcastInDim S3200000x1 ![] bcast_S_S3200000x1 : (⟨S_, .f32⟩ : BufTy).Contents (Elt F) → (⟨S3200000x1, .f32⟩ : BufTy).Contents (Elt F)),
    nullary main_cst_8 (constant S_ .f32 0x00000000#32),
    unary main_cst_8 main_v40 (broadcastInDim S100000x1 ![] bcast_S_S100000x1 : (⟨S_, .f32⟩ : BufTy).Contents (Elt F) → (⟨S100000x1, .f32⟩ : BufTy).Contents (Elt F)),
    unary main_v3 main_v41 (broadcastInDim S3200000x1 ![0] bcast_S3200000_S3200000x1_0 : (⟨S3200000, .i32⟩ : BufTy).Contents (Elt F) → (⟨S3200000x1, .i32⟩ : BufTy).Contents (Elt F)),
    ternary main_v40 main_v41 main_v39 main_v42 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    nullary main_cst_9 (constant S_ .f32 0x3F800000#32),
    unary main_cst_9 main_v43 (broadcastInDim S100000x1 ![] bcast_S_S100000x1 : (⟨S_, .f32⟩ : BufTy).Contents (Elt F) → (⟨S100000x1, .f32⟩ : BufTy).Contents (Elt F)),
    binary main_v42 main_v43 main_v44 (maximumf : (⟨S100000x1, .f32⟩ : BufTy).Contents (Elt F) → (⟨S100000x1, .f32⟩ : BufTy).Contents (Elt F) → (⟨S100000x1, .f32⟩ : BufTy).Contents (Elt F)),
    unary main_v44 main_v45 (broadcastInDim S100000x16 ![0, 1] bcast_S100000x1_S100000x16_0_1 : (⟨S100000x1, .f32⟩ : BufTy).Contents (Elt F) → (⟨S100000x16, .f32⟩ : BufTy).Contents (Elt F)),
    binary main_v38 main_v45 main_v46 (Host.divf : (⟨S100000x16, .f32⟩ : BufTy).Contents (Elt F) → (⟨S100000x16, .f32⟩ : BufTy).Contents (Elt F) → (⟨S100000x16, .f32⟩ : BufTy).Contents (Elt F)),
    binary main_v46 main_arg5 main_v47 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- Operations 75 … 79: the second layer's bias, root product and sums. -/
abbrev w3b : List (HloOp τ sig (Elt F)) :=
  [ unary main_arg7 main_v48 (broadcastInDim S1x16 ![1] bcast_S16_S1x16_1 : (⟨S16, .f32⟩ : BufTy).Contents (Elt F) → (⟨S1x16, .f32⟩ : BufTy).Contents (Elt F)),
    unary main_v48 main_v49 (broadcastInDim S100000x16 ![0, 1] bcast_S1x16_S100000x16_0_1 : (⟨S1x16, .f32⟩ : BufTy).Contents (Elt F) → (⟨S100000x16, .f32⟩ : BufTy).Contents (Elt F)),
    binary main_v47 main_v49 main_v50 (addf : (⟨S100000x16, .f32⟩ : BufTy).Contents (Elt F) → (⟨S100000x16, .f32⟩ : BufTy).Contents (Elt F) → (⟨S100000x16, .f32⟩ : BufTy).Contents (Elt F)),
    binary main_v28 main_arg6 main_v51 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v50 main_v51 main_v52 (addf : (⟨S100000x16, .f32⟩ : BufTy).Contents (Elt F) → (⟨S100000x16, .f32⟩ : BufTy).Contents (Elt F) → (⟨S100000x16, .f32⟩ : BufTy).Contents (Elt F)) ]

/-- Operations 80 … 94: the activation of the second layer. -/
abbrev w4 : List (HloOp τ sig (Elt F)) :=
  [ TRef.nullary main_call1.cst (constant S_ .f32 0x00000000#32),
    TRef.unary main_call1.cst main_call1.v0 (broadcastInDim S100000x16 ![] bcast_S_S100000x16),
    TRef.binary (.of main_v52) main_call1.v0 main_call1.v1 (cmpf .ogt),
    TRef.nullary main_call1.cst_0 (constant S_ .f32 0x00000000#32),
    TRef.unary main_call1.cst_0 main_call1.v2 (broadcastInDim S100000x16 ![] bcast_S_S100000x16),
    TRef.binary (.of main_v52) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x16 ![] bcast_S_S100000x16),
    TRef.ternary main_call1.v3 main_call1.call0.v1 (.of main_v52) main_call1.call0.v2 select,
    TRef.unary main_call1.call0.v2 main_call1.v5 Host.expm1,
    TRef.nullary main_call1.cst_2 (constant S_ .f32 0x3F800000#32),
    TRef.unary main_call1.cst_2 main_call1.v6 (broadcastInDim S100000x16 ![] bcast_S_S100000x16),
    TRef.binary main_call1.v6 main_call1.v5 main_call1.v7 mulf,
    TRef.ternary main_call1.v1 (.of main_v52) main_call1.v7 main_call1.call1.v0 select ]

/-- Operations 95 … 124: the third graph-convolution layer before its activation. -/
abbrev w5 : List (HloOp τ sig (Elt F)) :=
  [ nullary main_c_10 (constantI S_ 32 0#32),
    unary main_c_10 main_v54 (broadcastInDim S3200000 ![] bcast_S_S3200000 : (⟨S_, .i32⟩ : BufTy).Contents (Elt F) → (⟨S3200000, .i32⟩ : BufTy).Contents (Elt F)),
    binary main_v1 main_v54 main_v55 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v56 (broadcastInDim S3200000 ![] bcast_S_S3200000 : (⟨S_, .i32⟩ : BufTy).Contents (Elt F) → (⟨S3200000, .i32⟩ : BufTy).Contents (Elt F)),
    binary main_v1 main_v56 main_v57 (addi : (⟨S3200000, .i32⟩ : BufTy).Contents (Elt F) → (⟨S3200000, .i32⟩ : BufTy).Contents (Elt F) → (⟨S3200000, .i32⟩ : BufTy).Contents (Elt F)),
    ternary main_v55 main_v57 main_v1 main_v58 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v58 main_v59 (broadcastInDim S3200000x1 ![0] bcast_S3200000_S3200000x1_0 : (⟨S3200000, .i32⟩ : BufTy).Contents (Elt F) → (⟨S3200000x1, .i32⟩ : BufTy).Contents (Elt F)),
    binary main_v53 main_v59 main_v60 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    nullary main_cst_12 (constant S_ .f32 0x00000000#32),
    unary main_cst_12 main_v61 (broadcastInDim S100000x16 ![] bcast_S_S100000x16 : (⟨S_, .f32⟩ : BufTy).Contents (Elt F) → (⟨S100000x16, .f32⟩ : BufTy).Contents (Elt F)),
    unary main_v3 main_v62 (broadcastInDim S3200000x1 ![0] bcast_S3200000_S3200000x1_0 : (⟨S3200000, .i32⟩ : BufTy).Contents (Elt F) → (⟨S3200000x1, .i32⟩ : BufTy).Contents (Elt F)),
    ternary main_v61 main_v62 main_v60 main_v63 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    nullary main_cst_13 (constant S_ .f32 0x3F800000#32),
    unary main_cst_13 main_v64 (broadcastInDim S3200000x1 ![] bcast_S_S3200000x1 : (⟨S_, .f32⟩ : BufTy).Contents (Elt F) → (⟨S3200000x1, .f32⟩ : BufTy).Contents (Elt F)),
    nullary main_cst_14 (constant S_ .f32 0x00000000#32),
    unary main_cst_14 main_v65 (broadcastInDim S100000x1 ![] bcast_S_S100000x1 : (⟨S_, .f32⟩ : BufTy).Contents (Elt F) → (⟨S100000x1, .f32⟩ : BufTy).Contents (Elt F)),
    unary main_v3 main_v66 (broadcastInDim S3200000x1 ![0] bcast_S3200000_S3200000x1_0 : (⟨S3200000, .i32⟩ : BufTy).Contents (Elt F) → (⟨S3200000x1, .i32⟩ : BufTy).Contents (Elt F)),
    ternary main_v65 main_v66 main_v64 main_v67 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    nullary main_cst_15 (constant S_ .f32 0x3F800000#32),
    unary main_cst_15 main_v68 (broadcastInDim S100000x1 ![] bcast_S_S100000x1 : (⟨S_, .f32⟩ : BufTy).Contents (Elt F) → (⟨S100000x1, .f32⟩ : BufTy).Contents (Elt F)),
    binary main_v67 main_v68 main_v69 (maximumf : (⟨S100000x1, .f32⟩ : BufTy).Contents (Elt F) → (⟨S100000x1, .f32⟩ : BufTy).Contents (Elt F) → (⟨S100000x1, .f32⟩ : BufTy).Contents (Elt F)),
    unary main_v69 main_v70 (broadcastInDim S100000x16 ![0, 1] bcast_S100000x1_S100000x16_0_1 : (⟨S100000x1, .f32⟩ : BufTy).Contents (Elt F) → (⟨S100000x16, .f32⟩ : BufTy).Contents (Elt F)),
    binary main_v63 main_v70 main_v71 (Host.divf : (⟨S100000x16, .f32⟩ : BufTy).Contents (Elt F) → (⟨S100000x16, .f32⟩ : BufTy).Contents (Elt F) → (⟨S100000x16, .f32⟩ : BufTy).Contents (Elt F)),
    binary main_v71 main_arg8 main_v72 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    unary main_arg10 main_v73 (broadcastInDim S1x16 ![1] bcast_S16_S1x16_1 : (⟨S16, .f32⟩ : BufTy).Contents (Elt F) → (⟨S1x16, .f32⟩ : BufTy).Contents (Elt F)),
    unary main_v73 main_v74 (broadcastInDim S100000x16 ![0, 1] bcast_S1x16_S100000x16_0_1 : (⟨S1x16, .f32⟩ : BufTy).Contents (Elt F) → (⟨S100000x16, .f32⟩ : BufTy).Contents (Elt F)),
    binary main_v72 main_v74 main_v75 (addf : (⟨S100000x16, .f32⟩ : BufTy).Contents (Elt F) → (⟨S100000x16, .f32⟩ : BufTy).Contents (Elt F) → (⟨S100000x16, .f32⟩ : BufTy).Contents (Elt F)),
    binary main_v53 main_arg9 main_v76 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v75 main_v76 main_v77 (addf : (⟨S100000x16, .f32⟩ : BufTy).Contents (Elt F) → (⟨S100000x16, .f32⟩ : BufTy).Contents (Elt F) → (⟨S100000x16, .f32⟩ : BufTy).Contents (Elt F)) ]

/-- Operations 125 … 139: the activation of the third layer. -/
abbrev w6 : List (HloOp τ sig (Elt F)) :=
  [ TRef.nullary main_call2.cst (constant S_ .f32 0x00000000#32),
    TRef.unary main_call2.cst main_call2.v0 (broadcastInDim S100000x16 ![] bcast_S_S100000x16),
    TRef.binary (.of main_v77) main_call2.v0 main_call2.v1 (cmpf .ogt),
    TRef.nullary main_call2.cst_0 (constant S_ .f32 0x00000000#32),
    TRef.unary main_call2.cst_0 main_call2.v2 (broadcastInDim S100000x16 ![] bcast_S_S100000x16),
    TRef.binary (.of main_v77) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x16 ![] bcast_S_S100000x16),
    TRef.ternary main_call2.v3 main_call2.call0.v1 (.of main_v77) main_call2.call0.v2 select,
    TRef.unary main_call2.call0.v2 main_call2.v5 Host.expm1,
    TRef.nullary main_call2.cst_2 (constant S_ .f32 0x3F800000#32),
    TRef.unary main_call2.cst_2 main_call2.v6 (broadcastInDim S100000x16 ![] bcast_S_S100000x16),
    TRef.binary main_call2.v6 main_call2.v5 main_call2.v7 mulf,
    TRef.ternary main_call2.v1 (.of main_v77) main_call2.v7 main_call2.call1.v0 select ]

/-- Operations 140 … 143: the first perceptron layer before its activation. -/
abbrev w7 : List (HloOp τ sig (Elt F)) :=
  [ binary main_v78 main_arg11 main_v79 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    unary main_arg12 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)) ]

/-- Operations 144 … 158: its activation. -/
abbrev w8 : List (HloOp τ sig (Elt F)) :=
  [ TRef.nullary main_call3.cst (constant S_ .f32 0x00000000#32),
    TRef.unary main_call3.cst main_call3.v0 (broadcastInDim S100000x64 ![] bcast_S_S100000x64),
    TRef.binary (.of main_v82) main_call3.v0 main_call3.v1 (cmpf .ogt),
    TRef.nullary main_call3.cst_0 (constant S_ .f32 0x00000000#32),
    TRef.unary main_call3.cst_0 main_call3.v2 (broadcastInDim S100000x64 ![] bcast_S_S100000x64),
    TRef.binary (.of main_v82) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x64 ![] bcast_S_S100000x64),
    TRef.ternary main_call3.v3 main_call3.call0.v1 (.of main_v82) main_call3.call0.v2 select,
    TRef.unary main_call3.call0.v2 main_call3.v5 Host.expm1,
    TRef.nullary main_call3.cst_2 (constant S_ .f32 0x3F800000#32),
    TRef.unary main_call3.cst_2 main_call3.v6 (broadcastInDim S100000x64 ![] bcast_S_S100000x64),
    TRef.binary main_call3.v6 main_call3.v5 main_call3.v7 mulf,
    TRef.ternary main_call3.v1 (.of main_v82) main_call3.v7 main_call3.call1.v0 select ]

/-- Operations 159 … 162: the second perceptron layer before its activation. -/
abbrev w9 : List (HloOp τ sig (Elt F)) :=
  [ binary main_v83 main_arg13 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg14 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)) ]

/-- Operations 163 … 177: its activation. -/
abbrev w10 : List (HloOp τ sig (Elt F)) :=
  [ TRef.nullary main_call4.cst (constant S_ .f32 0x00000000#32),
    TRef.unary main_call4.cst main_call4.v0 (broadcastInDim S100000x64 ![] bcast_S_S100000x64),
    TRef.binary (.of main_v87) main_call4.v0 main_call4.v1 (cmpf .ogt),
    TRef.nullary main_call4.cst_0 (constant S_ .f32 0x00000000#32),
    TRef.unary main_call4.cst_0 main_call4.v2 (broadcastInDim S100000x64 ![] bcast_S_S100000x64),
    TRef.binary (.of main_v87) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S100000x64 ![] bcast_S_S100000x64),
    TRef.ternary main_call4.v3 main_call4.call0.v1 (.of main_v87) main_call4.call0.v2 select,
    TRef.unary main_call4.call0.v2 main_call4.v5 Host.expm1,
    TRef.nullary main_call4.cst_2 (constant S_ .f32 0x3F800000#32),
    TRef.unary main_call4.cst_2 main_call4.v6 (broadcastInDim S100000x64 ![] bcast_S_S100000x64),
    TRef.binary main_call4.v6 main_call4.v5 main_call4.v7 mulf,
    TRef.ternary main_call4.v1 (.of main_v87) main_call4.v7 main_call4.call1.v0 select ]

/-- Operations 178 … 181: the third perceptron layer before its activation. -/
abbrev w11 : List (HloOp τ sig (Elt F)) :=
  [ binary main_v88 main_arg15 main_v89 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg16 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v89 main_v91 main_v92 (addf : (⟨S100000x64, .f32⟩ : BufTy).Contents (Elt F) → (⟨S100000x64, .f32⟩ : BufTy).Contents (Elt F) → (⟨S100000x64, .f32⟩ : BufTy).Contents (Elt F)) ]

/-- Operations 182 … 196: its activation. -/
abbrev w12 : List (HloOp τ sig (Elt F)) :=
  [ TRef.nullary main_call5.cst (constant S_ .f32 0x00000000#32),
    TRef.unary main_call5.cst main_call5.v0 (broadcastInDim S100000x64 ![] bcast_S_S100000x64),
    TRef.binary (.of main_v92) main_call5.v0 main_call5.v1 (cmpf .ogt),
    TRef.nullary main_call5.cst_0 (constant S_ .f32 0x00000000#32),
    TRef.unary main_call5.cst_0 main_call5.v2 (broadcastInDim S100000x64 ![] bcast_S_S100000x64),
    TRef.binary (.of main_v92) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S100000x64 ![] bcast_S_S100000x64),
    TRef.ternary main_call5.v3 main_call5.call0.v1 (.of main_v92) main_call5.call0.v2 select,
    TRef.unary main_call5.call0.v2 main_call5.v5 Host.expm1,
    TRef.nullary main_call5.cst_2 (constant S_ .f32 0x3F800000#32),
    TRef.unary main_call5.cst_2 main_call5.v6 (broadcastInDim S100000x64 ![] bcast_S_S100000x64),
    TRef.binary main_call5.v6 main_call5.v5 main_call5.v7 mulf,
    TRef.ternary main_call5.v1 (.of main_v92) main_call5.v7 main_call5.call1.v0 select ]

/-- Operations 197 … 200: the last perceptron layer (no activation): the result. -/
abbrev w13 : List (HloOp τ sig (Elt F)) :=
  [ binary main_v93 main_arg17 main_v94 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    unary main_arg18 main_v95 (broadcastInDim S1x4 ![1] bcast_S4_S1x4_1 : (⟨S4, .f32⟩ : BufTy).Contents (Elt F) → (⟨S1x4, .f32⟩ : BufTy).Contents (Elt F)),
    unary main_v95 main_v96 (broadcastInDim S100000x4 ![0, 1] bcast_S1x4_S100000x4_0_1 : (⟨S1x4, .f32⟩ : BufTy).Contents (Elt F) → (⟨S100000x4, .f32⟩ : BufTy).Contents (Elt F)),
    binary main_v94 main_v96 main_v97 (addf : (⟨S100000x4, .f32⟩ : BufTy).Contents (Elt F) → (⟨S100000x4, .f32⟩ : BufTy).Contents (Elt F) → (⟨S100000x4, .f32⟩ : BufTy).Contents (Elt F)) ]

/-- What the first window of @main runs. -/
abbrev opsA : List (HloOp τ sig (Elt F)) := w0 ++ (w1 ++ (w2 ++ w3a))

/-- What the second window of @main runs. -/
abbrev opsB : List (HloOp τ sig (Elt F)) := w3b ++ (w4 ++ (w5 ++ (w6 ++ (w7 ++ (w8 ++ (w9 ++ (w10 ++ (w11 ++ (w12 ++ w13)))))))))

/-- @main's 200 operations, in order. -/
abbrev ops : List (HloOp τ sig (Elt F)) := opsA ++ opsB

end Cert.ReferenceIdeal.RefRun

end
-- ==== Proof.RefMainEq.lean ====
/-
  @main of the reference program is the straight line of its 200 operations, and its run: every
  weakly fair execution terminates with each TensorCore buffer at the fold of the operations over
  the launch contents.
-/
import proofs.«115002_j14955076125382_2_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The first window: the called activation's definition unfolds at its call. -/
theorem main_part0_eq (c : Dev nD) : main_part0 (F := F) c = seq opsA := rfl

set_option maxRecDepth 16384 in
set_option maxHeartbeats 4000000 in
/-- The second window. -/
theorem main_part1_eq (c : Dev nD) : main_part1 (F := F) c = seq opsB := rfl

/-- @main is that straight line: its two windows one after the other. -/
theorem main_eq (c : Dev nD) : main (F := F) c = seq ops := by
  simp only [ops, seq_append (opsA (F := F)) opsB, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨unary_bufs_sub .., reshape_bufs_sub .., unary_bufs_sub .., reshape_bufs_sub ..⟩
theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub ..⟩
theorem w2_sub : (w2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w3a_sub : (w3a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub ..⟩
theorem w3b_sub : (w3b : List (HloOp τ sig (Elt F))).Forall fun op => op.bufs ⊆ tcRefs τ sig :=
  ⟨unary_bufs_sub .., unary_bufs_sub .., binary_bufs_sub .., binary_bufs_sub .., binary_bufs_sub ..⟩
theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w5_sub : (w5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub ..⟩
theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w7_sub : (w7 : List (HloOp τ sig (Elt F))).Forall fun op => op.bufs ⊆ tcRefs τ sig :=
  ⟨binary_bufs_sub .., unary_bufs_sub .., unary_bufs_sub .., binary_bufs_sub ..⟩
theorem w8_sub : (w8 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w9_sub : (w9 : List (HloOp τ sig (Elt F))).Forall fun op => op.bufs ⊆ tcRefs τ sig :=
  ⟨binary_bufs_sub .., unary_bufs_sub .., unary_bufs_sub .., binary_bufs_sub ..⟩
theorem w10_sub : (w10 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w11_sub : (w11 : List (HloOp τ sig (Elt F))).Forall fun op => op.bufs ⊆ tcRefs τ sig :=
  ⟨binary_bufs_sub .., unary_bufs_sub .., unary_bufs_sub .., binary_bufs_sub ..⟩
theorem w12_sub : (w12 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w13_sub : (w13 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, opsA, opsB, List.mem_append] at h
    rcases h with (h | h | h | h) | h | h | h | h | h | h | h | h | h | h | h
    exacts [List.forall_iff_forall_mem.mp w0_sub op h, List.forall_iff_forall_mem.mp w1_sub op h, List.forall_iff_forall_mem.mp w2_sub op h, List.forall_iff_forall_mem.mp w3a_sub op h, List.forall_iff_forall_mem.mp w3b_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h, List.forall_iff_forall_mem.mp w13_sub op h]

/-- On every device, for any float values, from any memory with zero counters: every weakly fair
    execution of @main terminates, and every final state has each TensorCore buffer at the
    operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference program's result as a closed term of its nineteen argument arrays, at the ideal
  instance (a float an extended real, every operation exact).

  The program is a three-layer mean-aggregating graph convolution followed by a four-layer
  perceptron over N = 100000 nodes and E = 3200000 directed edges.  `ei` is the edge list: row 0
  holds each edge's source node, row 1 its destination node.  A graph-convolution layer sends to
  every node the mean of the features of the sources of its incoming edges,

      agg v = (∑ over edges e with dst e = v of x (src e)) / max (indegree v) 1,

  and answers `elu (agg · Wl + b + x · Wr)`; a perceptron layer answers `elu (x · W + b)`, the
  last one without the `elu`.  `elu y = y` where `y > 0` and `exp y - 1` elsewhere (computed as
  `1 * expm1 (if y > 0 then 0 else y)`).

  Every definition below is, operation for operation and in the program's order, the composition
  of the pure functions of the program's statements that compute the named value; the index and
  degree computations, which the program repeats in every layer from the same operands, are
  stated once.
-/
import proofs.«115002_j14955076125382_2_alg».proof.ReferenceIdeal
import Idealize.ShloMosaic.PureOps.Ideal

noncomputable section

namespace Cert.ReferenceIdeal.RefTerm

open Cert.ReferenceIdeal Idealize.ShloMosaic

variable [Facts]
open Facts₀ Facts

/-! ## The edge list -/

/-- Row 0 of the edge list as a vector of E entries: each edge's source node, as stored. -/
def srcFlat (ei : IVec S2x3200000 32) : IVec S3200000 32 :=
  shapeCast S3200000 (extractStridedSlice S1x3200000 ![0, 0] ei slices_S2x3200000_S1x3200000_0_0)
    shapeCasts_S1x3200000_S3200000

/-- Row 1 of the edge list as a vector of E entries: each edge's destination node. -/
def dstFlat (ei : IVec S2x3200000 32) : IVec S3200000 32 :=
  shapeCast S3200000 (extractStridedSlice S1x3200000 ![1, 0] ei slices_S2x3200000_S1x3200000_1_0)
    shapeCasts_S1x3200000_S3200000

/-- A vector of E node numbers with each negative one raised by N (an index counted from the end),
    as a column [E, 1]: the index operand of a row gather. -/
def wrapIdx (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The source nodes as the gather's index column [E, 1]. -/
def srcIdx (ei : IVec S2x3200000 32) : IVec S3200000x1 32 := wrapIdx (srcFlat ei)

/-- The destination nodes as the scatter's index column [E, 1]. -/
def dstIdx (ei : IVec S2x3200000 32) : IVec S3200000x1 32 :=
  broadcastInDim S3200000x1 ![0] bcast_S3200000_S3200000x1_0 (dstFlat ei)

/-- `max (indegree v) 1` for every node `v`, as a column [N, 1]: a one added at each edge's
    destination into zeros, then the maximum with one. -/
def degMax (ei : IVec S2x3200000 32) : FVec Ideal S100000x1 .f32 :=
  maximumf
    (Host.scatterAdd (F := Ideal) scatter_S100000x1_S3200000x1_S3200000x1_1_0_0_1
      (broadcastInDim S100000x1 ![] bcast_S_S100000x1 (constant (F := Ideal) S_ .f32 0x00000000#32))
      (dstIdx ei)
      (broadcastInDim S3200000x1 ![] bcast_S_S3200000x1 (constant (F := Ideal) S_ .f32 0x3F800000#32)))
    (broadcastInDim S100000x1 ![] bcast_S_S100000x1 (constant (F := Ideal) S_ .f32 0x3F800000#32))

/-! ## The activation -/

/-- `elu` at [N, 16]: `y` where `y > 0`, elsewhere `1 * expm1 y` (the exponential's operand is
    replaced by zero where `y > 0`, so that it is never large). -/
def elu16 (y : FVec Ideal S100000x16 .f32) : FVec Ideal S100000x16 .f32 :=
  select
    (cmpf .ogt y (broadcastInDim S100000x16 ![] bcast_S_S100000x16 (constant (F := Ideal) S_ .f32 0x00000000#32)))
    y
    (mulf (broadcastInDim S100000x16 ![] bcast_S_S100000x16 (constant (F := Ideal) S_ .f32 0x3F800000#32))
      (Host.expm1 (F := Ideal)
        (select
          (cmpf .ogt y (broadcastInDim S100000x16 ![] bcast_S_S100000x16 (constant (F := Ideal) S_ .f32 0x00000000#32)))
          (broadcastInDim S100000x16 ![] bcast_S_S100000x16 (id (constant (F := Ideal) S_ .f32 0x00000000#32)))
          y)))

/-- `elu` at [N, 64]. -/
def elu64 (y : FVec Ideal S100000x64 .f32) : FVec Ideal S100000x64 .f32 :=
  select
    (cmpf .ogt y (broadcastInDim S100000x64 ![] bcast_S_S100000x64 (constant (F := Ideal) S_ .f32 0x00000000#32)))
    y
    (mulf (broadcastInDim S100000x64 ![] bcast_S_S100000x64 (constant (F := Ideal) S_ .f32 0x3F800000#32))
      (Host.expm1 (F := Ideal)
        (select
          (cmpf .ogt y (broadcastInDim S100000x64 ![] bcast_S_S100000x64 (constant (F := Ideal) S_ .f32 0x00000000#32)))
          (broadcastInDim S100000x64 ![] bcast_S_S100000x64 (id (constant (F := Ideal) S_ .f32 0x00000000#32)))
          y)))

/-! ## The graph-convolution layers -/

/-- The mean over incoming edges of the source features, at width 32: the rows gathered at the
    sources, added at the destinations into zeros, divided by `max (indegree) 1`. -/
def agg32 (x : FVec Ideal S100000x32 .f32) (ei : IVec S2x3200000 32) : FVec Ideal S100000x32 .f32 :=
  Host.divf (F := Ideal)
    (Host.scatterAdd (F := Ideal) scatter_S100000x32_S3200000x1_S3200000x32_1_0_0_1
      (broadcastInDim S100000x32 ![] bcast_S_S100000x32 (constant (F := Ideal) S_ .f32 0x00000000#32))
      (dstIdx ei)
      (Host.gather gather_S100000x32_S3200000x1_S3200000x32_1_0_n_n_0_1_132 x (srcIdx ei)))
    (broadcastInDim S100000x32 ![0, 1] bcast_S100000x1_S100000x32_0_1 (degMax ei))

/-- The same at width 16. -/
def agg16 (x : FVec Ideal S100000x16 .f32) (ei : IVec S2x3200000 32) : FVec Ideal S100000x16 .f32 :=
  Host.divf (F := Ideal)
    (Host.scatterAdd (F := Ideal) scatter_S100000x16_S3200000x1_S3200000x16_1_0_0_1
      (broadcastInDim S100000x16 ![] bcast_S_S100000x16 (constant (F := Ideal) S_ .f32 0x00000000#32))
      (dstIdx ei)
      (Host.gather gather_S100000x16_S3200000x1_S3200000x16_1_0_n_n_0_1_116 x (srcIdx ei)))
    (broadcastInDim S100000x16 ![0, 1] bcast_S100000x1_S100000x16_0_1 (degMax ei))

/-- A bias of 16 entries as the array [N, 16] with that row everywhere. -/
def bias16 (b : FVec Ideal S16 .f32) : FVec Ideal S100000x16 .f32 :=
  broadcastInDim S100000x16 ![0, 1] bcast_S1x16_S100000x16_0_1 (broadcastInDim S1x16 ![1] bcast_S16_S1x16_1 b)

/-- A bias of 64 entries as the array [N, 64]. -/
def bias64 (b : FVec Ideal S64 .f32) : FVec Ideal S100000x64 .f32 :=
  broadcastInDim S100000x64 ![0, 1] bcast_S1x64_S100000x64_0_1 (broadcastInDim S1x64 ![1] bcast_S64_S1x64_1 b)

/-- A bias of 4 entries as the array [N, 4]. -/
def bias4 (b : FVec Ideal S4 .f32) : FVec Ideal S100000x4 .f32 :=
  broadcastInDim S100000x4 ![0, 1] bcast_S1x4_S100000x4_0_1 (broadcastInDim S1x4 ![1] bcast_S4_S1x4_1 b)

/-- The first graph-convolution layer before its activation, 32 → 16: `agg · Wl + b + x · Wr`. -/
def pre32 (x : FVec Ideal S100000x32 .f32) (ei : IVec S2x3200000 32) (Wl Wr : FVec Ideal S32x16 .f32)
    (b : FVec Ideal S16 .f32) : FVec Ideal S100000x16 .f32 :=
  addf
    (addf (Host.dotGeneral (F := Ideal) dot_S100000x32_S32x16_S100000x16_1_0_0_1_n_n none (agg32 x ei) Wl) (bias16 b))
    (Host.dotGeneral (F := Ideal) dot_S100000x32_S32x16_S100000x16_1_0_0_1_n_n none x Wr)

/-- The first graph-convolution layer, 32 → 16: `elu (agg · Wl + b + x · Wr)`. -/
def conv32 (x : FVec Ideal S100000x32 .f32) (ei : IVec S2x3200000 32) (Wl Wr : FVec Ideal S32x16 .f32)
    (b : FVec Ideal S16 .f32) : FVec Ideal S100000x16 .f32 :=
  elu16 (pre32 x ei Wl Wr b)

/-- The second and third graph-convolution layers before their activation, 16 → 16. -/
def pre16 (x : FVec Ideal S100000x16 .f32) (ei : IVec S2x3200000 32) (Wl Wr : FVec Ideal S16x16 .f32)
    (b : FVec Ideal S16 .f32) : FVec Ideal S100000x16 .f32 :=
  addf
    (addf (Host.dotGeneral (F := Ideal) dot_S100000x16_S16x16_S100000x16_1_0_0_1_n_n none (agg16 x ei) Wl) (bias16 b))
    (Host.dotGeneral (F := Ideal) dot_S100000x16_S16x16_S100000x16_1_0_0_1_n_n none x Wr)

/-- The second and third graph-convolution layers, 16 → 16. -/
def conv16 (x : FVec Ideal S100000x16 .f32) (ei : IVec S2x3200000 32) (Wl Wr : FVec Ideal S16x16 .f32)
    (b : FVec Ideal S16 .f32) : FVec Ideal S100000x16 .f32 :=
  elu16 (pre16 x ei Wl Wr b)

/-! ## The perceptron layers -/

/-- 16 → 64 before the activation: `x · W + b`. -/
def preLin16x64 (x : FVec Ideal S100000x16 .f32) (W : FVec Ideal S16x64 .f32) (b : FVec Ideal S64 .f32) :
    FVec Ideal S100000x64 .f32 :=
  addf (Host.dotGeneral (F := Ideal) dot_S100000x16_S16x64_S100000x64_1_0_0_1_n_n none x W) (bias64 b)

/-- 16 → 64 with `elu`. -/
def lin16x64 (x : FVec Ideal S100000x16 .f32) (W : FVec Ideal S16x64 .f32) (b : FVec Ideal S64 .f32) :
    FVec Ideal S100000x64 .f32 :=
  elu64 (preLin16x64 x W b)

/-- 64 → 64 before the activation. -/
def preLin64x64 (x : FVec Ideal S100000x64 .f32) (W : FVec Ideal S64x64 .f32) (b : FVec Ideal S64 .f32) :
    FVec Ideal S100000x64 .f32 :=
  addf (Host.dotGeneral (F := Ideal) dot_S100000x64_S64x64_S100000x64_1_0_0_1_n_n none x W) (bias64 b)

/-- 64 → 64 with `elu`. -/
def lin64x64 (x : FVec Ideal S100000x64 .f32) (W : FVec Ideal S64x64 .f32) (b : FVec Ideal S64 .f32) :
    FVec Ideal S100000x64 .f32 :=
  elu64 (preLin64x64 x W b)

/-- 64 → 4, no activation. -/
def lin64x4 (x : FVec Ideal S100000x64 .f32) (W : FVec Ideal S64x4 .f32) (b : FVec Ideal S4 .f32) :
    FVec Ideal S100000x4 .f32 :=
  addf (Host.dotGeneral (F := Ideal) dot_S100000x64_S64x4_S100000x4_1_0_0_1_n_n none x W) (bias4 b)

/-! ## The whole program -/

/-- The program's result [N, 4] as a function of its nineteen arguments, in their order: the node
    features, the edge list, three layers' (neighbour weight, root weight, bias), four layers'
    (weight, bias). -/
def out (a0 : FVec Ideal S100000x32 .f32) (a1 : IVec S2x3200000 32)
    (a2 a3 : FVec Ideal S32x16 .f32) (a4 : FVec Ideal S16 .f32)
    (a5 a6 : FVec Ideal S16x16 .f32) (a7 : FVec Ideal S16 .f32)
    (a8 a9 : FVec Ideal S16x16 .f32) (a10 : FVec Ideal S16 .f32)
    (a11 : FVec Ideal S16x64 .f32) (a12 : FVec Ideal S64 .f32)
    (a13 : FVec Ideal S64x64 .f32) (a14 : FVec Ideal S64 .f32)
    (a15 : FVec Ideal S64x64 .f32) (a16 : FVec Ideal S64 .f32)
    (a17 : FVec Ideal S64x4 .f32) (a18 : FVec Ideal S4 .f32) : FVec Ideal S100000x4 .f32 :=
  lin64x4
    (lin64x64
      (lin64x64
        (lin16x64 (conv16 (conv16 (conv32 a0 a1 a2 a3 a4) a1 a5 a6 a7) a1 a8 a9 a10) a11 a12)
        a13 a14)
      a15 a16)
    a17 a18

end Cert.ReferenceIdeal.RefTerm

end
-- ==== Proof.RefInv.lean ====
/-
  The buffers each stretch of the reference program's operations writes, the contents after each
  stretch from any starting contents `V`, and what every stretch after the first keeps: `V` at
  the nineteen argument buffers, which no operation writes, and the two flattened rows of `V`'s
  edge list in the two index buffers, which only the first stretch writes.
-/
import proofs.«115002_j14955076125382_2_alg».proof.Proof.RefOps
import proofs.«115002_j14955076125382_2_alg».proof.Proof.RefTerm
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.ReferenceIdeal.RefTerm

/-- The contents of the device's buffers, at the ideal values. -/
local notation "𝕍" => Valuation τ sig (Elt Ideal)

/-! ## What each stretch writes -/

/-- An operation of one result writes that result's buffer, which is in the list. -/
local macro "wr" : term =>
  `(Finset.singleton_subset_iff.mpr (List.mem_toFinset.mpr (List.mem_map_of_mem (by decide))))

/-- The buffers the stretch `w0` writes. -/
abbrev w0_W : List (Ref sig .tc) := [main_v0, main_v1, main_v2, main_v3]
theorem w0_writes : (w0 (F := Ideal)).Forall fun op => op.writes ⊆ (w0_W.map (Proc.devRef (τ := τ) .tc)).toFinset :=
  ⟨wr, wr, wr, wr⟩

/-- The buffers the stretch `w1` writes. -/
abbrev w1_W : List (Ref sig .tc) := [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27]
theorem w1_writes : (w1 (F := Ideal)).Forall fun op => op.writes ⊆ (w1_W.map (Proc.devRef (τ := τ) .tc)).toFinset :=
  ⟨wr, wr, wr, wr, wr, wr, wr, wr, wr, wr, wr, wr, wr, wr, wr, wr, wr, wr, wr, wr, wr, wr, wr, wr, wr, wr, wr, wr, wr, wr⟩

/-- The buffers the stretch `w2` writes. -/
abbrev w2_W : List (Ref sig .tc) := [main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]
theorem w2_writes : (w2 (F := Ideal)).Forall fun op => op.writes ⊆ (w2_W.map (Proc.devRef (τ := τ) .tc)).toFinset :=
  ⟨wr, wr, wr, wr, wr, wr, wr, wr, wr, wr, wr, wr, wr, wr, wr⟩

/-- The buffers the stretch `w3a` writes. -/
abbrev w3a_W : List (Ref sig .tc) := [main_c_4, main_v29, main_v30, main_c_5, main_v31, main_v32, main_v33, main_v34, main_v35, main_cst_6, main_v36, main_v37, main_v38, main_cst_7, main_v39, main_cst_8, main_v40, main_v41, main_v42, main_cst_9, main_v43, main_v44, main_v45, main_v46, main_v47]
theorem w3a_writes : (w3a (F := Ideal)).Forall fun op => op.writes ⊆ (w3a_W.map (Proc.devRef (τ := τ) .tc)).toFinset :=
  ⟨wr, wr, wr, wr, wr, wr, wr, wr, wr, wr, wr, wr, wr, wr, wr, wr, wr, wr, wr, wr, wr, wr, wr, wr, wr⟩

/-- The buffers the stretch `w3b` writes. -/
abbrev w3b_W : List (Ref sig .tc) := [main_v48, main_v49, main_v50, main_v51, main_v52]
theorem w3b_writes : (w3b (F := Ideal)).Forall fun op => op.writes ⊆ (w3b_W.map (Proc.devRef (τ := τ) .tc)).toFinset :=
  ⟨wr, wr, wr, wr, wr⟩

/-- The buffers the stretch `w4` writes. -/
abbrev w4_W : List (Ref sig .tc) := [main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]
theorem w4_writes : (w4 (F := Ideal)).Forall fun op => op.writes ⊆ (w4_W.map (Proc.devRef (τ := τ) .tc)).toFinset :=
  ⟨wr, wr, wr, wr, wr, wr, wr, wr, wr, wr, wr, wr, wr, wr, wr⟩

/-- The buffers the stretch `w5` writes. -/
abbrev w5_W : List (Ref sig .tc) := [main_c_10, main_v54, main_v55, main_c_11, main_v56, main_v57, main_v58, main_v59, main_v60, main_cst_12, main_v61, main_v62, main_v63, main_cst_13, main_v64, main_cst_14, main_v65, main_v66, main_v67, main_cst_15, main_v68, main_v69, main_v70, main_v71, main_v72, main_v73, main_v74, main_v75, main_v76, main_v77]
theorem w5_writes : (w5 (F := Ideal)).Forall fun op => op.writes ⊆ (w5_W.map (Proc.devRef (τ := τ) .tc)).toFinset :=
  ⟨wr, wr, wr, wr, wr, wr, wr, wr, wr, wr, wr, wr, wr, wr, wr, wr, wr, wr, wr, wr, wr, wr, wr, wr, wr, wr, wr, wr, wr, wr⟩

/-- The buffers the stretch `w6` writes. -/
abbrev w6_W : List (Ref sig .tc) := [main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]
theorem w6_writes : (w6 (F := Ideal)).Forall fun op => op.writes ⊆ (w6_W.map (Proc.devRef (τ := τ) .tc)).toFinset :=
  ⟨wr, wr, wr, wr, wr, wr, wr, wr, wr, wr, wr, wr, wr, wr, wr⟩

/-- The buffers the stretch `w7` writes. -/
abbrev w7_W : List (Ref sig .tc) := [main_v79, main_v80, main_v81, main_v82]
theorem w7_writes : (w7 (F := Ideal)).Forall fun op => op.writes ⊆ (w7_W.map (Proc.devRef (τ := τ) .tc)).toFinset :=
  ⟨wr, wr, wr, wr⟩

/-- The buffers the stretch `w8` writes. -/
abbrev w8_W : List (Ref sig .tc) := [main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]
theorem w8_writes : (w8 (F := Ideal)).Forall fun op => op.writes ⊆ (w8_W.map (Proc.devRef (τ := τ) .tc)).toFinset :=
  ⟨wr, wr, wr, wr, wr, wr, wr, wr, wr, wr, wr, wr, wr, wr, wr⟩

/-- The buffers the stretch `w9` writes. -/
abbrev w9_W : List (Ref sig .tc) := [main_v84, main_v85, main_v86, main_v87]
theorem w9_writes : (w9 (F := Ideal)).Forall fun op => op.writes ⊆ (w9_W.map (Proc.devRef (τ := τ) .tc)).toFinset :=
  ⟨wr, wr, wr, wr⟩

/-- The buffers the stretch `w10` writes. -/
abbrev w10_W : List (Ref sig .tc) := [main_call4.cst.ref, main_call4.v0.ref, main_call4.v1.ref, main_call4.cst_0.ref, main_call4.v2.ref, main_call4.v3.ref, main_call4.cst_1.ref, main_call4.call0.v0.ref, main_call4.call0.v1.ref, main_call4.call0.v2.ref, main_call4.v5.ref, main_call4.cst_2.ref, main_call4.v6.ref, main_call4.v7.ref, main_call4.call1.v0.ref]
theorem w10_writes : (w10 (F := Ideal)).Forall fun op => op.writes ⊆ (w10_W.map (Proc.devRef (τ := τ) .tc)).toFinset :=
  ⟨wr, wr, wr, wr, wr, wr, wr, wr, wr, wr, wr, wr, wr, wr, wr⟩

/-- The buffers the stretch `w11` writes. -/
abbrev w11_W : List (Ref sig .tc) := [main_v89, main_v90, main_v91, main_v92]
theorem w11_writes : (w11 (F := Ideal)).Forall fun op => op.writes ⊆ (w11_W.map (Proc.devRef (τ := τ) .tc)).toFinset :=
  ⟨wr, wr, wr, wr⟩

/-- The buffers the stretch `w12` writes. -/
abbrev w12_W : List (Ref sig .tc) := [main_call5.cst.ref, main_call5.v0.ref, main_call5.v1.ref, main_call5.cst_0.ref, main_call5.v2.ref, main_call5.v3.ref, main_call5.cst_1.ref, main_call5.call0.v0.ref, main_call5.call0.v1.ref, main_call5.call0.v2.ref, main_call5.v5.ref, main_call5.cst_2.ref, main_call5.v6.ref, main_call5.v7.ref, main_call5.call1.v0.ref]
theorem w12_writes : (w12 (F := Ideal)).Forall fun op => op.writes ⊆ (w12_W.map (Proc.devRef (τ := τ) .tc)).toFinset :=
  ⟨wr, wr, wr, wr, wr, wr, wr, wr, wr, wr, wr, wr, wr, wr, wr⟩

/-- The buffers the stretch `w13` writes. -/
abbrev w13_W : List (Ref sig .tc) := [main_v94, main_v95, main_v96, main_v97]
theorem w13_writes : (w13 (F := Ideal)).Forall fun op => op.writes ⊆ (w13_W.map (Proc.devRef (τ := τ) .tc)).toFinset :=
  ⟨wr, wr, wr, wr⟩

/-! ## The contents after each stretch -/

/-- The nineteen argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18]

/-- The buffers every later stretch reads and none writes: the arguments and the two flattened
    rows of the edge list. -/
abbrev keptRefs : List (Ref sig .tc) := main_v1 :: main_v3 :: argRefs

/-- Contents `W` that hold `V`'s arguments and, in the two index buffers, the flattened source
    and destination rows of `V`'s edge list. -/
structure Inv (V W : 𝕍) : Prop where
  arg : ∀ r ∈ argRefs, W (Proc.devRef .tc r) = V (Proc.devRef .tc r)
  src : W (Proc.devRef .tc main_v1) = srcFlat (V (Proc.devRef .tc main_arg1))
  dst : W (Proc.devRef .tc main_v3) = dstFlat (V (Proc.devRef .tc main_arg1))

/-- A stretch that writes none of those buffers keeps them. -/
theorem Inv.step {V W : 𝕍} (h : Inv V W) (l : List (HloOp τ sig (Elt Ideal))) (Wl : List (Ref sig .tc))
    (hw : l.Forall fun op => op.writes ⊆ (Wl.map (Proc.devRef (τ := τ) .tc)).toFinset)
    (hd : ∀ r ∈ keptRefs, r ∉ Wl) : Inv V (after l W) where
  arg r hr := (after_of_writes_sub l W hw (hd r (List.mem_cons_of_mem _ (List.mem_cons_of_mem _ hr)))).trans (h.arg r hr)
  src := (after_of_writes_sub l W hw (hd main_v1 List.mem_cons_self)).trans h.src
  dst := (after_of_writes_sub l W hw (hd main_v3 (List.mem_cons_of_mem _ List.mem_cons_self))).trans h.dst

/-- The contents after the stretches up to `w0`. -/
def S0 (V : 𝕍) : 𝕍 := after w0 V
/-- The contents after the stretches up to `w1`. -/
def S1 (V : 𝕍) : 𝕍 := after w1 (S0 V)
/-- The contents after the stretches up to `w2`. -/
def S2 (V : 𝕍) : 𝕍 := after w2 (S1 V)
/-- The contents after the stretches up to `w3a`. -/
def S3a (V : 𝕍) : 𝕍 := after w3a (S2 V)
/-- The contents after the stretches up to `w3b`. -/
def S3 (V : 𝕍) : 𝕍 := after w3b (S3a V)
/-- The contents after the stretches up to `w4`. -/
def S4 (V : 𝕍) : 𝕍 := after w4 (S3 V)
/-- The contents after the stretches up to `w5`. -/
def S5 (V : 𝕍) : 𝕍 := after w5 (S4 V)
/-- The contents after the stretches up to `w6`. -/
def S6 (V : 𝕍) : 𝕍 := after w6 (S5 V)
/-- The contents after the stretches up to `w7`. -/
def S7 (V : 𝕍) : 𝕍 := after w7 (S6 V)
/-- The contents after the stretches up to `w8`. -/
def S8 (V : 𝕍) : 𝕍 := after w8 (S7 V)
/-- The contents after the stretches up to `w9`. -/
def S9 (V : 𝕍) : 𝕍 := after w9 (S8 V)
/-- The contents after the stretches up to `w10`. -/
def S10 (V : 𝕍) : 𝕍 := after w10 (S9 V)
/-- The contents after the stretches up to `w11`. -/
def S11 (V : 𝕍) : 𝕍 := after w11 (S10 V)
/-- The contents after the stretches up to `w12`. -/
def S12 (V : 𝕍) : 𝕍 := after w12 (S11 V)
/-- The contents after the stretches up to `w13`. -/
def S13 (V : 𝕍) : 𝕍 := after w13 (S12 V)

/-- The whole line's fold is the last of them. -/
theorem after_ops (V : 𝕍) : after (ops (F := Ideal)) V = S13 V := by
  simp only [ops, opsA, opsB, StableHlo.after_append]
  rfl

/-- After the first stretch the two index buffers hold the flattened rows. -/
theorem inv0 (V : 𝕍) : Inv V (S0 V) where
  arg r hr := after_of_writes_sub w0 V w0_writes ((by decide : ∀ r ∈ argRefs, r ∉ w0_W) r hr)
  src := by unfold S0; after_results_simp <;> rfl
  dst := by unfold S0; after_results_simp <;> rfl

theorem inv1 (V : 𝕍) : Inv V (S1 V) := (inv0 V).step w1 w1_W w1_writes (by decide)
theorem inv2 (V : 𝕍) : Inv V (S2 V) := (inv1 V).step w2 w2_W w2_writes (by decide)
theorem inv3a (V : 𝕍) : Inv V (S3a V) := (inv2 V).step w3a w3a_W w3a_writes (by decide)
theorem inv3 (V : 𝕍) : Inv V (S3 V) := (inv3a V).step w3b w3b_W w3b_writes (by decide)
theorem inv4 (V : 𝕍) : Inv V (S4 V) := (inv3 V).step w4 w4_W w4_writes (by decide)
theorem inv5 (V : 𝕍) : Inv V (S5 V) := (inv4 V).step w5 w5_W w5_writes (by decide)
theorem inv6 (V : 𝕍) : Inv V (S6 V) := (inv5 V).step w6 w6_W w6_writes (by decide)
theorem inv7 (V : 𝕍) : Inv V (S7 V) := (inv6 V).step w7 w7_W w7_writes (by decide)
theorem inv8 (V : 𝕍) : Inv V (S8 V) := (inv7 V).step w8 w8_W w8_writes (by decide)
theorem inv9 (V : 𝕍) : Inv V (S9 V) := (inv8 V).step w9 w9_W w9_writes (by decide)
theorem inv10 (V : 𝕍) : Inv V (S10 V) := (inv9 V).step w10 w10_W w10_writes (by decide)
theorem inv11 (V : 𝕍) : Inv V (S11 V) := (inv10 V).step w11 w11_W w11_writes (by decide)
theorem inv12 (V : 𝕍) : Inv V (S12 V) := (inv11 V).step w12 w12_W w12_writes (by decide)
theorem inv13 (V : 𝕍) : Inv V (S13 V) := (inv12 V).step w13 w13_W w13_writes (by decide)

end Cert.ReferenceIdeal.RefRun

end
-- ==== Proof.RefVal.lean ====
/-
  What the reference program's 200 operations leave in its buffers, read stretch by stretch from
  any starting contents `V`: each layer's pre-activation and activation as the named functions of
  Proof/RefTerm.lean applied to the previous layer's value and to `V` at the argument buffers.  The
  result buffer ends at `RefTerm.out` of the nineteen arguments, and every argument buffer keeps
  its contents.
-/
import proofs.«115002_j14955076125382_2_alg».proof.Proof.RefInv

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.ReferenceIdeal.RefTerm

set_option Elab.async false

/-- The contents of the device's buffers, at the ideal values. -/
local notation "𝕍" => Valuation τ sig (Elt Ideal)

/-! ## The activations' stretches over the buffers themselves -/

section Plain
variable {F : FTy → Type} [FloatOps F]

/-- The stretch `w2` with each operation spelt over the buffers themselves. -/
abbrev e2 : List (HloOp τ sig (Elt F)) :=
  [ nullary main_call0_cst (constant S_ .f32 0x00000000#32),
    unary main_call0_cst main_call0_v0 (broadcastInDim S100000x16 ![] bcast_S_S100000x16 : (⟨S_, .f32⟩ : BufTy).Contents (Elt F) → (⟨S100000x16, .f32⟩ : BufTy).Contents (Elt F)),
    binary main_v27 main_call0_v0 main_call0_v1 (cmpf .ogt : (⟨S100000x16, .f32⟩ : BufTy).Contents (Elt F) → (⟨S100000x16, .f32⟩ : BufTy).Contents (Elt F) → (⟨S100000x16, .i1⟩ : BufTy).Contents (Elt F)),
    nullary main_call0_cst_0 (constant S_ .f32 0x00000000#32),
    unary main_call0_cst_0 main_call0_v2 (broadcastInDim S100000x16 ![] bcast_S_S100000x16 : (⟨S_, .f32⟩ : BufTy).Contents (Elt F) → (⟨S100000x16, .f32⟩ : BufTy).Contents (Elt F)),
    binary main_v27 main_call0_v2 main_call0_v3 (cmpf .ogt : (⟨S100000x16, .f32⟩ : BufTy).Contents (Elt F) → (⟨S100000x16, .f32⟩ : BufTy).Contents (Elt F) → (⟨S100000x16, .i1⟩ : BufTy).Contents (Elt F)),
    nullary main_call0_cst_1 (constant S_ .f32 0x00000000#32),
    unary main_call0_cst_1 main_call0_call0_v0 (id : (⟨S_, .f32⟩ : BufTy).Contents (Elt F) → (⟨S_, .f32⟩ : BufTy).Contents (Elt F)),
    unary main_call0_call0_v0 main_call0_call0_v1 (broadcastInDim S100000x16 ![] bcast_S_S100000x16 : (⟨S_, .f32⟩ : BufTy).Contents (Elt F) → (⟨S100000x16, .f32⟩ : BufTy).Contents (Elt F)),
    ternary main_call0_v3 main_call0_call0_v1 main_v27 main_call0_v4 (select : (⟨S100000x16, .i1⟩ : BufTy).Contents (Elt F) → (⟨S100000x16, .f32⟩ : BufTy).Contents (Elt F) → (⟨S100000x16, .f32⟩ : BufTy).Contents (Elt F) → (⟨S100000x16, .f32⟩ : BufTy).Contents (Elt F)),
    unary main_call0_v4 main_call0_v5 (Host.expm1 : (⟨S100000x16, .f32⟩ : BufTy).Contents (Elt F) → (⟨S100000x16, .f32⟩ : BufTy).Contents (Elt F)),
    nullary main_call0_cst_2 (constant S_ .f32 0x3F800000#32),
    unary main_call0_cst_2 main_call0_v6 (broadcastInDim S100000x16 ![] bcast_S_S100000x16 : (⟨S_, .f32⟩ : BufTy).Contents (Elt F) → (⟨S100000x16, .f32⟩ : BufTy).Contents (Elt F)),
    binary main_call0_v6 main_call0_v5 main_call0_v7 (mulf : (⟨S100000x16, .f32⟩ : BufTy).Contents (Elt F) → (⟨S100000x16, .f32⟩ : BufTy).Contents (Elt F) → (⟨S100000x16, .f32⟩ : BufTy).Contents (Elt F)),
    ternary main_call0_v1 main_v27 main_call0_v7 main_v28 (select : (⟨S100000x16, .i1⟩ : BufTy).Contents (Elt F) → (⟨S100000x16, .f32⟩ : BufTy).Contents (Elt F) → (⟨S100000x16, .f32⟩ : BufTy).Contents (Elt F) → (⟨S100000x16, .f32⟩ : BufTy).Contents (Elt F)) ]
set_option maxRecDepth 16384 in
/-- The two spellings are one list: a typed reference at a literal buffer converts contents by the identity. -/
theorem w2_eq : (w2 : List (HloOp τ sig (Elt F))) = e2 := rfl

/-- The stretch `w4` with each operation spelt over the buffers themselves. -/
abbrev e4 : List (HloOp τ sig (Elt F)) :=
  [ nullary main_call1_cst (constant S_ .f32 0x00000000#32),
    unary main_call1_cst main_call1_v0 (broadcastInDim S100000x16 ![] bcast_S_S100000x16 : (⟨S_, .f32⟩ : BufTy).Contents (Elt F) → (⟨S100000x16, .f32⟩ : BufTy).Contents (Elt F)),
    binary main_v52 main_call1_v0 main_call1_v1 (cmpf .ogt : (⟨S100000x16, .f32⟩ : BufTy).Contents (Elt F) → (⟨S100000x16, .f32⟩ : BufTy).Contents (Elt F) → (⟨S100000x16, .i1⟩ : BufTy).Contents (Elt F)),
    nullary main_call1_cst_0 (constant S_ .f32 0x00000000#32),
    unary main_call1_cst_0 main_call1_v2 (broadcastInDim S100000x16 ![] bcast_S_S100000x16 : (⟨S_, .f32⟩ : BufTy).Contents (Elt F) → (⟨S100000x16, .f32⟩ : BufTy).Contents (Elt F)),
    binary main_v52 main_call1_v2 main_call1_v3 (cmpf .ogt : (⟨S100000x16, .f32⟩ : BufTy).Contents (Elt F) → (⟨S100000x16, .f32⟩ : BufTy).Contents (Elt F) → (⟨S100000x16, .i1⟩ : BufTy).Contents (Elt F)),
    nullary main_call1_cst_1 (constant S_ .f32 0x00000000#32),
    unary main_call1_cst_1 main_call1_call0_v0 (id : (⟨S_, .f32⟩ : BufTy).Contents (Elt F) → (⟨S_, .f32⟩ : BufTy).Contents (Elt F)),
    unary main_call1_call0_v0 main_call1_call0_v1 (broadcastInDim S100000x16 ![] bcast_S_S100000x16 : (⟨S_, .f32⟩ : BufTy).Contents (Elt F) → (⟨S100000x16, .f32⟩ : BufTy).Contents (Elt F)),
    ternary main_call1_v3 main_call1_call0_v1 main_v52 main_call1_v4 (select : (⟨S100000x16, .i1⟩ : BufTy).Contents (Elt F) → (⟨S100000x16, .f32⟩ : BufTy).Contents (Elt F) → (⟨S100000x16, .f32⟩ : BufTy).Contents (Elt F) → (⟨S100000x16, .f32⟩ : BufTy).Contents (Elt F)),
    unary main_call1_v4 main_call1_v5 (Host.expm1 : (⟨S100000x16, .f32⟩ : BufTy).Contents (Elt F) → (⟨S100000x16, .f32⟩ : BufTy).Contents (Elt F)),
    nullary main_call1_cst_2 (constant S_ .f32 0x3F800000#32),
    unary main_call1_cst_2 main_call1_v6 (broadcastInDim S100000x16 ![] bcast_S_S100000x16 : (⟨S_, .f32⟩ : BufTy).Contents (Elt F) → (⟨S100000x16, .f32⟩ : BufTy).Contents (Elt F)),
    binary main_call1_v6 main_call1_v5 main_call1_v7 (mulf : (⟨S100000x16, .f32⟩ : BufTy).Contents (Elt F) → (⟨S100000x16, .f32⟩ : BufTy).Contents (Elt F) → (⟨S100000x16, .f32⟩ : BufTy).Contents (Elt F)),
    ternary main_call1_v1 main_v52 main_call1_v7 main_v53 (select : (⟨S100000x16, .i1⟩ : BufTy).Contents (Elt F) → (⟨S100000x16, .f32⟩ : BufTy).Contents (Elt F) → (⟨S100000x16, .f32⟩ : BufTy).Contents (Elt F) → (⟨S100000x16, .f32⟩ : BufTy).Contents (Elt F)) ]
set_option maxRecDepth 16384 in
/-- The two spellings are one list: a typed reference at a literal buffer converts contents by the identity. -/
theorem w4_eq : (w4 : List (HloOp τ sig (Elt F))) = e4 := rfl

/-- The stretch `w6` with each operation spelt over the buffers themselves. -/
abbrev e6 : List (HloOp τ sig (Elt F)) :=
  [ nullary main_call2_cst (constant S_ .f32 0x00000000#32),
    unary main_call2_cst main_call2_v0 (broadcastInDim S100000x16 ![] bcast_S_S100000x16 : (⟨S_, .f32⟩ : BufTy).Contents (Elt F) → (⟨S100000x16, .f32⟩ : BufTy).Contents (Elt F)),
    binary main_v77 main_call2_v0 main_call2_v1 (cmpf .ogt : (⟨S100000x16, .f32⟩ : BufTy).Contents (Elt F) → (⟨S100000x16, .f32⟩ : BufTy).Contents (Elt F) → (⟨S100000x16, .i1⟩ : BufTy).Contents (Elt F)),
    nullary main_call2_cst_0 (constant S_ .f32 0x00000000#32),
    unary main_call2_cst_0 main_call2_v2 (broadcastInDim S100000x16 ![] bcast_S_S100000x16 : (⟨S_, .f32⟩ : BufTy).Contents (Elt F) → (⟨S100000x16, .f32⟩ : BufTy).Contents (Elt F)),
    binary main_v77 main_call2_v2 main_call2_v3 (cmpf .ogt : (⟨S100000x16, .f32⟩ : BufTy).Contents (Elt F) → (⟨S100000x16, .f32⟩ : BufTy).Contents (Elt F) → (⟨S100000x16, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 (broadcastInDim S100000x16 ![] bcast_S_S100000x16 : (⟨S_, .f32⟩ : BufTy).Contents (Elt F) → (⟨S100000x16, .f32⟩ : BufTy).Contents (Elt F)),
    ternary main_call2_v3 main_call2_call0_v1 main_v77 main_call2_v4 (select : (⟨S100000x16, .i1⟩ : BufTy).Contents (Elt F) → (⟨S100000x16, .f32⟩ : BufTy).Contents (Elt F) → (⟨S100000x16, .f32⟩ : BufTy).Contents (Elt F) → (⟨S100000x16, .f32⟩ : BufTy).Contents (Elt F)),
    unary main_call2_v4 main_call2_v5 (Host.expm1 : (⟨S100000x16, .f32⟩ : BufTy).Contents (Elt F) → (⟨S100000x16, .f32⟩ : BufTy).Contents (Elt F)),
    nullary main_call2_cst_2 (constant S_ .f32 0x3F800000#32),
    unary main_call2_cst_2 main_call2_v6 (broadcastInDim S100000x16 ![] bcast_S_S100000x16 : (⟨S_, .f32⟩ : BufTy).Contents (Elt F) → (⟨S100000x16, .f32⟩ : BufTy).Contents (Elt F)),
    binary main_call2_v6 main_call2_v5 main_call2_v7 (mulf : (⟨S100000x16, .f32⟩ : BufTy).Contents (Elt F) → (⟨S100000x16, .f32⟩ : BufTy).Contents (Elt F) → (⟨S100000x16, .f32⟩ : BufTy).Contents (Elt F)),
    ternary main_call2_v1 main_v77 main_call2_v7 main_v78 (select : (⟨S100000x16, .i1⟩ : BufTy).Contents (Elt F) → (⟨S100000x16, .f32⟩ : BufTy).Contents (Elt F) → (⟨S100000x16, .f32⟩ : BufTy).Contents (Elt F) → (⟨S100000x16, .f32⟩ : BufTy).Contents (Elt F)) ]
set_option maxRecDepth 16384 in
/-- The two spellings are one list: a typed reference at a literal buffer converts contents by the identity. -/
theorem w6_eq : (w6 : List (HloOp τ sig (Elt F))) = e6 := rfl

/-- The stretch `w8` with each operation spelt over the buffers themselves. -/
abbrev e8 : List (HloOp τ sig (Elt F)) :=
  [ nullary main_call3_cst (constant S_ .f32 0x00000000#32),
    unary main_call3_cst main_call3_v0 (broadcastInDim S100000x64 ![] bcast_S_S100000x64 : (⟨S_, .f32⟩ : BufTy).Contents (Elt F) → (⟨S100000x64, .f32⟩ : BufTy).Contents (Elt F)),
    binary main_v82 main_call3_v0 main_call3_v1 (cmpf .ogt : (⟨S100000x64, .f32⟩ : BufTy).Contents (Elt F) → (⟨S100000x64, .f32⟩ : BufTy).Contents (Elt F) → (⟨S100000x64, .i1⟩ : BufTy).Contents (Elt F)),
    nullary main_call3_cst_0 (constant S_ .f32 0x00000000#32),
    unary main_call3_cst_0 main_call3_v2 (broadcastInDim S100000x64 ![] bcast_S_S100000x64 : (⟨S_, .f32⟩ : BufTy).Contents (Elt F) → (⟨S100000x64, .f32⟩ : BufTy).Contents (Elt F)),
    binary main_v82 main_call3_v2 main_call3_v3 (cmpf .ogt : (⟨S100000x64, .f32⟩ : BufTy).Contents (Elt F) → (⟨S100000x64, .f32⟩ : BufTy).Contents (Elt F) → (⟨S100000x64, .i1⟩ : BufTy).Contents (Elt F)),
    nullary main_call3_cst_1 (constant S_ .f32 0x00000000#32),
    unary main_call3_cst_1 main_call3_call0_v0 (id : (⟨S_, .f32⟩ : BufTy).Contents (Elt F) → (⟨S_, .f32⟩ : BufTy).Contents (Elt F)),
    unary main_call3_call0_v0 main_call3_call0_v1 (broadcastInDim S100000x64 ![] bcast_S_S100000x64 : (⟨S_, .f32⟩ : BufTy).Contents (Elt F) → (⟨S100000x64, .f32⟩ : BufTy).Contents (Elt F)),
    ternary main_call3_v3 main_call3_call0_v1 main_v82 main_call3_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    unary main_call3_v4 main_call3_v5 (Host.expm1 : (⟨S100000x64, .f32⟩ : BufTy).Contents (Elt F) → (⟨S100000x64, .f32⟩ : BufTy).Contents (Elt F)),
    nullary main_call3_cst_2 (constant S_ .f32 0x3F800000#32),
    unary main_call3_cst_2 main_call3_v6 (broadcastInDim S100000x64 ![] bcast_S_S100000x64 : (⟨S_, .f32⟩ : BufTy).Contents (Elt F) → (⟨S100000x64, .f32⟩ : BufTy).Contents (Elt F)),
    binary main_call3_v6 main_call3_v5 main_call3_v7 (mulf : (⟨S100000x64, .f32⟩ : BufTy).Contents (Elt F) → (⟨S100000x64, .f32⟩ : BufTy).Contents (Elt F) → (⟨S100000x64, .f32⟩ : BufTy).Contents (Elt F)),
    ternary main_call3_v1 main_v82 main_call3_v7 main_v83 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]
set_option maxRecDepth 16384 in
/-- The two spellings are one list: a typed reference at a literal buffer converts contents by the identity. -/
theorem w8_eq : (w8 : List (HloOp τ sig (Elt F))) = e8 := rfl

/-- The stretch `w10` with each operation spelt over the buffers themselves. -/
abbrev e10 : List (HloOp τ sig (Elt F)) :=
  [ nullary main_call4_cst (constant S_ .f32 0x00000000#32),
    unary main_call4_cst main_call4_v0 (broadcastInDim S100000x64 ![] bcast_S_S100000x64 : (⟨S_, .f32⟩ : BufTy).Contents (Elt F) → (⟨S100000x64, .f32⟩ : BufTy).Contents (Elt F)),
    binary main_v87 main_call4_v0 main_call4_v1 (cmpf .ogt : (⟨S100000x64, .f32⟩ : BufTy).Contents (Elt F) → (⟨S100000x64, .f32⟩ : BufTy).Contents (Elt F) → (⟨S100000x64, .i1⟩ : BufTy).Contents (Elt F)),
    nullary main_call4_cst_0 (constant S_ .f32 0x00000000#32),
    unary main_call4_cst_0 main_call4_v2 (broadcastInDim S100000x64 ![] bcast_S_S100000x64 : (⟨S_, .f32⟩ : BufTy).Contents (Elt F) → (⟨S100000x64, .f32⟩ : BufTy).Contents (Elt F)),
    binary main_v87 main_call4_v2 main_call4_v3 (cmpf .ogt : (⟨S100000x64, .f32⟩ : BufTy).Contents (Elt F) → (⟨S100000x64, .f32⟩ : BufTy).Contents (Elt F) → (⟨S100000x64, .i1⟩ : BufTy).Contents (Elt F)),
    nullary main_call4_cst_1 (constant S_ .f32 0x00000000#32),
    unary main_call4_cst_1 main_call4_call0_v0 (id : (⟨S_, .f32⟩ : BufTy).Contents (Elt F) → (⟨S_, .f32⟩ : BufTy).Contents (Elt F)),
    unary main_call4_call0_v0 main_call4_call0_v1 (broadcastInDim S100000x64 ![] bcast_S_S100000x64 : (⟨S_, .f32⟩ : BufTy).Contents (Elt F) → (⟨S100000x64, .f32⟩ : BufTy).Contents (Elt F)),
    ternary main_call4_v3 main_call4_call0_v1 main_v87 main_call4_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    unary main_call4_v4 main_call4_v5 (Host.expm1 : (⟨S100000x64, .f32⟩ : BufTy).Contents (Elt F) → (⟨S100000x64, .f32⟩ : BufTy).Contents (Elt F)),
    nullary main_call4_cst_2 (constant S_ .f32 0x3F800000#32),
    unary main_call4_cst_2 main_call4_v6 (broadcastInDim S100000x64 ![] bcast_S_S100000x64 : (⟨S_, .f32⟩ : BufTy).Contents (Elt F) → (⟨S100000x64, .f32⟩ : BufTy).Contents (Elt F)),
    binary main_call4_v6 main_call4_v5 main_call4_v7 (mulf : (⟨S100000x64, .f32⟩ : BufTy).Contents (Elt F) → (⟨S100000x64, .f32⟩ : BufTy).Contents (Elt F) → (⟨S100000x64, .f32⟩ : BufTy).Contents (Elt F)),
    ternary main_call4_v1 main_v87 main_call4_v7 main_v88 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]
set_option maxRecDepth 16384 in
/-- The two spellings are one list: a typed reference at a literal buffer converts contents by the identity. -/
theorem w10_eq : (w10 : List (HloOp τ sig (Elt F))) = e10 := rfl

/-- The stretch `w12` with each operation spelt over the buffers themselves. -/
abbrev e12 : List (HloOp τ sig (Elt F)) :=
  [ nullary main_call5_cst (constant S_ .f32 0x00000000#32),
    unary main_call5_cst main_call5_v0 (broadcastInDim S100000x64 ![] bcast_S_S100000x64 : (⟨S_, .f32⟩ : BufTy).Contents (Elt F) → (⟨S100000x64, .f32⟩ : BufTy).Contents (Elt F)),
    binary main_v92 main_call5_v0 main_call5_v1 (cmpf .ogt : (⟨S100000x64, .f32⟩ : BufTy).Contents (Elt F) → (⟨S100000x64, .f32⟩ : BufTy).Contents (Elt F) → (⟨S100000x64, .i1⟩ : BufTy).Contents (Elt F)),
    nullary main_call5_cst_0 (constant S_ .f32 0x00000000#32),
    unary main_call5_cst_0 main_call5_v2 (broadcastInDim S100000x64 ![] bcast_S_S100000x64 : (⟨S_, .f32⟩ : BufTy).Contents (Elt F) → (⟨S100000x64, .f32⟩ : BufTy).Contents (Elt F)),
    binary main_v92 main_call5_v2 main_call5_v3 (cmpf .ogt : (⟨S100000x64, .f32⟩ : BufTy).Contents (Elt F) → (⟨S100000x64, .f32⟩ : BufTy).Contents (Elt F) → (⟨S100000x64, .i1⟩ : BufTy).Contents (Elt F)),
    nullary main_call5_cst_1 (constant S_ .f32 0x00000000#32),
    unary main_call5_cst_1 main_call5_call0_v0 (id : (⟨S_, .f32⟩ : BufTy).Contents (Elt F) → (⟨S_, .f32⟩ : BufTy).Contents (Elt F)),
    unary main_call5_call0_v0 main_call5_call0_v1 (broadcastInDim S100000x64 ![] bcast_S_S100000x64 : (⟨S_, .f32⟩ : BufTy).Contents (Elt F) → (⟨S100000x64, .f32⟩ : BufTy).Contents (Elt F)),
    ternary main_call5_v3 main_call5_call0_v1 main_v92 main_call5_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    unary main_call5_v4 main_call5_v5 (Host.expm1 : (⟨S100000x64, .f32⟩ : BufTy).Contents (Elt F) → (⟨S100000x64, .f32⟩ : BufTy).Contents (Elt F)),
    nullary main_call5_cst_2 (constant S_ .f32 0x3F800000#32),
    unary main_call5_cst_2 main_call5_v6 (broadcastInDim S100000x64 ![] bcast_S_S100000x64 : (⟨S_, .f32⟩ : BufTy).Contents (Elt F) → (⟨S100000x64, .f32⟩ : BufTy).Contents (Elt F)),
    binary main_call5_v6 main_call5_v5 main_call5_v7 (mulf : (⟨S100000x64, .f32⟩ : BufTy).Contents (Elt F) → (⟨S100000x64, .f32⟩ : BufTy).Contents (Elt F) → (⟨S100000x64, .f32⟩ : BufTy).Contents (Elt F)),
    ternary main_call5_v1 main_v92 main_call5_v7 main_v93 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]
set_option maxRecDepth 16384 in
/-- The two spellings are one list: a typed reference at a literal buffer converts contents by the identity. -/
theorem w12_eq : (w12 : List (HloOp τ sig (Elt F))) = e12 := rfl

end Plain

/-! ## Each stretch's value -/

set_option maxRecDepth 16384 in
set_option maxHeartbeats 2000000 in
theorem S1_val (V : 𝕍) : S1 V (Proc.devRef .tc main_v27) = pre32 (V (Proc.devRef .tc main_arg0)) (V (Proc.devRef .tc main_arg1)) (V (Proc.devRef .tc main_arg2)) (V (Proc.devRef .tc main_arg3)) (V (Proc.devRef .tc main_arg4)) := by
  have h := inv0 V
  have e1 := h.src
  have e3 := h.dst
  have a0 := h.arg main_arg0 (by decide)
  have a1 := h.arg main_arg1 (by decide)
  have a2 := h.arg main_arg2 (by decide)
  have a3 := h.arg main_arg3 (by decide)
  have a4 := h.arg main_arg4 (by decide)
  unfold S1
  generalize S0 V = W at *
  after_results_simp
  simp only [e1, e3, a0, a1, a2, a3, a4]
  rfl

set_option maxRecDepth 16384 in
set_option maxHeartbeats 2000000 in
theorem S3_val (V : 𝕍) : S3 V (Proc.devRef .tc main_v52) = pre16 (S2 V (Proc.devRef .tc main_v28)) (V (Proc.devRef .tc main_arg1)) (V (Proc.devRef .tc main_arg5)) (V (Proc.devRef .tc main_arg6)) (V (Proc.devRef .tc main_arg7)) := by
  have h := inv2 V
  have e1 := h.src
  have e3 := h.dst
  have a1 := h.arg main_arg1 (by decide)
  have a5 := h.arg main_arg5 (by decide)
  have a6 := h.arg main_arg6 (by decide)
  have a7 := h.arg main_arg7 (by decide)
  unfold S3 S3a
  generalize S2 V = W at *
  after_results_simp
  simp only [e1, e3, a1, a5, a6, a7]
  rfl

set_option maxRecDepth 16384 in
set_option maxHeartbeats 2000000 in
theorem S5_val (V : 𝕍) : S5 V (Proc.devRef .tc main_v77) = pre16 (S4 V (Proc.devRef .tc main_v53)) (V (Proc.devRef .tc main_arg1)) (V (Proc.devRef .tc main_arg8)) (V (Proc.devRef .tc main_arg9)) (V (Proc.devRef .tc main_arg10)) := by
  have h := inv4 V
  have e1 := h.src
  have e3 := h.dst
  have a1 := h.arg main_arg1 (by decide)
  have a8 := h.arg main_arg8 (by decide)
  have a9 := h.arg main_arg9 (by decide)
  have a10 := h.arg main_arg10 (by decide)
  unfold S5
  generalize S4 V = W at *
  after_results_simp
  simp only [e1, e3, a1, a8, a9, a10]
  rfl

set_option maxRecDepth 16384 in
set_option maxHeartbeats 2000000 in
theorem S7_val (V : 𝕍) : S7 V (Proc.devRef .tc main_v82) = preLin16x64 (S6 V (Proc.devRef .tc main_v78)) (V (Proc.devRef .tc main_arg11)) (V (Proc.devRef .tc main_arg12)) := by
  have h := inv6 V
  have a11 := h.arg main_arg11 (by decide)
  have a12 := h.arg main_arg12 (by decide)
  unfold S7
  generalize S6 V = W at *
  after_results_simp
  simp only [a11, a12]
  rfl

set_option maxRecDepth 16384 in
set_option maxHeartbeats 2000000 in
theorem S9_val (V : 𝕍) : S9 V (Proc.devRef .tc main_v87) = preLin64x64 (S8 V (Proc.devRef .tc main_v83)) (V (Proc.devRef .tc main_arg13)) (V (Proc.devRef .tc main_arg14)) := by
  have h := inv8 V
  have a13 := h.arg main_arg13 (by decide)
  have a14 := h.arg main_arg14 (by decide)
  unfold S9
  generalize S8 V = W at *
  after_results_simp
  simp only [a13, a14]
  rfl

set_option maxRecDepth 16384 in
set_option maxHeartbeats 2000000 in
theorem S11_val (V : 𝕍) : S11 V (Proc.devRef .tc main_v92) = preLin64x64 (S10 V (Proc.devRef .tc main_v88)) (V (Proc.devRef .tc main_arg15)) (V (Proc.devRef .tc main_arg16)) := by
  have h := inv10 V
  have a15 := h.arg main_arg15 (by decide)
  have a16 := h.arg main_arg16 (by decide)
  unfold S11
  generalize S10 V = W at *
  after_results_simp
  simp only [a15, a16]
  rfl

set_option maxRecDepth 16384 in
set_option maxHeartbeats 2000000 in
theorem S13_val (V : 𝕍) : S13 V (Proc.devRef .tc main_v97) = lin64x4 (S12 V (Proc.devRef .tc main_v93)) (V (Proc.devRef .tc main_arg17)) (V (Proc.devRef .tc main_arg18)) := by
  have h := inv12 V
  have a17 := h.arg main_arg17 (by decide)
  have a18 := h.arg main_arg18 (by decide)
  unfold S13
  generalize S12 V = W at *
  after_results_simp
  simp only [a17, a18]
  rfl

set_option maxRecDepth 16384 in
set_option maxHeartbeats 2000000 in
theorem S2_val (V : 𝕍) : S2 V (Proc.devRef .tc main_v28) = elu16 (S1 V (Proc.devRef .tc main_v27)) := by
  unfold S2
  generalize S1 V = W
  rw [w2_eq]
  after_results_simp <;> rfl

set_option maxRecDepth 16384 in
set_option maxHeartbeats 2000000 in
theorem S4_val (V : 𝕍) : S4 V (Proc.devRef .tc main_v53) = elu16 (S3 V (Proc.devRef .tc main_v52)) := by
  unfold S4
  generalize S3 V = W
  rw [w4_eq]
  after_results_simp <;> rfl

set_option maxRecDepth 16384 in
set_option maxHeartbeats 2000000 in
theorem S6_val (V : 𝕍) : S6 V (Proc.devRef .tc main_v78) = elu16 (S5 V (Proc.devRef .tc main_v77)) := by
  unfold S6
  generalize S5 V = W
  rw [w6_eq]
  after_results_simp <;> rfl

set_option maxRecDepth 16384 in
set_option maxHeartbeats 2000000 in
theorem S8_val (V : 𝕍) : S8 V (Proc.devRef .tc main_v83) = elu64 (S7 V (Proc.devRef .tc main_v82)) := by
  unfold S8
  generalize S7 V = W
  rw [w8_eq]
  after_results_simp <;> rfl

set_option maxRecDepth 16384 in
set_option maxHeartbeats 2000000 in
theorem S10_val (V : 𝕍) : S10 V (Proc.devRef .tc main_v88) = elu64 (S9 V (Proc.devRef .tc main_v87)) := by
  unfold S10
  generalize S9 V = W
  rw [w10_eq]
  after_results_simp <;> rfl

set_option maxRecDepth 16384 in
set_option maxHeartbeats 2000000 in
theorem S12_val (V : 𝕍) : S12 V (Proc.devRef .tc main_v93) = elu64 (S11 V (Proc.devRef .tc main_v92)) := by
  unfold S12
  generalize S11 V = W
  rw [w12_eq]
  after_results_simp <;> rfl

/-! ## The whole line -/

/-- The result buffer after the whole line: the program's function of the arguments. -/
theorem ops_val (V : 𝕍) :
    after (ops (F := Ideal)) V (Proc.devRef .tc main_v97)
      = out (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18)) := by
  rw [after_ops, S13_val, S12_val, S11_val, S10_val, S9_val, S8_val, S7_val, S6_val, S5_val, S4_val, S3_val, S2_val, S1_val]
  rfl

/-- Every argument buffer after the whole line: what it held. -/
theorem ops_arg (V : 𝕍) (r : Ref sig .tc) (hr : r ∈ argRefs) :
    after (ops (F := Ideal)) V (Proc.devRef .tc r) = V (Proc.devRef .tc r) := by
  rw [after_ops]
  exact (inv13 V).arg r hr

end Cert.ReferenceIdeal.RefRun

end
-- ==== Proof.RefRun.lean ====
/-
  The run of the reference program — a three-layer mean-aggregating graph convolution followed by
  a four-layer perceptron, as a straight line of 200 host operations —, at the ideal values: every
  weakly fair execution of @main terminates with the result buffer at `RefTerm.out` of the nineteen
  argument arrays' launch contents, and with every argument array unchanged.
-/
import proofs.«115002_j14955076125382_2_alg».proof.Proof.RefMainEq
import proofs.«115002_j14955076125382_2_alg».proof.Proof.RefVal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- On every device, from any memory with zero counters: every weakly fair execution of @main
    terminates with the result at the program's function of the arguments and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v97) = RefTerm.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun _ h c => ⟨(h c main_v97).trans (ops_val (launchContents m c)),
      (h c main_arg0).trans (ops_arg (launchContents m c) main_arg0 (by decide)),
      (h c main_arg1).trans (ops_arg (launchContents m c) main_arg1 (by decide)),
      (h c main_arg2).trans (ops_arg (launchContents m c) main_arg2 (by decide)),
      (h c main_arg3).trans (ops_arg (launchContents m c) main_arg3 (by decide)),
      (h c main_arg4).trans (ops_arg (launchContents m c) main_arg4 (by decide)),
      (h c main_arg5).trans (ops_arg (launchContents m c) main_arg5 (by decide)),
      (h c main_arg6).trans (ops_arg (launchContents m c) main_arg6 (by decide)),
      (h c main_arg7).trans (ops_arg (launchContents m c) main_arg7 (by decide)),
      (h c main_arg8).trans (ops_arg (launchContents m c) main_arg8 (by decide)),
      (h c main_arg9).trans (ops_arg (launchContents m c) main_arg9 (by decide)),
      (h c main_arg10).trans (ops_arg (launchContents m c) main_arg10 (by decide)),
      (h c main_arg11).trans (ops_arg (launchContents m c) main_arg11 (by decide)),
      (h c main_arg12).trans (ops_arg (launchContents m c) main_arg12 (by decide)),
      (h c main_arg13).trans (ops_arg (launchContents m c) main_arg13 (by decide)),
      (h c main_arg14).trans (ops_arg (launchContents m c) main_arg14 (by decide)),
      (h c main_arg15).trans (ops_arg (launchContents m c) main_arg15 (by decide)),
      (h c main_arg16).trans (ops_arg (launchContents m c) main_arg16 (by decide)),
      (h c main_arg17).trans (ops_arg (launchContents m c) main_arg17 (by decide)),
      (h c main_arg18).trans (ops_arg (launchContents m c) main_arg18 (by decide))⟩)
    (run_fold m ρ)

end Cert.ReferenceIdeal.RefRun

end
-- ==== Proof.Consts.lean ====
/-
  The float literals the two programs spell, as the extended reals their bit patterns denote: `+0.0` is `0`
  (the library's `Ideal.ofBits_zero_f32`) and `1.0`, the pattern with biased exponent 127 and no fraction
  bits, is `2⁰ · 1 = 1`.
-/
import Idealize.ShloMosaic.PureOps.Ideal

noncomputable section

namespace Cert.Sage

open Idealize.ShloMosaic

/-- `1.0` in binary32 denotes the real number one. -/
theorem ofBits_one_f32 : Ideal.ofBits .f32 0x3F800000#32 = 1 := by
  simp [Ideal.ofBits, Ideal.ieee, -EReal.coe_mul]; norm_num

end Cert.Sage

end
-- ==== Proof.LibGatherRows.lean ====
/-
  Two reads of a row gather at an index.

  Taking rows of a table by a column of start indices: for a flat table x of N entries and start indices
  idx of shape [E, 1], entry e of the result is x at idx[e, 0] read as a signed integer and clamped into
  [0, N - 1]; for a table of N rows and K columns the result's entry (e, k) is the table's entry at that
  clamped row and column k.  Both are the general gather's operand index worked out for these dimension
  numbers (one collapsed axis, the start index naming axis 0, the index vector on axis 1).
-/
import Idealize.ShloMosaic.Lib.ValueIdx

namespace Cert.HarmonicLib

open Idealize.ShloMosaic Idealize.ShloMosaic.ValueIdx

variable {α : Type}

/-- The dimension numbers of x[idx] for a flat table x : [N] and a column idx : [E, 1] of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather from a flat table: the table at the clamped start index of e. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 ⟨min (idx (ix2 (y 0) (0 : Fin 1))).toInt.toNat (N - 1), by omega⟩) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The dimension numbers of x[idx] for a table x : [N, K] of rows and a column idx : [E, 1] of start indices. -/
abbrev rowDims (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Entry (e, k) of the gather of rows: the table at the clamped start index of e and column k. -/
theorem gather_row_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (y : (⟨2, ![E, K]⟩ : Shape).Idx) :
    Host.gather (rowDims N K E wf) x idx y
      = x (ix2 ⟨min (idx (ix2 (y 0) (0 : Fin 1))).toInt.toNat (N - 1), by omega⟩ (y 1)) := by
  unfold Host.gather
  congr 1
  funext a
  refine Fin.ext ?_
  show (rowDims N K E wf).start y idx a + (rowDims N K E wf).batchCoord y a + (rowDims N K E wf).offCoord y a = _
  rw [GatherDims.batchCoord_eq_zero _ _ _ List.not_mem_nil]
  have ha : a = 0 ∨ a = 1 := by
    revert a; show ∀ a : Fin 2, a = 0 ∨ a = 1; decide
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K E wf).startIndexMap from List.mem_singleton.mpr rfl)]
    have hsi : (rowDims N K E wf).siIdx y ⟨List.idxOf (0 : Fin 2) (rowDims N K E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  · have hstart : (rowDims N K E wf).start y idx (1 : Fin 2) = 0 := by
      unfold GatherDims.start
      rw [dif_neg (show (1 : Fin 2) ∉ [(0 : Fin 2)] from by decide)]
    have hk : (1 : Fin 2) ∈ (rowDims N K E wf).sKept :=
      (GatherDims.mem_sKept _ _).mpr ⟨(show (1 : Fin 2) ∉ [(0 : Fin 2)] from by decide), List.not_mem_nil⟩
    show (rowDims N K E wf).start y idx (1 : Fin 2) + 0 + (rowDims N K E wf).offCoord y (1 : Fin 2) = _
    rw [hstart]
    unfold GatherDims.offCoord
    rw [dif_pos hk]
    simp only [Nat.zero_add]
    rfl

end Cert.HarmonicLib
-- ==== Proof.LibScatterRows.lean ====
/-
  A row scatter-add read at an index.

  Adding rows of updates into a table at positions given by a column of indices (`table.at[idx].add(upd)` for a
  table of N rows and K columns, indices of shape [E, 1], updates of shape [E, K]): update entry (e, k) lands on
  table entry (idx[e, 0], k), the index read as a signed integer and NOT clamped, and is dropped when that row is
  outside the table.  So, on the extended reals, entry (n, q) of the result is the table's entry plus the sum, over
  the update rows e whose index is n, of the updates' entry (e, q).
-/
import Idealize.ShloMosaic.Lib.ValueIdx
import Idealize.ShloMosaic.PureOps.Ideal
import Idealize.ShloMosaic.PureOps.Ideal.Laws

noncomputable section

namespace Cert.SageLib

open Idealize.ShloMosaic Idealize.ShloMosaic.ValueIdx

/-- The dimension numbers of `table.at[idx].add(upd)` for a table [N, K], indices [E, 1] and updates [E, K]. -/
abbrev rowScatter (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N K E w : Nat} (wf : ScatterDims.WF ⟨2, ![N, K]⟩ ⟨2, ![E, 1]⟩ ⟨2, ![E, K]⟩ [1] [0] [0] 1)

/-- On the row axis the window of update (e, k) starts at the index of e, read signed. -/
theorem start_row (j : (⟨2, ![E, K]⟩ : Shape).Idx) (idx : IVec ⟨2, ![E, 1]⟩ w) :
    (rowScatter N K E wf).start j idx 0 = (idx (ix2 (j 0) (0 : Fin 1))).toInt := by
  unfold ScatterDims.start
  rw [dif_pos (show (0 : Fin 2) ∈ (rowScatter N K E wf).scatterDimsToOperandDims from List.mem_singleton.mpr rfl)]
  have hsi : (rowScatter N K E wf).siIdx j ⟨List.idxOf (0 : Fin 2) (rowScatter N K E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis it starts at 0. -/
theorem start_col (j : (⟨2, ![E, K]⟩ : Shape).Idx) (idx : IVec ⟨2, ![E, 1]⟩ w) :
    (rowScatter N K E wf).start j idx 1 = 0 := by
  unfold ScatterDims.start
  rw [dif_neg (show (1 : Fin 2) ∉ [(0 : Fin 2)] from by decide)]

/-- The window coordinate on the row axis is 0 (the axis is inserted). -/
theorem window_row (j : (⟨2, ![E, K]⟩ : Shape).Idx) : (rowScatter N K E wf).window j 0 = 0 := by
  unfold ScatterDims.window
  rw [dif_neg]
  simp [ScatterDims.sKept, Shape.kept, List.mem_filter]

/-- The window coordinate on the column axis is the update's column. -/
theorem window_col (j : (⟨2, ![E, K]⟩ : Shape).Idx) : (rowScatter N K E wf).window j 1 = (j 1).val := by
  unfold ScatterDims.window
  rw [dif_pos (by simp [ScatterDims.sKept, Shape.kept, List.mem_filter])]
  rfl

/-- Update entry `j = (e, k)` lands on table entry `i` exactly when the index of `e` is `i`'s row and `k` is `i`'s column. -/
theorem resultIdx_rows (j : (⟨2, ![E, K]⟩ : Shape).Idx) (idx : IVec ⟨2, ![E, 1]⟩ w) (i : (⟨2, ![N, K]⟩ : Shape).Idx) :
    (rowScatter N K E wf).resultIdx? j idx = some i ↔
      (idx (ix2 (j 0) (0 : Fin 1))).toInt = ((i 0).val : Int) ∧ (j 1).val = (i 1).val := by
  have s0 := start_row wf j idx
  have s1 := start_col wf j idx
  have w0 := window_row wf j
  have w1 := window_col wf j
  have hi0 : (i 0).val < N := idx2_lt0 i
  have hi1 : (i 1).val < K := idx2_lt1 i
  have hj1 : (j 1).val < K := idx2_lt1 j
  have z0 : (⟨2, ![N, K]⟩ : Shape).size 0 = N := rfl
  have z1 : (⟨2, ![N, K]⟩ : Shape).size 1 = K := rfl
  unfold ScatterDims.resultIdx?
  split_ifs with h
  · have h0 := h 0
    have h1 := h 1
    rw [s0, w0, z0] at h0
    rw [s1, w1, z1] at h1
    constructor
    · intro hf
      have hf' := Option.some.inj hf
      have e0 : ((rowScatter N K E wf).start j idx 0 + ((rowScatter N K E wf).window j 0 : Nat)).toNat = (i 0).val :=
        congrArg (fun g : (⟨2, ![N, K]⟩ : Shape).Idx => (g 0).val) hf'
      have e1 : ((rowScatter N K E wf).start j idx 1 + ((rowScatter N K E wf).window j 1 : Nat)).toNat = (i 1).val :=
        congrArg (fun g : (⟨2, ![N, K]⟩ : Shape).Idx => (g 1).val) hf'
      rw [s0, w0] at e0
      rw [s1, w1] at e1
      omega
    · rintro ⟨e0, e1⟩
      congr 1
      funext a
      refine Fin.ext ?_
      have ha : a = 0 ∨ a = 1 := by
        revert a; show ∀ a : Fin 2, a = 0 ∨ a = 1; decide
      rcases ha with rfl | rfl
      · show ((rowScatter N K E wf).start j idx 0 + ((rowScatter N K E wf).window j 0 : Nat)).toNat = (i 0).val
        rw [s0, w0]; omega
      · show ((rowScatter N K E wf).start j idx 1 + ((rowScatter N K E wf).window j 1 : Nat)).toNat = (i 1).val
        rw [s1, w1]; omega
  · constructor
    · intro hf; exact absurd hf (by simp)
    · rintro ⟨e0, e1⟩
      exfalso
      apply h
      intro a
      have ha : a = 0 ∨ a = 1 := by
        revert a; show ∀ a : Fin 2, a = 0 ∨ a = 1; decide
      rcases ha with rfl | rfl
      · rw [s0, w0, z0]; omega
      · rw [s1, w1, z1]; omega

/-- THE SCATTER-ADD READ AT (n, q): the table's entry plus the sum of the updates' entries (e, q) over the update
    rows `e` whose index is `n`. -/
theorem scatterAdd_rows_apply (x : (⟨2, ![N, K]⟩ : Shape).Idx → EReal) (idx : IVec ⟨2, ![E, 1]⟩ w)
    (upd : (⟨2, ![E, K]⟩ : Shape).Idx → EReal) (n : Fin N) (q : Fin K) :
    Ideal.hostScatterAdd (rowScatter N K E wf) x idx upd (ix2 n q)
      = x (ix2 n q) + ∑ e : Fin E, if (idx (ix2 e (0 : Fin 1))).toInt = (n.val : Int) then upd (ix2 e q) else 0 := by
  unfold Ideal.hostScatterAdd
  congr 1
  rw [Finset.sum_filter, sum_idx2]
  refine Finset.sum_congr rfl fun e _ => ?_
  by_cases hT : (idx (ix2 e (0 : Fin 1))).toInt = (n.val : Int)
  · rw [if_pos hT]
    rw [Finset.sum_eq_single q]
    · rw [if_pos ((resultIdx_rows wf (ix2 e q) idx (ix2 n q)).mpr ⟨hT, rfl⟩)]
    · intro k _ hk
      rw [if_neg]
      intro hf
      exact hk (Fin.ext ((resultIdx_rows wf (ix2 e k) idx (ix2 n q)).mp hf).2)
    · intro hq; exact absurd (Finset.mem_univ q) hq
  · rw [if_neg hT]
    refine Finset.sum_eq_zero fun k _ => ?_
    rw [if_neg]
    intro hf
    exact hT ((resultIdx_rows wf (ix2 e k) idx (ix2 n q)).mp hf).1

end Cert.SageLib

end
-- ==== Proof.Algebra.lean ====
/-
  The pure facts that join the two programs.

  * Gathering rows of a table at the edges' sources and adding them at the edges' destinations leaves, at node n and
    column q, the sum over the edges whose destination is n of the table's entry at (source, q): `msgSum`.
  * An in-degree is a count, hence a real number; `max` with one keeps it a real that is at least one, and dividing
    by such a real is multiplying by its reciprocal, on every extended real.
  * The reference's exponential linear unit, spelt `1 · expm1 (if 0 < v then 0 else v)` off the positives, is `elu`.
  * Summing messages commutes with a linear map when the features and the weights are real numbers:
    `(∑ₑ x(src e) · W) · c = ∑ₖ ((∑ₑ x(src e)ₖ) · c) · Wₖ` — projecting before or after the aggregation is the same.
-/
import Idealize.ShloMosaic.Lib.StackMember
import proofs.«115002_j14955076125382_2_alg».proof.Proof.Spec
import proofs.«115002_j14955076125382_2_alg».proof.Proof.Consts
import proofs.«115002_j14955076125382_2_alg».proof.Proof.LibGatherRows
import proofs.«115002_j14955076125382_2_alg».proof.Proof.LibScatterRows

noncomputable section

namespace Cert.Sage

open Idealize.ShloMosaic Idealize.ShloMosaic.ValueIdx

/-! ## Messages summed at a node -/

/-- The source row of edge `e`: its index read signed and clamped into the table. -/
def srcRow {N E w : Nat} (hN : 0 < N) (src : IVec ⟨2, ![E, 1]⟩ w) (e : Fin E) : Fin N :=
  ⟨min (src (ix2 e (0 : Fin 1))).toInt.toNat (N - 1), by omega⟩

/-- Edge `e` points at node `n`: its destination index, read signed, is `n`. -/
def pointsAt {N E w : Nat} (dst : IVec ⟨2, ![E, 1]⟩ w) (e : Fin E) (n : Fin N) : Prop :=
  (dst (ix2 e (0 : Fin 1))).toInt = (n.val : Int)

instance {N E w : Nat} (dst : IVec ⟨2, ![E, 1]⟩ w) (e : Fin E) (n : Fin N) : Decidable (pointsAt dst e n) :=
  inferInstanceAs (Decidable (_ = _))

/-- The sum, over the edges pointing at `n`, of the table's entry at the edge's source row and column `q`. -/
def msgSum {N K E w : Nat} (hN : 0 < N) (dst src : IVec ⟨2, ![E, 1]⟩ w) (X : Mat N K) (n : Fin N) (q : Fin K) : EReal :=
  ∑ e : Fin E, if pointsAt dst e n then X (ix2 (srcRow hN src e) q) else 0

/-- Rows gathered at the sources and added at the destinations into zeros, read at (n, q). -/
theorem scatter_gather_apply {N K E w : Nat} (hN : 0 < N)
    (wfS : ScatterDims.WF ⟨2, ![N, K]⟩ ⟨2, ![E, 1]⟩ ⟨2, ![E, K]⟩ [1] [0] [0] 1)
    (wfG : GatherDims.WF ⟨2, ![N, K]⟩ ⟨2, ![E, 1]⟩ ⟨2, ![E, K]⟩ [1] [0] [] [0] [] 1 ![1, K])
    (z : Mat N K) (hz : ∀ i, z i = 0) (dst src : IVec ⟨2, ![E, 1]⟩ w) (X : Mat N K) (n : Fin N) (q : Fin K) :
    Ideal.hostScatterAdd (SageLib.rowScatter N K E wfS) z dst (Host.gather (HarmonicLib.rowDims N K E wfG) X src) (ix2 n q)
      = msgSum hN dst src X n q := by
  rw [SageLib.scatterAdd_rows_apply, hz, zero_add]
  unfold msgSum
  refine Finset.sum_congr rfl fun e _ => ?_
  refine if_congr Iff.rfl ?_ rfl
  exact HarmonicLib.gather_row_apply hN wfG X src (ix2 e q)

/-- The same into any initial table `z`: its entry plus the summed messages. -/
theorem scatter_gather_apply' {N K E w : Nat} (hN : 0 < N)
    (wfS : ScatterDims.WF ⟨2, ![N, K]⟩ ⟨2, ![E, 1]⟩ ⟨2, ![E, K]⟩ [1] [0] [0] 1)
    (wfG : GatherDims.WF ⟨2, ![N, K]⟩ ⟨2, ![E, 1]⟩ ⟨2, ![E, K]⟩ [1] [0] [] [0] [] 1 ![1, K])
    (z : Mat N K) (dst src : IVec ⟨2, ![E, 1]⟩ w) (X : Mat N K) (n : Fin N) (q : Fin K) :
    Ideal.hostScatterAdd (SageLib.rowScatter N K E wfS) z dst (Host.gather (HarmonicLib.rowDims N K E wfG) X src) (ix2 n q)
      = z (ix2 n q) + msgSum hN dst src X n q := by
  rw [SageLib.scatterAdd_rows_apply]
  unfold msgSum
  refine congrArg (z (ix2 n q) + ·) (Finset.sum_congr rfl fun e _ => ?_)
  refine if_congr Iff.rfl ?_ rfl
  exact HarmonicLib.gather_row_apply hN wfG X src (ix2 e q)

/-- Updates `o` added at the destinations into a table `z` of one column, read at (n, 0). -/
theorem scatter_col_apply' {N E w : Nat}
    (wfS : ScatterDims.WF ⟨2, ![N, 1]⟩ ⟨2, ![E, 1]⟩ ⟨2, ![E, 1]⟩ [1] [0] [0] 1)
    (z : Mat N 1) (o : Mat E 1) (dst : IVec ⟨2, ![E, 1]⟩ w) (n : Fin N) :
    Ideal.hostScatterAdd (SageLib.rowScatter N 1 E wfS) z dst o (ix2 n (0 : Fin 1))
      = z (ix2 n (0 : Fin 1)) + ∑ e : Fin E, if pointsAt dst e n then o (ix2 e (0 : Fin 1)) else 0 := by
  rw [SageLib.scatterAdd_rows_apply]
  rfl

/-- Ones added at the destinations into zeros, read at (n, 0): the number of edges pointing at `n`. -/
theorem scatter_ones_apply {N E w : Nat}
    (wfS : ScatterDims.WF ⟨2, ![N, 1]⟩ ⟨2, ![E, 1]⟩ ⟨2, ![E, 1]⟩ [1] [0] [0] 1)
    (z : Mat N 1) (hz : ∀ i, z i = 0) (o : Mat E 1) (ho : ∀ i, o i = 1) (dst : IVec ⟨2, ![E, 1]⟩ w) (n : Fin N) :
    Ideal.hostScatterAdd (SageLib.rowScatter N 1 E wfS) z dst o (ix2 n (0 : Fin 1))
      = ∑ e : Fin E, if pointsAt dst e n then (1 : EReal) else 0 := by
  rw [SageLib.scatterAdd_rows_apply, hz, zero_add]
  refine Finset.sum_congr rfl fun e _ => ?_
  exact if_congr Iff.rfl (ho _) rfl

/-! ## Real numbers among the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A count is a nonnegative real. -/
theorem count_real {ι : Type} [Fintype ι] (p : ι → Prop) [DecidablePred p] :
    ∃ r : ℝ, 0 ≤ r ∧ (∑ e : ι, if p e then (1 : EReal) else 0) = (r : EReal) := by
  refine ⟨∑ e : ι, if p e then (1 : ℝ) else 0, Finset.sum_nonneg fun e _ => by split_ifs <;> norm_num, ?_⟩
  rw [coe_sum]
  refine Finset.sum_congr rfl fun e _ => ?_
  split_ifs <;> simp

/-- The clamped degree `max count 1` is a real number that is at least one. -/
theorem max_count_real {ι : Type} [Fintype ι] (p : ι → Prop) [DecidablePred p] :
    ∃ r : ℝ, 1 ≤ r ∧ max (∑ e : ι, if p e then (1 : EReal) else 0) 1 = (r : EReal) := by
  obtain ⟨r, _, hr⟩ := count_real p
  refine ⟨max r 1, le_max_right _ _, ?_⟩
  rw [hr]
  rcases le_total r 1 with h | h
  · rw [max_eq_right h, max_eq_right (by exact_mod_cast h)]
    rfl
  · rw [max_eq_left h, max_eq_left (by exact_mod_cast h)]

/-- Multiplying by the reciprocal `1 / d` of a nonzero real is dividing by `d`, on every extended real. -/
theorem mul_inv_real (x : EReal) (d : ℝ) (hd : d ≠ 0) : x * Ideal.div 1 (d : EReal) = Ideal.div x (d : EReal) := by
  rw [Ideal.div_coe hd, Ideal.div_coe hd, one_mul]

/-! ## The reference's spelling of the exponential linear unit -/

/-- `v` on the positives; elsewhere `1 · (exp w − 1)` with `w` the operand cleared to zero on the positives. -/
theorem elu_ref (v : EReal) :
    Scalar.select (Ideal.cmp .ogt v 0) v (1 * (Ideal.exp (Scalar.select (Ideal.cmp .ogt v 0) 0 v) - 1)) = elu v := by
  unfold elu
  by_cases h : 0 < v
  · have hc : Ideal.cmp .ogt v 0 = 1#1 := by simp [Ideal.cmp, h]
    rw [hc, ValueIdx.select_one, if_pos h]
  · have hc : Ideal.cmp .ogt v 0 = 0#1 := by simp [Ideal.cmp, h]
    rw [hc, ValueIdx.select_zero, ValueIdx.select_zero, if_neg h, one_mul]

/-- The kernels' spelling: `v` on the positives, elsewhere `exp (min v 0) − 1`. -/
theorem elu_ker (v : EReal) :
    Scalar.select (Ideal.cmp .ogt v 0) v (Ideal.exp (min v 0) - 1) = elu v := by
  unfold elu
  by_cases h : 0 < v
  · have hc : Ideal.cmp .ogt v 0 = 1#1 := by simp [Ideal.cmp, h]
    rw [hc, ValueIdx.select_one, if_pos h]
  · have hc : Ideal.cmp .ogt v 0 = 0#1 := by simp [Ideal.cmp, h]
    rw [hc, ValueIdx.select_zero, if_neg h, min_eq_left (not_lt.mp h)]

/-! ## Aggregation commutes with a linear map, over the reals -/

/-- Project-then-aggregate is aggregate-then-project when the features and the weights are real. -/
theorem proj_agg_real {ι : Type} [Fintype ι] {N K D : Nat} (T : ι → Prop) [DecidablePred T] (g : ι → Fin N)
    (X : Mat N K) (W : Mat K D) (hX : ∀ i, ∃ r : ℝ, X i = (r : EReal)) (hW : ∀ i, ∃ r : ℝ, W i = (r : EReal))
    (c : ℝ) (q : Fin D) :
    (∑ e : ι, if T e then rowMat (row X (g e)) W q else 0) * (c : EReal)
      = rowMat (fun k => (∑ e : ι, if T e then X (ix2 (g e) k) else 0) * (c : EReal)) W q := by
  choose xr hx using hX
  choose wr hw using hW
  have hL : (∑ e : ι, if T e then rowMat (row X (g e)) W q else 0) * (c : EReal)
      = (((∑ e : ι, if T e then ∑ k : Fin K, xr (ix2 (g e) k) * wr (ix2 k q) else 0) * c : ℝ) : EReal) := by
    rw [EReal.coe_mul, coe_sum]
    congr 1
    refine Finset.sum_congr rfl fun e _ => ?_
    split_ifs
    · unfold rowMat
      rw [coe_sum]
      refine Finset.sum_congr rfl fun k _ => ?_
      rw [EReal.coe_mul, ← hx, ← hw]
    · rfl
  have hR : rowMat (fun k => (∑ e : ι, if T e then X (ix2 (g e) k) else 0) * (c : EReal)) W q
      = ((∑ k : Fin K, ((∑ e : ι, if T e then xr (ix2 (g e) k) else 0) * c) * wr (ix2 k q) : ℝ) : EReal) := by
    unfold rowMat
    rw [coe_sum]
    refine Finset.sum_congr rfl fun k _ => ?_
    rw [EReal.coe_mul, EReal.coe_mul, coe_sum, ← hw]
    refine congrArg (fun t : EReal => t * (c : EReal) * W (ix2 k q)) ?_
    refine Finset.sum_congr rfl fun e _ => ?_
    split_ifs
    · exact hx _
    · rfl
  rw [hL, hR]
  congr 1
  rw [Finset.sum_mul]
  have : ∀ k : Fin K, ((∑ e : ι, if T e then xr (ix2 (g e) k) else 0) * c) * wr (ix2 k q)
      = ∑ e : ι, (if T e then xr (ix2 (g e) k) * wr (ix2 k q) else 0) * c := by
    intro k
    rw [Finset.sum_mul, Finset.sum_mul]
    refine Finset.sum_congr rfl fun e _ => ?_
    split_ifs <;> ring
  simp only [this]
  rw [Finset.sum_comm]
  refine Finset.sum_congr rfl fun e _ => ?_
  split_ifs
  · rw [Finset.sum_mul]
  · simp

end Cert.Sage

end
-- ==== Proof.Bridge.lean ====
/-
  The two programs compute one function.

  Both read the edge list the same way (the same source rows, clamped, and the same destination indices), so both
  aggregate with the same `msgSum`.  The kernel program multiplies the summed messages by the reciprocal degree
  `1 / max(deg, 1)`; the reference divides by `max(deg, 1)`: the clamped degree is a real number that is at least
  one, so the two agree on every extended real.  The two programs add the bias and the root term in different orders,
  which addition does not see.  In the first layer the kernel program projects the features by `Wl` BEFORE it
  aggregates where the reference projects the aggregate: equal because the features and `Wl` are real numbers
  (the precondition), by linearity of the sum.  The later layers and the four-layer head are the same row functions
  on both sides.
-/
import proofs.«115002_j14955076125382_2_alg».proof.Proof.KerTerm
import proofs.«115002_j14955076125382_2_alg».proof.Proof.RefTerm
import proofs.«115002_j14955076125382_2_alg».proof.Proof.Algebra
import Idealize.ShloMosaic.Lib.Pipeline.Value
import Idealize.ShloMosaic.Lib.ValueLayout

noncomputable section

namespace Cert.Bridge

open Idealize.ShloMosaic Idealize.ShloMosaic.ValueIdx Cert.Sage

variable [hK : Cert.KernelIdeal.Facts] [hR : Cert.ReferenceIdeal.Facts]

/-- The edge list, a [2, E] array of 32-bit node numbers. -/
abbrev Edges : Type := IVec ⟨2, ![2, 3200000]⟩ 32

theorem hN : 0 < 100000 := by norm_num

/-! ## The edge list is read the same way -/

theorem srcIdx_eq (ei : Edges) : Cert.KernelIdeal.KerTerm.srcIdx ei = Cert.ReferenceIdeal.RefTerm.srcIdx ei := rfl
theorem dstIdx_eq (ei : Edges) : Cert.KernelIdeal.KerTerm.dstIdx ei = Cert.ReferenceIdeal.RefTerm.dstIdx ei := rfl

/-- The destination indices as a column [E, 1]. -/
abbrev dst (ei : Edges) : IVec ⟨2, ![3200000, 1]⟩ 32 := Cert.ReferenceIdeal.RefTerm.dstIdx ei
/-- The wrapped source indices as a column [E, 1]. -/
abbrev src (ei : Edges) : IVec ⟨2, ![3200000, 1]⟩ 32 := Cert.ReferenceIdeal.RefTerm.srcIdx ei

/-! ## The aggregation, the degree and its reciprocal, read at a node -/

/-- The printed scatter and gather records are the row scatter and the row gather. -/
theorem kerScatter16 : Cert.KernelIdeal.scatter_S100000x16_S3200000x1_S3200000x16_1_0_0_1
    = SageLib.rowScatter 100000 16 3200000 Cert.KernelIdeal.Facts₀.scatter_S100000x16_S3200000x1_S3200000x16_1_0_0_1_wf := rfl
theorem kerGather16 : Cert.KernelIdeal.gather_S100000x16_S3200000x1_S3200000x16_1_0_n_n_0_1_116
    = HarmonicLib.rowDims 100000 16 3200000 Cert.KernelIdeal.Facts₀.gather_S100000x16_S3200000x1_S3200000x16_1_0_n_n_0_1_116_wf := rfl
theorem refScatter16 : Cert.ReferenceIdeal.scatter_S100000x16_S3200000x1_S3200000x16_1_0_0_1
    = SageLib.rowScatter 100000 16 3200000 Cert.ReferenceIdeal.Facts₀.scatter_S100000x16_S3200000x1_S3200000x16_1_0_0_1_wf := rfl
theorem refGather16 : Cert.ReferenceIdeal.gather_S100000x16_S3200000x1_S3200000x16_1_0_n_n_0_1_116
    = HarmonicLib.rowDims 100000 16 3200000 Cert.ReferenceIdeal.Facts₀.gather_S100000x16_S3200000x1_S3200000x16_1_0_n_n_0_1_116_wf := rfl
theorem refScatter32 : Cert.ReferenceIdeal.scatter_S100000x32_S3200000x1_S3200000x32_1_0_0_1
    = SageLib.rowScatter 100000 32 3200000 Cert.ReferenceIdeal.Facts₀.scatter_S100000x32_S3200000x1_S3200000x32_1_0_0_1_wf := rfl
theorem refGather32 : Cert.ReferenceIdeal.gather_S100000x32_S3200000x1_S3200000x32_1_0_n_n_0_1_132
    = HarmonicLib.rowDims 100000 32 3200000 Cert.ReferenceIdeal.Facts₀.gather_S100000x32_S3200000x1_S3200000x32_1_0_n_n_0_1_132_wf := rfl
theorem refScatter1 : Cert.ReferenceIdeal.scatter_S100000x1_S3200000x1_S3200000x1_1_0_0_1
    = SageLib.rowScatter 100000 1 3200000 Cert.ReferenceIdeal.Facts₀.scatter_S100000x1_S3200000x1_S3200000x1_1_0_0_1_wf := rfl

/-- The host's accumulating scatter at the extended reals is the exact sum `Ideal.hostScatterAdd`. -/
theorem hostScatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The host's quotient at an index is the quotient of the entries. -/
theorem hostDivf_apply {s : Shape} (a b : FVec Ideal s .f32) (i : s.Idx) :
    Host.divf (F := Ideal) a b i = Ideal.div (a i) (b i) := rfl

/-- A splat of the zero literal is zero at every index; a splat of the literal one is one. -/
theorem splat_zero {s : Shape} (hb : (⟨0, ![]⟩ : Shape).BroadcastsInDim s ![]) (i : s.Idx) :
    broadcastInDim s ![] hb (constant (F := Ideal) ⟨0, ![]⟩ .f32 0x00000000#32) i = (0 : EReal) := Ideal.ofBits_zero_f32
theorem splat_one {s : Shape} (hb : (⟨0, ![]⟩ : Shape).BroadcastsInDim s ![]) (i : s.Idx) :
    broadcastInDim s ![] hb (constant (F := Ideal) ⟨0, ![]⟩ .f32 0x3F800000#32) i = (1 : EReal) := ofBits_one_f32

/-- The kernel program's summed messages at (n, q). -/
theorem ker_agg16_apply (ei : Edges) (X : Mat 100000 16) (n : Fin 100000) (q : Fin 16) :
    Cert.KernelIdeal.KerTerm.agg16 ei X (ix2 n q) = msgSum hN (dst ei) (src ei) X n q := by
  unfold Cert.KernelIdeal.KerTerm.agg16
  rw [srcIdx_eq, dstIdx_eq]
  rw [hostScatterAdd_eq]
  rw [kerScatter16, kerGather16, scatter_gather_apply' hN, splat_zero, zero_add]

/-- The reference's clamped degree at node n: the count of the edges pointing at n, or one if that is larger. -/
theorem degMax_apply (ei : Edges) (n : Fin 100000) :
    Cert.ReferenceIdeal.RefTerm.degMax ei (ix2 n (0 : Fin 1))
      = max (∑ e : Fin 3200000, if pointsAt (dst ei) e n then (1 : EReal) else 0) 1 := by
  unfold Cert.ReferenceIdeal.RefTerm.degMax
  rw [maximumf_apply]
  rw [hostScatterAdd_eq]
  rw [refScatter1, scatter_col_apply', splat_zero, zero_add, splat_one]
  refine congrArg (max · 1) (Finset.sum_congr rfl fun e _ => ?_)
  rw [splat_one]

/-- The clamped degree of node n is a real number that is at least one. -/
theorem degMax_real (ei : Edges) (n : Fin 100000) :
    ∃ r : ℝ, 1 ≤ r ∧ Cert.ReferenceIdeal.RefTerm.degMax ei (ix2 n (0 : Fin 1)) = (r : EReal) := by
  rw [degMax_apply]
  exact max_count_real _

/-- The kernel program's reciprocal degree, as a whole array, is the splat of one divided by the reference's clamped degree. -/
theorem invDeg_eq (ei : Edges) :
    Cert.KernelIdeal.KerTerm.invDeg ei
      = Host.divf (F := Ideal) (broadcastInDim Cert.ReferenceIdeal.S100000x1 ![] Cert.ReferenceIdeal.Facts₀.bcast_S_S100000x1
          (constant (F := Ideal) Cert.ReferenceIdeal.S_ .f32 0x3F800000#32)) (Cert.ReferenceIdeal.RefTerm.degMax ei) := rfl

/-- At node n it is one over the clamped degree. -/
theorem invDeg_apply (ei : Edges) (n : Fin 100000) :
    Cert.KernelIdeal.KerTerm.invDeg ei (ix2 n (0 : Fin 1)) = Ideal.div 1 (Cert.ReferenceIdeal.RefTerm.degMax ei (ix2 n (0 : Fin 1))) := by
  rw [invDeg_eq, hostDivf_apply, splat_one]

/-- The reference's mean of the neighbours' rows at width 16: the summed messages over the clamped degree. -/
theorem ref_agg16_apply (ei : Edges) (X : Mat 100000 16) (n : Fin 100000) (q : Fin 16) :
    Cert.ReferenceIdeal.RefTerm.agg16 X ei (ix2 n q)
      = Ideal.div (msgSum hN (dst ei) (src ei) X n q) (Cert.ReferenceIdeal.RefTerm.degMax ei (ix2 n (0 : Fin 1))) := by
  unfold Cert.ReferenceIdeal.RefTerm.agg16
  rw [hostDivf_apply, hostScatterAdd_eq]
  rw [refScatter16, refGather16, scatter_gather_apply' hN, splat_zero, zero_add]
  refine congrArg _ (broadcastInDim_apply _ _ _ _ (ix2 n (0 : Fin 1)) ?_)
  intro a
  match a with
  | ⟨0, _⟩ => rfl
  | ⟨1, _⟩ => rfl

/-- The same at width 32. -/
theorem ref_agg32_apply (ei : Edges) (X : Mat 100000 32) (n : Fin 100000) (q : Fin 32) :
    Cert.ReferenceIdeal.RefTerm.agg32 X ei (ix2 n q)
      = Ideal.div (msgSum hN (dst ei) (src ei) X n q) (Cert.ReferenceIdeal.RefTerm.degMax ei (ix2 n (0 : Fin 1))) := by
  unfold Cert.ReferenceIdeal.RefTerm.agg32
  rw [hostDivf_apply, hostScatterAdd_eq]
  rw [refScatter32, refGather32, scatter_gather_apply' hN, splat_zero, zero_add]
  refine congrArg _ (broadcastInDim_apply _ _ _ _ (ix2 n (0 : Fin 1)) ?_)
  intro a
  match a with
  | ⟨0, _⟩ => rfl
  | ⟨1, _⟩ => rfl

/-! ## Biases, products and the activation, read at an index -/

theorem ker_bias_apply {d : Nat} (b : (⟨1, ![d]⟩ : Shape).Idx → EReal) (h : (⟨1, ![d]⟩ : Shape).ShapeCasts ⟨2, ![1, d]⟩) (q : Fin d) :
    shapeCast ⟨2, ![1, d]⟩ b h (ix2 (0 : Fin 1) q) = b (ix1 q) := shapeCast_a_1a_apply b h 0 q

theorem ref_bias_apply {d : Nat} (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![100000, d]⟩ ![0, 1]) (n : Fin 100000) (q : Fin d) (hd : d ≠ 1) :
    broadcastInDim ⟨2, ![100000, d]⟩ ![0, 1] h2 (broadcastInDim ⟨2, ![1, d]⟩ ![1] h1 b) (ix2 n q) = b (ix1 q) := by
  rw [broadcastInDim_apply _ h2 _ (ix2 n q) (ix2 (0 : Fin 1) q) (by
    intro a
    match a with
    | ⟨0, _⟩ => rfl
    | ⟨1, _⟩ => show q.val = if d = 1 then 0 else q.val; rw [if_neg hd])]
  exact broadcastInDim_apply _ h1 _ (ix2 (0 : Fin 1) q) (ix1 q) (by
    intro a
    match a with
    | ⟨0, _⟩ => show q.val = if d = 1 then 0 else q.val; rw [if_neg hd])

/-- A plain product of an [N, k] array by a [k, d] matrix at (n, q) is the row function `rowMat`. -/
theorem dot_apply {k d : Nat} (L : FVec Ideal ⟨2, ![100000, k]⟩ .f32) (W : FVec Ideal ⟨2, ![k, d]⟩ .f32) (n : Fin 100000) (q : Fin d) :
    Host.dotGeneral (F := Ideal) (DotDims.plain 100000 k d) none L W (ix2 n q) = rowMat (row L n) W q :=
  StackMember.dotGeneral_plain_apply none L W n q

end Cert.Bridge

end
-- ==== Proof.Layers.lean ====
/-
  Layer by layer, the reference's arrays are the kernel program's.

  At node n and column q a convolution layer of the reference is `elu ((mean · Wl + b) + x · Wr)` with
  `mean = msgSum / max(deg, 1)`, and the kernel program's is `elu ((msgSum · inv) · Wl + x · Wr + b)` with
  `inv = 1 / max(deg, 1)` — in the first layer with the projection by `Wl` moved inside the sum over the edges,
  which is where the reality of the features and of `Wl` is used.  The head is the same four dense layers on both
  sides.
-/
import proofs.«115002_j14955076125382_2_alg».proof.Proof.Bridge

noncomputable section

namespace Cert.Bridge

open Idealize.ShloMosaic Idealize.ShloMosaic.ValueIdx Cert.Sage

variable [hK : Cert.KernelIdeal.Facts] [hR : Cert.ReferenceIdeal.Facts]

/-! ## The printed products are plain matrix products -/

theorem refDot32x16 : Cert.ReferenceIdeal.dot_S100000x32_S32x16_S100000x16_1_0_0_1_n_n = DotDims.plain 100000 32 16 := rfl
theorem refDot16x16 : Cert.ReferenceIdeal.dot_S100000x16_S16x16_S100000x16_1_0_0_1_n_n = DotDims.plain 100000 16 16 := rfl
theorem refDot16x64 : Cert.ReferenceIdeal.dot_S100000x16_S16x64_S100000x64_1_0_0_1_n_n = DotDims.plain 100000 16 64 := rfl
theorem refDot64x64 : Cert.ReferenceIdeal.dot_S100000x64_S64x64_S100000x64_1_0_0_1_n_n = DotDims.plain 100000 64 64 := rfl
theorem refDot64x4 : Cert.ReferenceIdeal.dot_S100000x64_S64x4_S100000x4_1_0_0_1_n_n = DotDims.plain 100000 64 4 := rfl

/-! ## The reference's activation at an index -/

theorem ref_elu16_apply (y : Mat 100000 16) (j : (⟨2, ![100000, 16]⟩ : Shape).Idx) :
    Cert.ReferenceIdeal.RefTerm.elu16 y j = elu (y j) := by
  unfold Cert.ReferenceIdeal.RefTerm.elu16 Host.expm1
  simp only [select_apply, mulf_apply, cmpf_apply, id_eq, Ideal.cmpf_def, Ideal.hostUnary_expm1_def]
  rw [splat_zero, splat_one]
  exact elu_ref _

theorem ref_elu64_apply (y : Mat 100000 64) (j : (⟨2, ![100000, 64]⟩ : Shape).Idx) :
    Cert.ReferenceIdeal.RefTerm.elu64 y j = elu (y j) := by
  unfold Cert.ReferenceIdeal.RefTerm.elu64 Host.expm1
  simp only [select_apply, mulf_apply, cmpf_apply, id_eq, Ideal.cmpf_def, Ideal.hostUnary_expm1_def]
  rw [splat_zero, splat_one]
  exact elu_ref _

/-! ## The convolution layers -/

/-- A 16-to-16 layer: the reference's array is the kernel program's `G2` of the same arguments. -/
theorem conv16_eq (ei : Edges) (X : Mat 100000 16) (Wl Wr : Mat 16 16) (b : (⟨1, ![16]⟩ : Shape).Idx → EReal) :
    Cert.ReferenceIdeal.RefTerm.conv16 X ei Wl Wr b
      = G2 (Cert.KernelIdeal.KerTerm.agg16 ei X) X Wl Wr (Cert.KernelIdeal.KerTerm.bias16 b) (Cert.KernelIdeal.KerTerm.invDeg ei) := by
  funext j
  obtain ⟨n, q, rfl⟩ : ∃ (n : Fin 100000) (q : Fin 16), j = ix2 n q := ⟨j 0, j 1, eq_ix2 j⟩
  unfold Cert.ReferenceIdeal.RefTerm.conv16
  rw [ref_elu16_apply]
  unfold Cert.ReferenceIdeal.RefTerm.pre16 Cert.ReferenceIdeal.RefTerm.bias16
  rw [addf_apply, addf_apply, refDot16x16, dot_apply, dot_apply, ref_bias_apply _ _ _ n q (by norm_num)]
  refine (congrArg elu (add_right_comm _ _ _)).trans ?_
  unfold G2 rowSage Cert.KernelIdeal.KerTerm.bias16
  show elu _ = elu (_ + _ + shapeCast _ b _ (ix2 (0 : Fin 1) q))
  rw [ker_bias_apply]
  refine congrArg elu (congrArg (· + b (ix1 q)) (congrArg (· + rowMat (row X n) Wr q) ?_))
  unfold rowMat
  refine Finset.sum_congr rfl fun c _ => congrArg (· * Wl (ix2 c q)) ?_
  obtain ⟨r, hr1, hr⟩ := degMax_real ei n
  show Cert.ReferenceIdeal.RefTerm.agg16 X ei (ix2 n c)
    = Cert.KernelIdeal.KerTerm.agg16 ei X (ix2 n c) * Cert.KernelIdeal.KerTerm.invDeg ei (ix2 n (0 : Fin 1))
  rw [ref_agg16_apply, ker_agg16_apply, invDeg_apply, hr, mul_inv_real _ r (by linarith)]

/-- The first layer: the reference aggregates the 32 features and then projects; the kernel program projects
    (`G0`) and then aggregates 16 features.  Equal when the features and the projection are real. -/
theorem conv32_eq (ei : Edges) (X : Mat 100000 32) (Wl Wr : Mat 32 16) (b : (⟨1, ![16]⟩ : Shape).Idx → EReal)
    (hX : ∀ i, ∃ r : ℝ, X i = (r : EReal)) (hW : ∀ i, ∃ r : ℝ, Wl i = (r : EReal)) :
    Cert.ReferenceIdeal.RefTerm.conv32 X ei Wl Wr b
      = G1 (Cert.KernelIdeal.KerTerm.agg16 ei (G0 X Wl)) X Wr (Cert.KernelIdeal.KerTerm.bias16 b) (Cert.KernelIdeal.KerTerm.invDeg ei) := by
  funext j
  obtain ⟨n, q, rfl⟩ : ∃ (n : Fin 100000) (q : Fin 16), j = ix2 n q := ⟨j 0, j 1, eq_ix2 j⟩
  unfold Cert.ReferenceIdeal.RefTerm.conv32
  rw [ref_elu16_apply]
  unfold Cert.ReferenceIdeal.RefTerm.pre32 Cert.ReferenceIdeal.RefTerm.bias16
  rw [addf_apply, addf_apply, refDot32x16, dot_apply, dot_apply, ref_bias_apply _ _ _ n q (by norm_num)]
  refine (congrArg elu (add_right_comm _ _ _)).trans ?_
  unfold G1 rowSage0 Cert.KernelIdeal.KerTerm.bias16
  show elu _ = elu (_ + _ + shapeCast _ b _ (ix2 (0 : Fin 1) q))
  rw [ker_bias_apply]
  refine congrArg elu (congrArg (· + b (ix1 q)) (congrArg (· + rowMat (row X n) Wr q) ?_))
  obtain ⟨r, hr1, hr⟩ := degMax_real ei n
  have hr0 : r ≠ 0 := by linarith
  show rowMat (fun k => Cert.ReferenceIdeal.RefTerm.agg32 X ei (ix2 n k)) Wl q
    = Cert.KernelIdeal.KerTerm.agg16 ei (G0 X Wl) (ix2 n q) * Cert.KernelIdeal.KerTerm.invDeg ei (ix2 n (0 : Fin 1))
  have hfun : (fun k => Cert.ReferenceIdeal.RefTerm.agg32 X ei (ix2 n k))
      = fun k => msgSum hN (dst ei) (src ei) X n k * (((1 / r : ℝ)) : EReal) :=
    funext fun k => by rw [ref_agg32_apply, hr, Ideal.div_coe hr0]
  rw [hfun, ker_agg16_apply, invDeg_apply, hr, Ideal.div_coe hr0, one_mul]
  unfold msgSum G0
  exact (proj_agg_real (fun e => pointsAt (dst ei) e n) (fun e => srcRow hN (src ei) e) X Wl hX hW (1 / r) q).symm

/-! ## The head -/

theorem lin16x64_apply (H : Mat 100000 16) (W : Mat 16 64) (b : (⟨1, ![64]⟩ : Shape).Idx → EReal) (n : Fin 100000) (q : Fin 64) :
    Cert.ReferenceIdeal.RefTerm.lin16x64 H W b (ix2 n q) = elu (rowDense (row H n) W (Cert.KernelIdeal.KerTerm.bias64 b) q) := by
  unfold Cert.ReferenceIdeal.RefTerm.lin16x64
  rw [ref_elu64_apply]
  unfold Cert.ReferenceIdeal.RefTerm.preLin16x64 Cert.ReferenceIdeal.RefTerm.bias64 rowDense Cert.KernelIdeal.KerTerm.bias64
  rw [addf_apply, refDot16x64, dot_apply, ref_bias_apply _ _ _ n q (by norm_num)]
  show elu _ = elu (_ + shapeCast _ b _ (ix2 (0 : Fin 1) q))
  rw [ker_bias_apply]

theorem lin64x64_apply (H : Mat 100000 64) (W : Mat 64 64) (b : (⟨1, ![64]⟩ : Shape).Idx → EReal) (n : Fin 100000) (q : Fin 64) :
    Cert.ReferenceIdeal.RefTerm.lin64x64 H W b (ix2 n q) = elu (rowDense (row H n) W (Cert.KernelIdeal.KerTerm.bias64 b) q) := by
  unfold Cert.ReferenceIdeal.RefTerm.lin64x64
  rw [ref_elu64_apply]
  unfold Cert.ReferenceIdeal.RefTerm.preLin64x64 Cert.ReferenceIdeal.RefTerm.bias64 rowDense Cert.KernelIdeal.KerTerm.bias64
  rw [addf_apply, refDot64x64, dot_apply, ref_bias_apply _ _ _ n q (by norm_num)]
  show elu _ = elu (_ + shapeCast _ b _ (ix2 (0 : Fin 1) q))
  rw [ker_bias_apply]

theorem lin64x4_apply (H : Mat 100000 64) (W : Mat 64 4) (b : (⟨1, ![4]⟩ : Shape).Idx → EReal) (n : Fin 100000) (q : Fin 4) :
    Cert.ReferenceIdeal.RefTerm.lin64x4 H W b (ix2 n q) = rowDense (row H n) W (Cert.KernelIdeal.KerTerm.bias4 b) q := by
  unfold Cert.ReferenceIdeal.RefTerm.lin64x4 Cert.ReferenceIdeal.RefTerm.bias4 rowDense Cert.KernelIdeal.KerTerm.bias4
  rw [addf_apply, refDot64x4, dot_apply, ref_bias_apply _ _ _ n q (by norm_num)]
  show _ = _ + shapeCast _ b _ (ix2 (0 : Fin 1) q)
  rw [ker_bias_apply]

/-- The four dense layers of the reference, on the rows of `H`, are `rowHead`. -/
theorem head_apply (H : Mat 100000 16) (W0 : Mat 16 64) (b0 : (⟨1, ![64]⟩ : Shape).Idx → EReal) (W1 : Mat 64 64)
    (b1 : (⟨1, ![64]⟩ : Shape).Idx → EReal) (W2 : Mat 64 64) (b2 : (⟨1, ![64]⟩ : Shape).Idx → EReal) (W3 : Mat 64 4)
    (b3 : (⟨1, ![4]⟩ : Shape).Idx → EReal) (n : Fin 100000) (q : Fin 4) :
    Cert.ReferenceIdeal.RefTerm.lin64x4 (Cert.ReferenceIdeal.RefTerm.lin64x64 (Cert.ReferenceIdeal.RefTerm.lin64x64
        (Cert.ReferenceIdeal.RefTerm.lin16x64 H W0 b0) W1 b1) W2 b2) W3 b3 (ix2 n q)
      = rowHead (row H n) W0 (Cert.KernelIdeal.KerTerm.bias64 b0) W1 (Cert.KernelIdeal.KerTerm.bias64 b1)
          W2 (Cert.KernelIdeal.KerTerm.bias64 b2) W3 (Cert.KernelIdeal.KerTerm.bias4 b3) q := by
  rw [lin64x4_apply]
  unfold rowHead
  refine congrArg (fun h => rowDense h W3 (Cert.KernelIdeal.KerTerm.bias4 b3) q) (funext fun q3 => ?_)
  show Cert.ReferenceIdeal.RefTerm.lin64x64 _ W2 b2 (ix2 n q3) = _
  rw [lin64x64_apply]
  refine congrArg (fun h => elu (rowDense h W2 (Cert.KernelIdeal.KerTerm.bias64 b2) q3)) (funext fun q2 => ?_)
  show Cert.ReferenceIdeal.RefTerm.lin64x64 _ W1 b1 (ix2 n q2) = _
  rw [lin64x64_apply]
  refine congrArg (fun h => elu (rowDense h W1 (Cert.KernelIdeal.KerTerm.bias64 b1) q2)) (funext fun q1 => ?_)
  exact lin16x64_apply H W0 b0 n q1

/-! ## The whole programs -/

/-- THE TWO RESULTS ARE ONE ARRAY, when the node features and the first layer's neighbour weights are real. -/
theorem out_eq (a0 : Mat 100000 32) (a1 : Edges) (a2 a3 : Mat 32 16) (a4 : (⟨1, ![16]⟩ : Shape).Idx → EReal)
    (a5 a6 : Mat 16 16) (a7 : (⟨1, ![16]⟩ : Shape).Idx → EReal) (a8 a9 : Mat 16 16) (a10 : (⟨1, ![16]⟩ : Shape).Idx → EReal)
    (a11 : Mat 16 64) (a12 : (⟨1, ![64]⟩ : Shape).Idx → EReal) (a13 : Mat 64 64) (a14 : (⟨1, ![64]⟩ : Shape).Idx → EReal)
    (a15 : Mat 64 64) (a16 : (⟨1, ![64]⟩ : Shape).Idx → EReal) (a17 : Mat 64 4) (a18 : (⟨1, ![4]⟩ : Shape).Idx → EReal)
    (hX : ∀ i, ∃ r : ℝ, a0 i = (r : EReal)) (hW : ∀ i, ∃ r : ℝ, a2 i = (r : EReal)) :
    Cert.ReferenceIdeal.RefTerm.out a0 a1 a2 a3 a4 a5 a6 a7 a8 a9 a10 a11 a12 a13 a14 a15 a16 a17 a18
      = Cert.KernelIdeal.KerTerm.out a0 a1 a2 a3 a4 a5 a6 a7 a8 a9 a10 a11 a12 a13 a14 a15 a16 a17 a18 := by
  unfold Cert.ReferenceIdeal.RefTerm.out Cert.KernelIdeal.KerTerm.out Cert.KernelIdeal.KerTerm.x2
    Cert.KernelIdeal.KerTerm.x1 Cert.KernelIdeal.KerTerm.y0
  rw [conv32_eq a1 a0 a2 a3 a4 hX hW, conv16_eq, conv16_eq]
  funext j
  obtain ⟨n, q, rfl⟩ : ∃ (n : Fin 100000) (q : Fin 4), j = ix2 n q := ⟨j 0, j 1, eq_ix2 j⟩
  rw [head_apply]
  rfl

end Cert.Bridge

end
-- ==== Proof.Finite.lean ====
/-
  What the precondition says about the two arrays the first layer's algebra needs.

  The precondition is the conjunction, over the eighteen float arguments, of "every entry's absolute value is below
  +∞".  An extended real whose absolute value is below +∞ is a real number.  Here the conjunction is opened down to
  its two innermost conjuncts: the node features (argument 0) and the first layer's neighbour weights (argument 2)
  have only real entries.
-/
import proofs.«115002_j14955076125382_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- The pattern of +∞ denotes the top element. -/
theorem ofBits_inf : Ideal.ofBits .f32 0x7F800000#32 = (⊤ : EReal) := by
  simp [Ideal.ofBits, Ideal.ieee]

/-- An extended real of absolute value below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- A conjunction of two one-bit words that is 1 has both conjuncts 1, entry by entry. -/
theorem andi_left {s : Shape} (A B : IVec s 1) (i : s.Idx) (h : andi A B i = 1#1) : A i = 1#1 :=
  (IntOp.andi_eq_one.mp h).1
theorem andi_right {s : Shape} (A B : IVec s 1) (i : s.Idx) (h : andi A B i = 1#1) : B i = 1#1 :=
  (IntOp.andi_eq_one.mp h).2

/-- "All entries have absolute value below +∞" gives: every entry is a real number. -/
theorem real_of_all {s : Shape} {axes : List (Fin s.rank)} (x : FVec Ideal s .f32) (init : IVec S_ 1)
    (hr : s.ReducesTo axes S_) (hu : 0 < S_.numel) (hb : S_.BroadcastsInDim s ![])
    (e : Host.reduce IntOp.andi (cmpf .olt (Host.absf x) (broadcastInDim s ![] hb (constant (F := Ideal) S_ .f32 0x7F800000#32))) init hr hu ix0 = 1#1)
    (i : s.Idx) : ∃ r : ℝ, x i = (r : EReal) :=
  real_of_abs_lt_top (x i) (Host.reduce_andi_all _ init hr hu ix0 e i)

variable [Cert.Pre_finite_inputs.Facts]

set_option maxRecDepth 4096 in
/-- Under the precondition the node features and the first layer's neighbour weights are real. -/
theorem real_x_Wl (a0 : FVec Ideal S100000x32 .f32) (a1 : IVec S2x3200000 32) (a2 a3 : FVec Ideal S32x16 .f32)
    (a4 : FVec Ideal S16 .f32) (a5 a6 : FVec Ideal S16x16 .f32) (a7 : FVec Ideal S16 .f32)
    (a8 a9 : FVec Ideal S16x16 .f32) (a10 : FVec Ideal S16 .f32) (a11 : FVec Ideal S16x64 .f32) (a12 : FVec Ideal S64 .f32)
    (a13 : FVec Ideal S64x64 .f32) (a14 : FVec Ideal S64 .f32) (a15 : FVec Ideal S64x64 .f32) (a16 : FVec Ideal S64 .f32)
    (a17 : FVec Ideal S64x4 .f32) (a18 : FVec Ideal S4 .f32)
    (h : fn (F := Ideal) a0 a1 a2 a3 a4 a5 a6 a7 a8 a9 a10 a11 a12 a13 a14 a15 a16 a17 a18 = fun _ => 1#1) :
    (∀ i, ∃ r : ℝ, a0 i = (r : EReal)) ∧ (∀ i, ∃ r : ℝ, a2 i = (r : EReal)) := by
  have h0 := congrFun h ix0
  unfold fn fn_part1 fn_part2 fn_part3 fn_part4 fn_part5 at h0
  dsimp only at h0
  iterate 16 replace h0 := andi_left _ _ _ h0
  have hx := andi_left _ _ _ h0
  have hw := andi_right _ _ _ h0
  exact ⟨fun i => real_of_all a0 _ _ _ _ hx i, fun i => real_of_all a2 _ _ _ _ hw i⟩

end Cert.Finite

end
-- ==== Proof.lean ====
/-
  A three-layer GraphSAGE network followed by a four-layer perceptron, on 100000 nodes with 32 input features:
  the tiled program and its whole-array reference compute one function.

  Both programs take the node features, the edge list, and the weights and biases of three graph-convolution layers
  and of four dense layers. A convolution layer sums, for every node, the features of its in-neighbours, scales the
  sum by the reciprocal of the (clamped) in-degree, multiplies it by the neighbour weights, adds the node's own
  features times the root weights and the bias, and applies the exponential linear unit; the perceptron is three
  dense layers each followed by that unit and a last dense layer. The reference does this on all 100000 rows at
  once. The tiled program gathers and sums the messages on the host and runs four regions of twenty tiles of 5000
  rows each: a projection of the features, the first convolution (whose neighbour weights were applied by the
  projection, before the sum), the second convolution, and the third convolution fused with the perceptron.

  Every dense stage acts on each row by itself, so a tile's result is the same rows of the whole-array result
  (`Region0` … `Region3`: each region's output array is `Cert.Sage.G0` … `G3` of its input arrays), and the tiled
  program's result is one function `KerTerm.out` of the nineteen arguments (`KerRun`); the reference's is
  `RefTerm.out` (`RefRun`). The two functions differ in the first layer only: the reference multiplies the summed
  and scaled neighbour features by the neighbour weights, the tiled program multiplies each node's features by them
  first and sums and scales afterwards. Moving the matrix product across the sum over neighbours and across the
  scaling is distributivity, which on the extended reals needs the summands finite: the precondition
  `finite_inputs` makes the node features and the first layer's neighbour weights real (`Finite`), and under it
  the two functions are equal (`Layers`). No float format is rounded at the ideal instance, so the tiled program's
  casts to bf16 change nothing, and the ideal pass rewrote no operation: the idealization is the program's own text.
-/
import proofs.«115002_j14955076125382_2_alg».proof.Defs
import proofs.«115002_j14955076125382_2_alg».proof.Proof.Gen.Kernel
import proofs.«115002_j14955076125382_2_alg».proof.Proof.Gen.KernelIdeal
import proofs.«115002_j14955076125382_2_alg».proof.Proof.Gen.ReferenceIdeal
import proofs.«115002_j14955076125382_2_alg».proof.Proof.Gen.Pre_finite_inputs
import proofs.«115002_j14955076125382_2_alg».proof.Proof.KernelFrame
import proofs.«115002_j14955076125382_2_alg».proof.Proof.KernelIdealFrame
import proofs.«115002_j14955076125382_2_alg».proof.Proof.Region0
import proofs.«115002_j14955076125382_2_alg».proof.Proof.Region1
import proofs.«115002_j14955076125382_2_alg».proof.Proof.Region2
import proofs.«115002_j14955076125382_2_alg».proof.Proof.Region3
import proofs.«115002_j14955076125382_2_alg».proof.Proof.KerRun
import proofs.«115002_j14955076125382_2_alg».proof.Proof.RefRun
import proofs.«115002_j14955076125382_2_alg».proof.Proof.Layers
import proofs.«115002_j14955076125382_2_alg».proof.Proof.Finite
import Idealize.ShloMosaic.Adequacy
import Idealize.ShloMosaic.Init

noncomputable section

namespace Cert.Proof

open Idealize.ShloMosaic Idealize.SL.Sem

/-- The tiled program as printed runs and leaves its arguments as launched. -/
theorem frame_Kernel : Cert.frame_Kernel := fun m ρ _ => Cert.Kernel.Gen.frame m ρ

/-- So does the tiled program read on the extended reals. -/
theorem frame_KernelIdeal : Cert.frame_KernelIdeal := fun m ρ _ => Cert.KernelIdeal.Gen.frame m ρ

/-- The reference runs and leaves its arguments as launched: its run with the result dropped. -/
theorem frame_ReferenceIdeal : Cert.frame_ReferenceIdeal := fun m ρ _ =>
  (θ_run Cert.ReferenceIdeal.defs _ _).mono (fun _ h c => (h c).2) (Cert.ReferenceIdeal.RefRun.run m ρ)

/-- The ideal pass rewrote no operation of the tiled program: there is nothing to restate. -/
theorem preserves : Cert.preserves_Kernel_KernelIdeal := trivial

/-- On the extended reals, from memories that agree on the nineteen arguments, the tiled program ends with
    `KerTerm.out` of them and the reference with `RefTerm.out` of them; the precondition makes the node features and
    the first layer's neighbour weights real, and then the two are one array. -/
theorem algebraic : Cert.algebraic_KernelIdeal_ReferenceIdeal := by
  intro m ρ m' ρ' hpre hagree
  refine ⟨_, Cert.KernelIdeal.KerRun.run Cert.KernelIdeal.Region0.final Cert.KernelIdeal.Region1.final
    Cert.KernelIdeal.Region2.final Cert.KernelIdeal.Region3.final m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10, e11, e12, e13, e14, e15, e16, e17, e18⟩ := hagree c
  obtain ⟨hX, hW⟩ := Cert.Finite.real_x_Wl _ _ _ _ _ _ _ _ _ _ _ _ _ _ _ _ _ _ _ (hpre c)
  rw [e0, e1, e2, e3, e4, e5, e6, e7, e8, e9, e10, e11, e12, e13, e14, e15, e16, e17, e18]
  exact Cert.Bridge.out_eq _ _ _ _ _ _ _ _ _ _ _ _ _ _ _ _ _ _ _ hX hW

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
